-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x49 : Shape := ⟨3, ![128, 1024, 49]⟩
abbrev S49x64 : Shape := ⟨2, ![49, 64]⟩
abbrev S64x1000 : Shape := ⟨2, ![64, 1000]⟩
abbrev S1000 : Shape := ⟨1, ![1000]⟩
abbrev S_ : Shape := ⟨0, ![]⟩

class Facts : Prop where
  bcast_S_S128x1024x49 : S_.BroadcastsInDim S128x1024x49 (![] : Fin 0 → Fin S128x1024x49.rank)
  reducesTo_S128x1024x49_S_d0_1_2 : S128x1024x49.ReducesTo [0, 1, 2] S_
  h_S_ : 0 < S_.numel
  bcast_S_S49x64 : S_.BroadcastsInDim S49x64 (![] : Fin 0 → Fin S49x64.rank)
  reducesTo_S49x64_S_d0_1 : S49x64.ReducesTo [0, 1] S_
  bcast_S_S64x1000 : S_.BroadcastsInDim S64x1000 (![] : Fin 0 → Fin S64x1000.rank)
  reducesTo_S64x1000_S_d0_1 : S64x1000.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S64x1000 .f32) (main_arg5 : FVec F S1000 .f32) (main_v13 : IVec S_ 1) (main_v16 : IVec S49x64 1) : IVec S_ 1 :=
  let main_c_5 : IVec S_ 1 := constantI S_ 1 1#1
  let main_v17 : IVec S_ 1 := (fun x v => Host.reduce IntOp.andi x v reducesTo_S49x64_S_d0_1 h_S_) main_v16 main_c_5
  let main_v18 : IVec S_ 1 := andi main_v13 main_v17
  let main_v19 : FVec F S64x1000 .f32 := Host.absf main_arg4
  let main_cst_6 : FVec F S_ .f32 := constant S_ .f32 0x7F800000#32
  let main_v20 : FVec F S64x1000 .f32 := broadcastInDim S64x1000 ![] bcast_S_S64x1000 main_cst_6
  let main_v21 : IVec S64x1000 1 := cmpf .olt main_v19 main_v20
  let main_c_7 : IVec S_ 1 := constantI S_ 1 1#1
  let main_v22 : IVec S_ 1 := (fun x v => Host.reduce IntOp.andi x v reducesTo_S64x1000_S_d0_1 h_S_) main_v21 main_c_7
  let main_v23 : IVec S_ 1 := andi main_v18 main_v22
  let main_v24 : FVec F S1000 .f32 := Host.absf main_arg5
  let main_cst_8 : FVec F S_ .f32 := constant S_ .f32 0x7F800000#32
  let main_v25 : FVec F S1000 .f32 := broadcastInDim S1000 ![] bcast_S_S1000 main_cst_8
  let main_v26 : IVec S1000 1 := cmpf .olt main_v24 main_v25
  let main_c_9 : IVec S_ 1 := constantI S_ 1 1#1
  let main_v27 : IVec S_ 1 := (fun x v => Host.reduce IntOp.andi x v reducesTo_S1000_S_d0 h_S_) main_v26 main_c_9
  let main_v28 : IVec S_ 1 := andi main_v23 main_v27
  main_v28

def fn {F : FTy → Type} [FloatOps F] (main_arg0 : FVec F S128x1024x49 .f32) (main_arg1 : FVec F S49x64 .f32) (main_arg2 : FVec F S49x64 .f32) (main_arg3 : FVec F S49x64 .f32) (main_arg4 : FVec F S64x1000 .f32) (main_arg5 : FVec F S1000 .f32) : IVec S_ 1 :=
  let main_v0 : FVec F S128x1024x49 .f32 := Host.absf main_arg0
  let main_cst : FVec F S_ .f32 := constant S_ .f32 0x7F800000#32
  let main_v1 : FVec F S128x1024x49 .f32 := broadcastInDim S128x1024x49 ![] bcast_S_S128x1024x49 main_cst
  let main_v2 : IVec S128x1024x49 1 := cmpf .olt main_v0 main_v1
  let main_c : IVec S_ 1 := constantI S_ 1 1#1
  let main_v3 : IVec S_ 1 := (fun x v => Host.reduce IntOp.andi x v reducesTo_S128x1024x49_S_d0_1_2 h_S_) main_v2 main_c
  let main_v4 : FVec F S49x64 .f32 := Host.absf main_arg1
  let main_cst_0 : FVec F S_ .f32 := constant S_ .f32 0x7F800000#32
  let main_v5 : FVec F S49x64 .f32 := broadcastInDim S49x64 ![] bcast_S_S49x64 main_cst_0
  let main_v6 : IVec S49x64 1 := cmpf .olt main_v4 main_v5
  let main_c_1 : IVec S_ 1 := constantI S_ 1 1#1
  let main_v7 : IVec S_ 1 := (fun x v => Host.reduce IntOp.andi x v reducesTo_S49x64_S_d0_1 h_S_) main_v6 main_c_1
  let main_v8 : IVec S_ 1 := andi main_v3 main_v7
  let main_v9 : FVec F S49x64 .f32 := Host.absf main_arg2
  let main_cst_2 : FVec F S_ .f32 := constant S_ .f32 0x7F800000#32
  let main_v10 : FVec F S49x64 .f32 := broadcastInDim S49x64 ![] bcast_S_S49x64 main_cst_2
  let main_v11 : IVec S49x64 1 := cmpf .olt main_v9 main_v10
  let main_c_3 : IVec S_ 1 := constantI S_ 1 1#1
  let main_v12 : IVec S_ 1 := (fun x v => Host.reduce IntOp.andi x v reducesTo_S49x64_S_d0_1 h_S_) main_v11 main_c_3
  let main_v13 : IVec S_ 1 := andi main_v8 main_v12
  let main_v14 : FVec F S49x64 .f32 := Host.absf main_arg3
  let main_cst_4 : FVec F S_ .f32 := constant S_ .f32 0x7F800000#32
  let main_v15 : FVec F S49x64 .f32 := broadcastInDim S49x64 ![] bcast_S_S49x64 main_cst_4
  let main_v16 : IVec S49x64 1 := cmpf .olt main_v14 main_v15
  fn_part1 (F := F) main_arg4 main_arg5 main_v13 main_v16
-- ==== Kernel.lean ====
abbrev S128x1024x49 : Shape := ⟨3, ![128, 1024, 49]⟩
abbrev S49x64 : Shape := ⟨2, ![49, 64]⟩
abbrev S64x1000 : Shape := ⟨2, ![64, 1000]⟩
abbrev S1000 : Shape := ⟨1, ![1000]⟩
abbrev S128x1024x1024 : Shape := ⟨3, ![128, 1024, 1024]⟩
abbrev S128x1x64 : Shape := ⟨3, ![128, 1, 64]⟩
abbrev S1x1024x49 : Shape := ⟨3, ![1, 1024, 49]⟩
abbrev S1x1024x1024 : Shape := ⟨3, ![1, 1024, 1024]⟩
abbrev S1x1x64 : Shape := ⟨3, ![1, 1, 64]⟩
abbrev S1024x49 : Shape := ⟨2, ![1024, 49]⟩
abbrev S1024x64 : Shape := ⟨2, ![1024, 64]⟩
abbrev S1x64 : Shape := ⟨2, ![1, 64]⟩
abbrev S128x49 : Shape := ⟨2, ![128, 49]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x896 : Shape := ⟨2, ![128, 896]⟩
abbrev S128x1024 : Shape := ⟨2, ![128, 1024]⟩
abbrev S1x128x1024 : Shape := ⟨3, ![1, 128, 1024]⟩
abbrev S64 : Shape := ⟨1, ![64]⟩
abbrev S256x64 : Shape := ⟨2, ![256, 64]⟩
abbrev S128x256 : Shape := ⟨2, ![128, 256]⟩
abbrev S128x768 : Shape := ⟨2, ![128, 768]⟩
abbrev S384x64 : Shape := ⟨2, ![384, 64]⟩
abbrev S128x384 : Shape := ⟨2, ![128, 384]⟩
abbrev S128x640 : Shape := ⟨2, ![128, 640]⟩
abbrev S512x64 : Shape := ⟨2, ![512, 64]⟩
abbrev S128x512 : Shape := ⟨2, ![128, 512]⟩
abbrev S640x64 : Shape := ⟨2, ![640, 64]⟩
abbrev S768x64 : Shape := ⟨2, ![768, 64]⟩
abbrev S896x64 : Shape := ⟨2, ![896, 64]⟩
abbrev S1x1000 : Shape := ⟨2, ![1, 1000]⟩
abbrev S128x1000 : Shape := ⟨2, ![128, 1000]⟩

abbrev nBuf : Space → Nat
  | .hbm => 11
  | .vmem => 13
  | .smem => 0
  | _ => 0

abbrev bufTy : (tb : Table) → Fin (tcTables nBuf tb) → BufTy
  | .hbm, ⟨0, _⟩ => ⟨S128x1024x49, .f32⟩
  | .hbm, ⟨1, _⟩ => ⟨S49x64, .f32⟩
  | .hbm, ⟨2, _⟩ => ⟨S49x64, .f32⟩
  | .hbm, ⟨3, _⟩ => ⟨S49x64, .f32⟩
  | .hbm, ⟨4, _⟩ => ⟨S64x1000, .f32⟩
  | .hbm, ⟨5, _⟩ => ⟨S1000, .f32⟩
  | .hbm, ⟨6, _⟩ => ⟨S128x1024x1024, .f32⟩
  | .hbm, ⟨7, _⟩ => ⟨S128x1x64, .f32⟩
  | .hbm, ⟨8, _⟩ => ⟨S128x64, .f32⟩
  | .hbm, ⟨9, _⟩ => ⟨S1x1000, .f32⟩
  | .hbm, ⟨10, _⟩ => ⟨S128x1000, .f32⟩
  | .local _ .vmem, ⟨0, _⟩ => ⟨S1x1024x49, .f32⟩
  | .local _ .vmem, ⟨1, _⟩ => ⟨S1x1024x49, .f32⟩
  | .local _ .vmem, ⟨2, _⟩ => ⟨S49x64, .f32⟩
  | .local _ .vmem, ⟨3, _⟩ => ⟨S49x64, .f32⟩
  | .local _ .vmem, ⟨4, _⟩ => ⟨S49x64, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1x64, .f32⟩
  | .local _ .vmem, ⟨8, _⟩ => ⟨S1x1x64, .f32⟩
  | .local _ .vmem, ⟨9, _⟩ => ⟨S128x64, .f32⟩
  | .local _ .vmem, ⟨10, _⟩ => ⟨S64x1000, .f32⟩
  | .local _ .vmem, ⟨11, _⟩ => ⟨S1x1000, .f32⟩
  | .local _ .vmem, ⟨12, _⟩ => ⟨S128x1000, .f32⟩
  | _, _ => ⟨S128x1024x49, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S49x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S49x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S49x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x1000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S1x1024x49_S1x1024x49_0_0_0 : ∀ a, (![0, 0, 0] : Fin 3 → Nat) a + S1x1024x49.size a ≤ S1x1024x49.size a
  h_S1x1024x49 : 0 < S1x1024x49.numel
  shapeCasts_S1x1024x49_S1024x49 : S1x1024x49.ShapeCasts S1024x49
  inb_S49x64_S49x64_0_0 : ∀ a, (![0, 0] : Fin 2 → Nat) a + S49x64.size a ≤ S49x64.size a
  h_S49x64 : 0 < S49x64.numel
  slices_S1024x49_o0_0_S128x49 : S1024x49.Slices ![0, 0] S128x49
  slices_S1024x64_o0_0_S128x64 : S1024x64.Slices ![0, 0] S128x64
  iota_S128x128_d0_w32 : S128x128.Iotas .tc 32 [0]
  iota_S128x128_d1_w32 : S128x128.Iotas .tc 32 [1]
  reduces_S128x128_S128 : S128x128.Reduces [1] S128
  shapeCasts_S128_S128x1 : S128.ShapeCasts S128x1
  broadcasts_S128x1_S128x128 : S128x1.Broadcasts S128x128
  concatenates_S128x128_S128x896_S128x1024_d1 : Shape.Concatenates [S128x128, S128x896] S128x1024 1
  inb_S1x1024x1024_S1x128x1024_0_0_0 : ∀ a, (![0, 0, 0] : Fin 3 → Nat) a + S1x128x1024.size a ≤ S1x1024x1024.size a
  h_S1x128x1024 : 0 < S1x128x1024.numel
  shapeCasts_S1x128x1024_S128x1024 : S1x128x1024.ShapeCasts S128x1024
  shapeCasts_S128x1024_S1x128x1024 : S128x1024.ShapeCasts S1x128x1024
  reduces_S128x64_S64 : S128x64.Reduces [0] S64
  shapeCasts_S64_S1x64 : S64.ShapeCasts S1x64
  slices_S1024x49_o128_0_S128x49 : S1024x49.Slices ![128, 0] S128x49
  slices_S1024x64_o0_0_S256x64 : S1024x64.Slices ![0, 0] S256x64
  slices_S128x256_o0_128_S128x128 : S128x256.Slices ![0, 128] S128x128
  slices_S128x256_o0_0_S128x128 : S128x256.Slices ![0, 0] S128x128
  concatenates_S128x128_S128x128_S128x256_d1 : Shape.Concatenates [S128x128, S128x128] S128x256 1
  reduces_S128x256_S128 : S128x256.Reduces [1] S128
  broadcasts_S128x1_S128x256 : S128x1.Broadcasts S128x256
  concatenates_S128x256_S128x768_S128x1024_d1 : Shape.Concatenates [S128x256, S128x768] S128x1024 1
  inb_S1x1024x1024_S1x128x1024_0_128_0 : ∀ a, (![0, 128, 0] : Fin 3 → Nat) a + S1x128x1024.size a ≤ S1x1024x1024.size a
  slices_S1024x49_o256_0_S128x49 : S1024x49.Slices ![256, 0] S128x49
  slices_S1024x64_o0_0_S384x64 : S1024x64.Slices ![0, 0] S384x64
  slices_S128x384_o0_256_S128x128 : S128x384.Slices ![0, 256] S128x128
  slices_S128x384_o0_0_S128x256 : S128x384.Slices ![0, 0] S128x256
  concatenates_S128x256_S128x128_S128x384_d1 : Shape.Concatenates [S128x256, S128x128] S128x384 1
  reduces_S128x384_S128 : S128x384.Reduces [1] S128
  broadcasts_S128x1_S128x384 : S128x1.Broadcasts S128x384
  concatenates_S128x384_S128x640_S128x1024_d1 : Shape.Concatenates [S128x384, S128x640] S128x1024 1
  inb_S1x1024x1024_S1x128x1024_0_256_0 : ∀ a, (![0, 256, 0] : Fin 3 → Nat) a + S1x128x1024.size a ≤ S1x1024x1024.size a
  slices_S1024x49_o384_0_S128x49 : S1024x49.Slices ![384, 0] S128x49
  slices_S1024x64_o0_0_S512x64 : S1024x64.Slices ![0, 0] S512x64
  slices_S128x512_o0_384_S128x128 : S128x512.Slices ![0, 384] S128x128
  slices_S128x512_o0_0_S128x384 : S128x512.Slices ![0, 0] S128x384
  concatenates_S128x384_S128x128_S128x512_d1 : Shape.Concatenates [S128x384, S128x128] S128x512 1
  reduces_S128x512_S128 : S128x512.Reduces [1] S128
  broadcasts_S128x1_S128x512 : S128x1.Broadcasts S128x512
  concatenates_S128x512_S128x512_S128x1024_d1 : Shape.Concatenates [S128x512, S128x512] S128x1024 1
  inb_S1x1024x1024_S1x128x1024_0_384_0 : ∀ a, (![0, 384, 0] : Fin 3 → Nat) a + S1x128x1024.size a ≤ S1x1024x1024.size a
  slices_S1024x49_o512_0_S128x49 : S1024x49.Slices ![512, 0] S128x49
  slices_S1024x64_o0_0_S640x64 : S1024x64.Slices ![0, 0] S640x64
  slices_S128x640_o0_512_S128x128 : S128x640.Slices ![0, 512] S128x128
  slices_S128x640_o0_0_S128x512 : S128x640.Slices ![0, 0] S128x512
  concatenates_S128x512_S128x128_S128x640_d1 : Shape.Concatenates [S128x512, S128x128] S128x640 1
  reduces_S128x640_S128 : S128x640.Reduces [1] S128
  broadcasts_S128x1_S128x640 : S128x1.Broadcasts S128x640
  concatenates_S128x640_S128x384_S128x1024_d1 : Shape.Concatenates [S128x640, S128x384] S128x1024 1
  inb_S1x1024x1024_S1x128x1024_0_512_0 : ∀ a, (![0, 512, 0] : Fin 3 → Nat) a + S1x128x1024.size a ≤ S1x1024x1024.size a
  slices_S1024x49_o640_0_S128x49 : S1024x49.Slices ![640, 0] S128x49
  slices_S1024x64_o0_0_S768x64 : S1024x64.Slices ![0, 0] S768x64
  slices_S128x768_o0_640_S128x128 : S128x768.Slices ![0, 640] S128x128
  slices_S128x768_o0_0_S128x640 : S128x768.Slices ![0, 0] S128x640
  concatenates_S128x640_S128x128_S128x768_d1 : Shape.Concatenates [S128x640, S128x128] S128x768 1
  reduces_S128x768_S128 : S128x768.Reduces [1] S128
  broadcasts_S128x1_S128x768 : S128x1.Broadcasts S128x768
  concatenates_S128x768_S128x256_S128x1024_d1 : Shape.Concatenates [S128x768, S128x256] S128x1024 1
  inb_S1x1024x1024_S1x128x1024_0_640_0 : ∀ a, (![0, 640, 0] : Fin 3 → Nat) a + S1x128x1024.size a ≤ S1x1024x1024.size a
  slices_S1024x49_o768_0_S128x49 : S1024x49.Slices ![768, 0] S128x49
  slices_S1024x64_o0_0_S896x64 : S1024x64.Slices ![0, 0] S896x64
  slices_S128x896_o0_768_S128x128 : S128x896.Slices ![0, 768] S128x128
  slices_S128x896_o0_0_S128x768 : S128x896.Slices ![0, 0] S128x768
  concatenates_S128x768_S128x128_S128x896_d1 : Shape.Concatenates [S128x768, S128x128] S128x896 1
  reduces_S128x896_S128 : S128x896.Reduces [1] S128
  broadcasts_S128x1_S128x896 : S128x1.Broadcasts S128x896
  concatenates_S128x896_S128x128_S128x1024_d1 : Shape.Concatenates [S128x896, S128x128] S128x1024 1
  inb_S1x1024x1024_S1x128x1024_0_768_0 : ∀ a, (![0, 768, 0] : Fin 3 → Nat) a + S1x128x1024.size a ≤ S1x1024x1024.size a
  slices_S1024x49_o896_0_S128x49 : S1024x49.Slices ![896, 0] S128x49
  slices_S128x1024_o0_896_S128x128 : S128x1024.Slices ![0, 896] S128x128
  slices_S128x1024_o0_0_S128x896 : S128x1024.Slices ![0, 0] S128x896
  reduces_S128x1024_S128 : S128x1024.Reduces [1] S128
  broadcasts_S128x1_S128x1024 : S128x1.Broadcasts S128x1024
  inb_S1x1024x1024_S1x128x1024_0_896_0 : ∀ a, (![0, 896, 0] : Fin 3 → Nat) a + S1x128x1024.size a ≤ S1x1024x1024.size a
  shapeCasts_S1x64_S64 : S1x64.ShapeCasts S64
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S1x1x64 : S64.ShapeCasts S1x1x64
  shapeCasts_S128x1x64_S128x64 : S128x1x64.ShapeCasts S128x64
  shapeCasts_S1000_S1x1000 : S1000.ShapeCasts S1x1000
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x1000_S64x1000_0_0 : ∀ a, (![0, 0] : Fin 2 → Nat) a + S64x1000.size a ≤ S64x1000.size a
  h_S64x1000 : 0 < S64x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S128x1000 : S1x1000.Broadcasts S128x1000
  inb_S128x1000_S128x1000_0_0 : ∀ a, (![0, 0] : Fin 2 → Nat) a + S128x1000.size a ≤ S128x1000.size a
  h_S128x1000 : 0 < S128x1000.numel
  dot_S1024x49_S49x64_S1024x64_1_0_0_1_n_n_wf : DotDims.WF S1024x49 S49x64 S1024x64 [1] [0] [0] [1] [] []
  dot_S128x49_S49x64_S128x64_1_0_0_1_n_n_wf : DotDims.WF S128x49 S49x64 S128x64 [1] [0] [0] [1] [] []
  dot_S128x64_S128x64_S128x128_1_1_0_0_n_n_wf : DotDims.WF S128x64 S128x64 S128x128 [1] [1] [0] [0] [] []
  dot_S128x128_S128x64_S128x64_1_0_0_1_n_n_wf : DotDims.WF S128x128 S128x64 S128x64 [1] [0] [0] [1] [] []
  dot_S128x64_S256x64_S128x256_1_1_0_0_n_n_wf : DotDims.WF S128x64 S256x64 S128x256 [1] [1] [0] [0] [] []
  dot_S128x256_S256x64_S128x64_1_0_0_1_n_n_wf : DotDims.WF S128x256 S256x64 S128x64 [1] [0] [0] [1] [] []
  dot_S128x64_S384x64_S128x384_1_1_0_0_n_n_wf : DotDims.WF S128x64 S384x64 S128x384 [1] [1] [0] [0] [] []
  dot_S128x384_S384x64_S128x64_1_0_0_1_n_n_wf : DotDims.WF S128x384 S384x64 S128x64 [1] [0] [0] [1] [] []
  dot_S128x64_S512x64_S128x512_1_1_0_0_n_n_wf : DotDims.WF S128x64 S512x64 S128x512 [1] [1] [0] [0] [] []
  dot_S128x512_S512x64_S128x64_1_0_0_1_n_n_wf : DotDims.WF S128x512 S512x64 S128x64 [1] [0] [0] [1] [] []
  dot_S128x64_S640x64_S128x640_1_1_0_0_n_n_wf : DotDims.WF S128x64 S640x64 S128x640 [1] [1] [0] [0] [] []
  dot_S128x640_S640x64_S128x64_1_0_0_1_n_n_wf : DotDims.WF S128x640 S640x64 S128x64 [1] [0] [0] [1] [] []
  dot_S128x64_S768x64_S128x768_1_1_0_0_n_n_wf : DotDims.WF S128x64 S768x64 S128x768 [1] [1] [0] [0] [] []
  dot_S128x768_S768x64_S128x64_1_0_0_1_n_n_wf : DotDims.WF S128x768 S768x64 S128x64 [1] [0] [0] [1] [] []
  dot_S128x64_S896x64_S128x896_1_1_0_0_n_n_wf : DotDims.WF S128x64 S896x64 S128x896 [1] [1] [0] [0] [] []
  dot_S128x896_S896x64_S128x64_1_0_0_1_n_n_wf : DotDims.WF S128x896 S896x64 S128x64 [1] [0] [0] [1] [] []
  dot_S128x64_S1024x64_S128x1024_1_1_0_0_n_n_wf : DotDims.WF S128x64 S1024x64 S128x1024 [1] [1] [0] [0] [] []
  dot_S128x1024_S1024x64_S128x64_1_0_0_1_n_n_wf : DotDims.WF S128x1024 S1024x64 S128x64 [1] [0] [0] [1] [] []
  dot_S128x64_S64x1000_S128x1000_1_0_0_1_n_n_wf : DotDims.WF S128x64 S64x1000 S128x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x49.size a ≤ S128x1024x49.size a
  hwx0_0 : ∀ i : grid0.Coords, EltTy.bits .f32 = 32 ∨ (Rect.block (s := S128x1024x49) S1x1024x49.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S49x64.size a ≤ S49x64.size a
  hwx0_1 : ∀ i : grid0.Coords, EltTy.bits .f32 = 32 ∨ (Rect.block (s := S49x64) S49x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S49x64.size a ≤ S49x64.size a
  hwx0_2 : ∀ i : grid0.Coords, EltTy.bits .f32 = 32 ∨ (Rect.block (s := S49x64) S49x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S49x64.size a ≤ S49x64.size a
  hwx0_3 : ∀ i : grid0.Coords, EltTy.bits .f32 = 32 ∨ (Rect.block (s := S49x64) S49x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S128x1024x1024.size a
  hwx0_4 : ∀ i : grid0.Coords, EltTy.bits .f32 = 32 ∨ (Rect.block (s := S128x1024x1024) S1x1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S128x1x64.size a
  hwx0_5 : ∀ i : grid0.Coords, EltTy.bits .f32 = 32 ∨ (Rect.block (s := S128x1x64) S1x1x64.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S128x64.size a
  hwx1_0 : ∀ i : grid1.Coords, EltTy.bits .f32 = 32 ∨ (Rect.block (s := S128x64) S128x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1000.size a ≤ S64x1000.size a
  hwx1_1 : ∀ i : grid1.Coords, EltTy.bits .f32 = 32 ∨ (Rect.block (s := S64x1000) S64x1000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1000.size a ≤ S1x1000.size a
  hwx1_2 : ∀ i : grid1.Coords, EltTy.bits .f32 = 32 ∨ (Rect.block (s := S1x1000) S1x1000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1000.size a ≤ S128x1000.size a
  hwx1_3 : ∀ i : grid1.Coords, EltTy.bits .f32 = 32 ∨ (Rect.block (s := S128x1000) S128x1000.size (cc1_transform_3 i) (hinb1_3 i)).WholeWords (EltTy.packing .f32)

variable [Facts₀]

def dot_S1024x49_S49x64_S1024x64_1_0_0_1_n_n : DotDims S1024x49 S49x64 S1024x64 where
  lhsContracting := [1]
  rhsContracting := [0]
  lhsNonContracting := [0]
  rhsNonContracting := [1]
  lhsBatch := []
  rhsBatch := []
  wf := dot_S1024x49_S49x64_S1024x64_1_0_0_1_n_n_wf
def dot_S128x49_S49x64_S128x64_1_0_0_1_n_n : DotDims S128x49 S49x64 S128x64 where
  lhsContracting := [1]
  rhsContracting := [0]
  lhsNonContracting := [0]
  rhsNonContracting := [1]
  lhsBatch := []
  rhsBatch := []
  wf := dot_S128x49_S49x64_S128x64_1_0_0_1_n_n_wf
def dot_S128x64_S128x64_S128x128_1_1_0_0_n_n : DotDims S128x64 S128x64 S128x128 where
  lhsContracting := [1]
  rhsContracting := [1]
  lhsNonContracting := [0]
  rhsNonContracting := [0]
  lhsBatch := []
  rhsBatch := []
  wf := dot_S128x64_S128x64_S128x128_1_1_0_0_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S256x64_S128x256_1_1_0_0_n_n : DotDims S128x64 S256x64 S128x256 where
  lhsContracting := [1]
  rhsContracting := [1]
  lhsNonContracting := [0]
  rhsNonContracting := [0]
  lhsBatch := []
  rhsBatch := []
  wf := dot_S128x64_S256x64_S128x256_1_1_0_0_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf
def dot_S128x64_S384x64_S128x384_1_1_0_0_n_n : DotDims S128x64 S384x64 S128x384 where
  lhsContracting := [1]
  rhsContracting := [1]
  lhsNonContracting := [0]
  rhsNonContracting := [0]
  lhsBatch := []
  rhsBatch := []
  wf := dot_S128x64_S384x64_S128x384_1_1_0_0_n_n_wf
def dot_S128x384_S384x64_S128x64_1_0_0_1_n_n : DotDims S128x384 S384x64 S128x64 where
  lhsContracting := [1]
  rhsContracting := [0]
  lhsNonContracting := [0]
  rhsNonContracting := [1]
  lhsBatch := []
  rhsBatch := []
  wf := dot_S128x384_S384x64_S128x64_1_0_0_1_n_n_wf
def dot_S128x64_S512x64_S128x512_1_1_0_0_n_n : DotDims S128x64 S512x64 S128x512 where
  lhsContracting := [1]
  rhsContracting := [1]
  lhsNonContracting := [0]
  rhsNonContracting := [0]
  lhsBatch := []
  rhsBatch := []
  wf := dot_S128x64_S512x64_S128x512_1_1_0_0_n_n_wf
def dot_S128x512_S512x64_S128x64_1_0_0_1_n_n : DotDims S128x512 S512x64 S128x64 where
  lhsContracting := [1]
  rhsContracting := [0]
  lhsNonContracting := [0]
  rhsNonContracting := [1]
  lhsBatch := []
  rhsBatch := []
  wf := dot_S128x512_S512x64_S128x64_1_0_0_1_n_n_wf
def dot_S128x64_S640x64_S128x640_1_1_0_0_n_n : DotDims S128x64 S640x64 S128x640 where
  lhsContracting := [1]
  rhsContracting := [1]
  lhsNonContracting := [0]
  rhsNonContracting := [0]
  lhsBatch := []
  rhsBatch := []
  wf := dot_S128x64_S640x64_S128x640_1_1_0_0_n_n_wf
def dot_S128x640_S640x64_S128x64_1_0_0_1_n_n : DotDims S128x640 S640x64 S128x64 where
  lhsContracting := [1]
  rhsContracting := [0]
  lhsNonContracting := [0]
  rhsNonContracting := [1]
  lhsBatch := []
  rhsBatch := []
  wf := dot_S128x640_S640x64_S128x64_1_0_0_1_n_n_wf
def dot_S128x64_S768x64_S128x768_1_1_0_0_n_n : DotDims S128x64 S768x64 S128x768 where
  lhsContracting := [1]
  rhsContracting := [1]
  lhsNonContracting := [0]
  rhsNonContracting := [0]
  lhsBatch := []
  rhsBatch := []
  wf := dot_S128x64_S768x64_S128x768_1_1_0_0_n_n_wf
def dot_S128x768_S768x64_S128x64_1_0_0_1_n_n : DotDims S128x768 S768x64 S128x64 where
  lhsContracting := [1]
  rhsContracting := [0]
  lhsNonContracting := [0]
  rhsNonContracting := [1]
  lhsBatch := []
  rhsBatch := []
  wf := dot_S128x768_S768x64_S128x64_1_0_0_1_n_n_wf
def dot_S128x64_S896x64_S128x896_1_1_0_0_n_n : DotDims S128x64 S896x64 S128x896 where
  lhsContracting := [1]
  rhsContracting := [1]
  lhsNonContracting := [0]
  rhsNonContracting := [0]
  lhsBatch := []
  rhsBatch := []
  wf := dot_S128x64_S896x64_S128x896_1_1_0_0_n_n_wf
def dot_S128x896_S896x64_S128x64_1_0_0_1_n_n : DotDims S128x896 S896x64 S128x64 where
  lhsContracting := [1]
  rhsContracting := [0]
  lhsNonContracting := [0]
  rhsNonContracting := [1]
  lhsBatch := []
  rhsBatch := []
  wf := dot_S128x896_S896x64_S128x64_1_0_0_1_n_n_wf
def dot_S128x64_S1024x64_S128x1024_1_1_0_0_n_n : DotDims S128x64 S1024x64 S128x1024 where
  lhsContracting := [1]
  rhsContracting := [1]
  lhsNonContracting := [0]
  rhsNonContracting := [0]
  lhsBatch := []
  rhsBatch := []
  wf := dot_S128x64_S1024x64_S128x1024_1_1_0_0_n_n_wf
def dot_S128x1024_S1024x64_S128x64_1_0_0_1_n_n : DotDims S128x1024 S1024x64 S128x64 where
  lhsContracting := [1]
  rhsContracting := [0]
  lhsNonContracting := [0]
  rhsNonContracting := [1]
  lhsBatch := []
  rhsBatch := []
  wf := dot_S128x1024_S1024x64_S128x64_1_0_0_1_n_n_wf
def dot_S128x64_S64x1000_S128x1000_1_0_0_1_n_n : DotDims S128x64 S64x1000 S128x1000 where
  lhsContracting := [1]
  rhsContracting := [0]
  lhsNonContracting := [0]
  rhsNonContracting := [1]
  lhsBatch := []
  rhsBatch := []
  wf := dot_S128x64_S64x1000_S128x1000_1_0_0_1_n_n_wf

abbrev win0_0 : Pipeline.Window sig grid0 :=
  Pipeline.Window.ofSpec (Memref.whole main_arg0) S1x1024x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S49x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S49x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S49x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S128x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x1000.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S128x1024x49 : Shape := ⟨3, ![128, 1024, 49]⟩
abbrev S49x64 : Shape := ⟨2, ![49, 64]⟩
abbrev S64x1000 : Shape := ⟨2, ![64, 1000]⟩
abbrev S1000 : Shape := ⟨1, ![1000]⟩
abbrev S128x1024x64 : Shape := ⟨3, ![128, 1024, 64]⟩
abbrev S128x1024x1024 : Shape := ⟨3, ![128, 1024, 1024]⟩
abbrev S_ : Shape := ⟨0, ![]⟩
abbrev S1024x1024 : Shape := ⟨2, ![1024, 1024]⟩
abbrev S128x1024 : Shape := ⟨2, ![128, 1024]⟩
abbrev S128x1024x1 : Shape := ⟨3, ![128, 1024, 1]⟩
abbrev S128x64 : Shape := ⟨2, ![128, 64]⟩
abbrev S128x1000 : Shape := ⟨2, ![128, 1000]⟩
abbrev S1x1000 : Shape := ⟨2, ![1, 1000]⟩

abbrev nBuf : Space → Nat
  | .hbm => 54
  | .vmem => 0
  | .smem => 0
  | _ => 0

abbrev bufTy : (tb : Table) → Fin (tcTables nBuf tb) → BufTy
  | .hbm, ⟨0, _⟩ => ⟨S128x1024x49, .f32⟩
  | .hbm, ⟨1, _⟩ => ⟨S49x64, .f32⟩
  | .hbm, ⟨2, _⟩ => ⟨S49x64, .f32⟩
  | .hbm, ⟨3, _⟩ => ⟨S49x64, .f32⟩
  | .hbm, ⟨4, _⟩ => ⟨S64x1000, .f32⟩
  | .hbm, ⟨5, _⟩ => ⟨S1000, .f32⟩
  | .hbm, ⟨6, _⟩ => ⟨S128x1024x64, .f32⟩
  | .hbm, ⟨7, _⟩ => ⟨S128x1024x64, .f32⟩
  | .hbm, ⟨8, _⟩ => ⟨S128x1024x64, .f32⟩
  | .hbm, ⟨9, _⟩ => ⟨S128x1024x1024, .f32⟩
  | .hbm, ⟨10, _⟩ => ⟨S_, .f32⟩
  | .hbm, ⟨11, _⟩ => ⟨S_, .f32⟩
  | .hbm, ⟨12, _⟩ => ⟨S128x1024x1024, .f32⟩
  | .hbm, ⟨13, _⟩ => ⟨S128x1024x1024, .f32⟩
  | .hbm, ⟨14, _⟩ => ⟨S_, .i1⟩
  | .hbm, ⟨15, _⟩ => ⟨S1024x1024, .i1⟩
  | .hbm, ⟨16, _⟩ => ⟨S1024x1024, .i32⟩
  | .hbm, ⟨17, _⟩ => ⟨S_, .i32⟩
  | .hbm, ⟨18, _⟩ => ⟨S1024x1024, .i32⟩
  | .hbm, ⟨19, _⟩ => ⟨S1024x1024, .i32⟩
  | .hbm, ⟨20, _⟩ => ⟨S1024x1024, .i32⟩
  | .hbm, ⟨21, _⟩ => ⟨S1024x1024, .i1⟩
  | .hbm, ⟨22, _⟩ => ⟨S_, .i1⟩
  | .hbm, ⟨23, _⟩ => ⟨S1024x1024, .i1⟩
  | .hbm, ⟨24, _⟩ => ⟨S1024x1024, .i1⟩
  | .hbm, ⟨25, _⟩ => ⟨S_, .f32⟩
  | .hbm, ⟨26, _⟩ => ⟨S_, .f32⟩
  | .hbm, ⟨27, _⟩ => ⟨S128x1024x1024, .i1⟩
  | .hbm, ⟨28, _⟩ => ⟨S128x1024x1024, .f32⟩
  | .hbm, ⟨29, _⟩ => ⟨S128x1024x1024, .f32⟩
  | .hbm, ⟨30, _⟩ => ⟨S_, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024x1, .f32⟩
  | .hbm, ⟨36, _⟩ => ⟨S128x1024x1024, .f32⟩
  | .hbm, ⟨37, _⟩ => ⟨S128x1024x1024, .f32⟩
  | .hbm, ⟨38, _⟩ => ⟨S128x1024x1024, .f32⟩
  | .hbm, ⟨39, _⟩ => ⟨S_, .f32⟩
  | .hbm, ⟨40, _⟩ => ⟨S128x1024, .f32⟩
  | .hbm, ⟨41, _⟩ => ⟨S128x1024x1, .f32⟩
  | .hbm, ⟨42, _⟩ => ⟨S128x1024x1024, .f32⟩
  | .hbm, ⟨43, _⟩ => ⟨S128x1024x1024, .f32⟩
  | .hbm, ⟨44, _⟩ => ⟨S128x1024x64, .f32⟩
  | .hbm, ⟨45, _⟩ => ⟨S_, .f32⟩
  | .hbm, ⟨46, _⟩ => ⟨S128x64, .f32⟩
  | .hbm, ⟨47, _⟩ => ⟨S_, .f32⟩
  | .hbm, ⟨48, _⟩ => ⟨S128x64, .f32⟩
  | .hbm, ⟨49, _⟩ => ⟨S128x64, .f32⟩
  | .hbm, ⟨50, _⟩ => ⟨S128x1000, .f32⟩
  | .hbm, ⟨51, _⟩ => ⟨S1x1000, .f32⟩
  | .hbm, ⟨52, _⟩ => ⟨S128x1000, .f32⟩
  | .hbm, ⟨53, _⟩ => ⟨S128x1000, .f32⟩
  | _, _ => ⟨S128x1024x49, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v8 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_cst_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩

abbrev nD : Nat := 1
abbrev τ : Topo := Topo.v7x

variable {F : FTy → Type} [FloatOps F]

class Facts₀ : Prop where
  bcast_S_S128x1024x1024 : S_.BroadcastsInDim S128x1024x1024 (![] : Fin 0 → Fin S128x1024x1024.rank)
  bcast_S_S1024x1024 : S_.BroadcastsInDim S1024x1024 (![] : Fin 0 → Fin S1024x1024.rank)
  bcast_S1024x1024_S128x1024x1024_1_2 : S1024x1024.BroadcastsInDim S128x1024x1024 (![1, 2] : Fin 2 → Fin S128x1024x1024.rank)
  reducesTo_S128x1024x1024_S128x1024_d2 : S128x1024x1024.ReducesTo [2] S128x1024
  h_S_ : 0 < S_.numel
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S128x1024x1_S128x1024x1024_0_1_2 : S128x1024x1.BroadcastsInDim S128x1024x1024 (![0, 1, 2] : Fin 3 → Fin S128x1024x1024.rank)
  reducesTo_S128x1024x64_S128x64_d1 : S128x1024x64.ReducesTo [1] S128x64
  bcast_S_S128x64 : S_.BroadcastsInDim S128x64 (![] : Fin 0 → Fin S128x64.rank)
  bcast_S1000_S1x1000_1 : S1000.BroadcastsInDim S1x1000 (![1] : Fin 1 → Fin S1x1000.rank)
  bcast_S1x1000_S128x1000_0_1 : S1x1000.BroadcastsInDim S128x1000 (![0, 1] : Fin 2 → Fin S128x1000.rank)
  dot_S128x1024x49_S49x64_S128x1024x64_2_0_01_1_n_n_wf : DotDims.WF S128x1024x49 S49x64 S128x1024x64 [2] [0] [0, 1] [1] [] []
  dot_S128x1024x64_S128x1024x64_S128x1024x1024_2_2_1_1_0_0_wf : DotDims.WF S128x1024x64 S128x1024x64 S128x1024x1024 [2] [2] [1] [1] [0] [0]
  dot_S128x1024x1024_S128x1024x64_S128x1024x64_2_1_1_2_0_0_wf : DotDims.WF S128x1024x1024 S128x1024x64 S128x1024x64 [2] [1] [1] [2] [0] [0]
  dot_S128x64_S64x1000_S128x1000_1_0_0_1_n_n_wf : DotDims.WF S128x64 S64x1000 S128x1000 [1] [0] [0] [1] [] []

variable [Facts₀]

def dot_S128x1024x49_S49x64_S128x1024x64_2_0_01_1_n_n : DotDims S128x1024x49 S49x64 S128x1024x64 where
  lhsContracting := [2]
  rhsContracting := [0]
  lhsNonContracting := [0, 1]
  rhsNonContracting := [1]
  lhsBatch := []
  rhsBatch := []
  wf := dot_S128x1024x49_S49x64_S128x1024x64_2_0_01_1_n_n_wf
def dot_S128x1024x64_S128x1024x64_S128x1024x1024_2_2_1_1_0_0 : DotDims S128x1024x64 S128x1024x64 S128x1024x1024 where
  lhsContracting := [2]
  rhsContracting := [2]
  lhsNonContracting := [1]
  rhsNonContracting := [1]
  lhsBatch := [0]
  rhsBatch := [0]
  wf := dot_S128x1024x64_S128x1024x64_S128x1024x1024_2_2_1_1_0_0_wf
def dot_S128x1024x1024_S128x1024x64_S128x1024x64_2_1_1_2_0_0 : DotDims S128x1024x1024 S128x1024x64 S128x1024x64 where
  lhsContracting := [2]
  rhsContracting := [1]
  lhsNonContracting := [1]
  rhsNonContracting := [2]
  lhsBatch := [0]
  rhsBatch := [0]
  wf := dot_S128x1024x1024_S128x1024x64_S128x1024x64_2_1_1_2_0_0_wf
def dot_S128x64_S64x1000_S128x1000_1_0_0_1_n_n : DotDims S128x64 S64x1000 S128x1000 where
  lhsContracting := [1]
  rhsContracting := [0]
  lhsNonContracting := [0]
  rhsNonContracting := [1]
  lhsBatch := []
  rhsBatch := []
  wf := dot_S128x64_S64x1000_S128x1000_1_0_0_1_n_n_wf

class Facts : Prop extends Facts₀ where

variable [Facts]
-- ==== Proof.Spec.lean ====
/-
  Single-head causal attention with a mean-pooled linear classifier, as functions of coordinates.

  For one batch element, `X` is the sequence (1024 positions of 49 features) and `Wq`, `Wk`, `Wv` the three
  projections to 64 features.  The score of query position `q` against key position `s` is the inner product of
  their projections times 1/8 (= 1/√64); a key position after the query is masked to `-∞`.  A row of attention
  weights is the softmax of its masked scores, written the numerically stable way: subtract the row's maximum,
  exponentiate, divide by the row's sum.  The hidden state at `q` is the attention-weighted sum of the value
  projections; the pooled vector is the mean of the hidden states over the 1024 positions; the logits are the
  pooled vector times `Wc` plus the bias.

  The two results are then stated for the whole batch as functions of the argument arrays.
-/
import Idealize.ShloMosaic.PureOps.Ideal
import Idealize.ShloMosaic.Lib.ValueIdx

noncomputable section

namespace Cert.CausalAttn

open Idealize.ShloMosaic Idealize.ShloMosaic.ValueIdx

/-- 1/8, the score scale 1/√64, as the 32-bit float word the kernel multiplies by. -/
abbrev scale8 : EReal := Ideal.ofBits .f32 0x3E000000#32
/-- 1/1024, the mean's factor, as the 32-bit float word the kernel multiplies by. -/
abbrev inv1024 : EReal := Ideal.ofBits .f32 0x3A800000#32

section OneSequence

variable (X : Fin 1024 → Fin 49 → EReal) (Wq Wk Wv : Fin 49 → Fin 64 → EReal)

/-- A projection of position `s`: feature `k` of `X s · W`. -/
def proj (W : Fin 49 → Fin 64 → EReal) (s : Fin 1024) (k : Fin 64) : EReal := ∑ d : Fin 49, X s d * W d k

/-- The scaled score of query `q` against key `s`. -/
def score (q s : Fin 1024) : EReal := (∑ k : Fin 64, proj X Wq q k * proj X Wk s k) * scale8

/-- The causal mask: a key after the query scores `-∞`. -/
def masked (q s : Fin 1024) : EReal := if s.val ≤ q.val then score X Wq Wk q s else ⊥

/-- The maximum of a row of masked scores. -/
def rowMax (q : Fin 1024) : EReal := (Finset.univ : Finset (Fin 1024)).fold max ⊥ (fun s => masked X Wq Wk q s)

/-- A row's shifted exponentials. -/
def rowExp (q s : Fin 1024) : EReal := Ideal.exp (masked X Wq Wk q s - rowMax X Wq Wk q)

/-- Their sum over the row. -/
def rowSum (q : Fin 1024) : EReal := ∑ s : Fin 1024, rowExp X Wq Wk q s

/-- The attention weight of key `s` for query `q`. -/
def attn (q s : Fin 1024) : EReal := Ideal.div (rowExp X Wq Wk q s) (rowSum X Wq Wk q)

/-- The hidden state at `q`: the attention-weighted sum of the value projections. -/
def hidden (q : Fin 1024) (k : Fin 64) : EReal := ∑ s : Fin 1024, attn X Wq Wk q s * proj X Wv s k

/-- The mean of the hidden states over the sequence. -/
def pooled (k : Fin 64) : EReal := (∑ q : Fin 1024, hidden X Wq Wk Wv q k) * inv1024

/-- The classifier's logit `n`. -/
def logit (Wc : Fin 64 → Fin 1000 → EReal) (bc : Fin 1000 → EReal) (n : Fin 1000) : EReal :=
  (∑ k : Fin 64, pooled X Wq Wk Wv k * Wc k n) + bc n

end OneSequence

/-! ## The whole batch, over the argument arrays -/

abbrev SX : Shape := ⟨3, ![128, 1024, 49]⟩
abbrev SW : Shape := ⟨2, ![49, 64]⟩
abbrev SC : Shape := ⟨2, ![64, 1000]⟩
abbrev SB : Shape := ⟨1, ![1000]⟩
abbrev SA : Shape := ⟨3, ![128, 1024, 1024]⟩
abbrev SL : Shape := ⟨2, ![128, 1000]⟩

/-- Batch element `b` of the input, by coordinates. -/
def seqOf (x : SX.Idx → EReal) (b : Fin 128) : Fin 1024 → Fin 49 → EReal := fun s d => x (ix3 b s d)
/-- A matrix by coordinates. -/
def matOf {r c : Nat} (w : (⟨2, ![r, c]⟩ : Shape).Idx → EReal) : Fin r → Fin c → EReal := fun a b => w (ix2 a b)
/-- A vector by its coordinate. -/
def vecOf {n : Nat} (v : (⟨1, ![n]⟩ : Shape).Idx → EReal) : Fin n → EReal := fun a => v (ix1 a)

/-- The attention weights of the whole batch. -/
def attnAll (x : SX.Idx → EReal) (wq wk : SW.Idx → EReal) : SA.Idx → EReal :=
  fun i => attn (seqOf x (i 0)) (matOf wq) (matOf wk) (i 1) (i 2)

/-- The logits of the whole batch. -/
def logitsAll (x : SX.Idx → EReal) (wq wk wv : SW.Idx → EReal) (wc : SC.Idx → EReal) (bc : SB.Idx → EReal) : SL.Idx → EReal :=
  fun i => logit (seqOf x (i 0)) (matOf wq) (matOf wk) (matOf wv) (matOf wc) (vecOf bc) (i 1)

end Cert.CausalAttn

end
-- ==== Proof.RefConsts.lean ====
/-
  The float literals of the reference and of the specification, as the extended reals their words denote.

  The reference divides the scores by the square root of 64 and the sum over the sequence by 1024; the specification
  multiplies by the words of 1/8 and of 1/1024.  Division by a nonzero real is the product with its reciprocal on
  every extended real, so the two spellings agree at the infinities as well.  The word 0xFF800000 denotes -∞, the
  neutral element of the maximum and the value a masked score takes.
-/
import Idealize.ShloMosaic.PureOps.Ideal
import Idealize.ShloMosaic.PureOps.Ideal.Laws
import proofs.«156499_j88184268522037_2_alg».proof.Proof.Spec

noncomputable section

namespace Cert.CausalAttn.Ref

open Idealize.ShloMosaic

/-- The word of 64.0 denotes the real 64. -/
theorem ofBits_64 : Ideal.ofBits .f32 0x42800000#32 = ((64 : ℝ) : EReal) := by
  simp [Ideal.ofBits, Ideal.ieee, -EReal.coe_mul]; norm_num

/-- The word of 1024.0 denotes the real 1024. -/
theorem ofBits_1024 : Ideal.ofBits .f32 0x44800000#32 = ((1024 : ℝ) : EReal) := by
  simp [Ideal.ofBits, Ideal.ieee, -EReal.coe_mul]; norm_num

/-- The score scale denotes 1/8. -/
theorem scale8_eq : scale8 = ((1 / 8 : ℝ) : EReal) := by
  simp [scale8, Ideal.ofBits, Ideal.ieee, -EReal.coe_mul]; norm_num

/-- The mean's factor denotes 1/1024. -/
theorem inv1024_eq : inv1024 = ((1 / 1024 : ℝ) : EReal) := by
  simp [inv1024, Ideal.ofBits, Ideal.ieee, -EReal.coe_mul]; norm_num

/-- The word 0xFF800000 denotes -∞. -/
theorem ofBits_negInf : Ideal.ofBits .f32 0xFF800000#32 = (⊥ : EReal) := by
  simp [Ideal.ofBits, Ideal.ieee]

/-- The square root of 64 is 8. -/
theorem sqrt_64 : Ideal.sqrt (Ideal.ofBits .f32 0x42800000#32) = ((8 : ℝ) : EReal) := by
  rw [ofBits_64, Ideal.sqrt_coe, if_neg (by norm_num)]
  refine congrArg _ ?_
  rw [show (64 : ℝ) = 8 ^ 2 by norm_num]
  exact Real.sqrt_sq (by norm_num)

/-- Dividing by the square root of 64 is multiplying by the score scale, on every extended real. -/
theorem div_sqrt_64 (x : EReal) : Ideal.div x (Ideal.sqrt (Ideal.ofBits .f32 0x42800000#32)) = x * scale8 := by
  rw [sqrt_64, Ideal.div_coe (by norm_num), scale8_eq]

/-- Dividing by 1024 is multiplying by the mean's factor, on every extended real. -/
theorem div_1024 (x : EReal) : Ideal.div x (Ideal.ofBits .f32 0x44800000#32) = x * inv1024 := by
  rw [ofBits_1024, Ideal.div_coe (by norm_num), inv1024_eq]

end Cert.CausalAttn.Ref

end
-- ==== Proof.RefMask.lean ====
/-
  The reference's causal mask and masked scores, read at an index.

  The mask is the lower triangle of a 1024 × 1024 array of true: at (q, s) it compares the row number q (plus zero)
  with the column number s as signed 32-bit words.  Both numbers are below 2³¹, so the words read signed are the
  numbers themselves and the comparison is s ≤ q.  The mask is repeated over the batch and selects between the scaled
  score and -∞.  The scaled score at (b, q, s) is the inner product over the 64 features of the query projection at q
  and the key projection at s, divided by the square root of 64, which is the product with 1/8.
-/
import Idealize.ShloMosaic.Lib.WordArith
import Idealize.ShloMosaic.Lib.Affine
import proofs.«156499_j88184268522037_2_alg».proof.Proof.Gen.ReferenceIdeal.Read
import proofs.«156499_j88184268522037_2_alg».proof.Proof.Spec
import proofs.«156499_j88184268522037_2_alg».proof.Proof.RefConsts

noncomputable section

namespace Cert.CausalAttn.Ref

open Cert.ReferenceIdeal Cert.ReferenceIdeal.Gen Idealize.ShloMosaic Idealize.ShloMosaic.ValueIdx

/-- A signed comparison "at least" of two numbers below 2³¹ written as 32-bit words is the comparison of the numbers. -/
theorem sge_ofNat_iff (a b : Nat) (ha : a < 2 ^ 31) (hb : b < 2 ^ 31) :
    IntOp.cmpi .sge (BitVec.ofNat 32 a) (BitVec.ofNat 32 b) = 1#1 ↔ b ≤ a := by
  rw [IntOp.cmpi_sge, WordArith.toInt_ofNat_small a ha, WordArith.toInt_ofNat_small b hb]
  exact Int.ofNat_le

/-- The lower-triangular mask at (q, s): true exactly when s ≤ q. -/
theorem mask_apply (q s : Fin 1024) :
    Read.val_main_v8 (F := Ideal) (ix2 q s) = if s.val ≤ q.val then 1#1 else 0#1 := by
  rw [Read.val_main_v8_apply, Read.val_main_call0_v4_apply, Read.val_main_call0_v2_apply, Read.val_main_call0_v0_apply,
    Read.val_main_call0_v1_apply, Read.val_main_call0_c_apply, Read.val_main_call0_v3_apply, Read.val_main_v7_apply,
    Read.val_main_c_apply, Read.val_main_call0_v5_apply, Read.val_main_call0_c_0_apply]
  show Scalar.select (IntOp.cmpi .sge (IntOp.addi (BitVec.ofNat 32 q.val) 0#32) (BitVec.ofNat 32 s.val)) 1#1 0#1 = _
  rw [show IntOp.addi (BitVec.ofNat 32 q.val) 0#32 = BitVec.ofNat 32 q.val from BitVec.add_zero _]
  have hq : q.val < 2 ^ 31 := by have := q.isLt; omega
  have hs : s.val < 2 ^ 31 := by have := s.isLt; omega
  by_cases h : s.val ≤ q.val
  · rw [(sge_ofNat_iff q.val s.val hq hs).mpr h, select_one, if_pos h]
  · rw [eq_zero_of_ne_one (fun hh => h ((sge_ofNat_iff q.val s.val hq hs).mp hh)), select_zero, if_neg h]

/-- The masked score at (b, q, s): the scaled score when s ≤ q, otherwise -∞. -/
theorem masked_apply (x : (⟨S128x1024x49, .f32⟩ : BufTy).Contents (Elt Ideal)) (wq wk : (⟨S49x64, .f32⟩ : BufTy).Contents (Elt Ideal))
    (b : Fin 128) (q s : Fin 1024) :
    Read.val_main_v9 (F := Ideal) x wq wk (ix3 b q s)
      = if s.val ≤ q.val then Read.val_main_v6 (F := Ideal) x wq wk (ix3 b q s) else (⊥ : EReal) := by
  rw [Read.val_main_v9_apply, Read.val_main_call1_v1_apply,
    show Read.idx_main_call1_v1 (ix3 b q s) = ix2 q s from
      funext fun a => Fin.ext (by match a with | ⟨0, _⟩ => rfl | ⟨1, _⟩ => rfl),
    mask_apply, Read.val_main_call1_v2_apply, Read.val_main_call1_v0_apply, Read.val_main_cst_0_apply, Ideal.ofBits_def,
    ofBits_negInf]
  by_cases h : s.val ≤ q.val
  · rw [if_pos h, if_pos h, select_one]
  · rw [if_neg h, if_neg h, select_zero]

/-- The scaled score at (b, q, s) is the specification's score of batch element b. -/
theorem score_apply (x : (⟨S128x1024x49, .f32⟩ : BufTy).Contents (Elt Ideal)) (wq wk : (⟨S49x64, .f32⟩ : BufTy).Contents (Elt Ideal))
    (b : Fin 128) (q s : Fin 1024) :
    Read.val_main_v6 (F := Ideal) x wq wk (ix3 b q s) = score (seqOf x b) (matOf wq) (matOf wk) q s := by
  rw [Read.val_main_v6_apply, Read.val_main_v3_apply, Read.val_main_v5_apply, Read.val_main_v4_apply, Read.val_main_cst_apply,
    Ideal.hostDivf_def, Ideal.hostUnary_sqrt_def, Ideal.ofBits_def, div_sqrt_64]
  simp only [Read.val_main_v0_apply, Read.val_main_v1_apply]
  unfold score proj seqOf matOf
  refine congrArg (· * scale8) (Finset.sum_congr rfl fun k _ => ?_)
  refine congrArg₂ (· * ·) (Finset.sum_congr rfl fun d _ => ?_) (Finset.sum_congr rfl fun d _ => ?_)
  · refine congrArg₂ (· * ·) (congrArg x ?_) (congrArg wq ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · refine congrArg₂ (· * ·) (congrArg x ?_) (congrArg wk ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)

/-- The masked score at (b, q, s) is the specification's masked score of batch element b. -/
theorem masked_eq (x : (⟨S128x1024x49, .f32⟩ : BufTy).Contents (Elt Ideal)) (wq wk : (⟨S49x64, .f32⟩ : BufTy).Contents (Elt Ideal))
    (b : Fin 128) (q s : Fin 1024) :
    Read.val_main_v9 (F := Ideal) x wq wk (ix3 b q s) = masked (seqOf x b) (matOf wq) (matOf wk) q s := by
  rw [masked_apply, score_apply]; rfl

end Cert.CausalAttn.Ref

end
-- ==== Proof.RefAttn.lean ====
/-
  The reference's softmax over the masked scores, read at an index: its first result is the specification's attention.

  The row maximum is a reduction by maximum from -∞ over the key axis: at (b, q) it is the fold of max from -∞ over
  the 1024 masked scores of row q, because max is commutative and associative and the reduced axis is a single one.
  The reference then takes the maximum of -∞ and that, which changes nothing.  The maximum is laid out as a column and
  repeated along the keys, subtracted from the masked scores and exponentiated; the row sum starts from the word of zero,
  which adds nothing; the quotient of the exponential by the repeated row sum is the attention weight.
-/
import proofs.«156499_j88184268522037_2_alg».proof.Proof.RefMask

noncomputable section

namespace Cert.CausalAttn.Ref

open Cert.ReferenceIdeal Cert.ReferenceIdeal.Gen Idealize.ShloMosaic Idealize.ShloMosaic.ValueIdx

variable (x : (⟨S128x1024x49, .f32⟩ : BufTy).Contents (Elt Ideal)) (wq wk : (⟨S49x64, .f32⟩ : BufTy).Contents (Elt Ideal))

/-- The row maximum at (b, q): the fold of max from -∞ over the row's masked scores. -/
theorem rowMax_apply (b : Fin 128) (q : Fin 1024) :
    Read.val_main_v10 (F := Ideal) x wq wk (ix2 b q) = rowMax (seqOf x b) (matOf wq) (matOf wk) q := by
  have h : S128x1024x1024.Reduces [(2 : Fin 3)] S128x1024 := by decide
  unfold Read.val_main_v10
  rw [Host.reduce_eq_fold_single (FloatOps.maximumf (F := Ideal) (φ := .f32)) _ _ _ h, Read.val_main_cst_1_apply, Ideal.ofBits_def,
    ofBits_negInf]
  unfold rowMax
  refine congrArg (fun f => Finset.fold max (⊥ : EReal) f (Finset.univ : Finset (Fin 1024))) (funext fun s => ?_)
  show Read.val_main_v9 (F := Ideal) x wq wk (h.lift (ix2 b q) s) = _
  rw [show h.lift (ix2 b q) s = ix3 b q s from
    funext fun c => Fin.ext (by match c with | ⟨0, _⟩ => rfl | ⟨1, _⟩ => rfl | ⟨2, _⟩ => rfl)]
  exact masked_eq x wq wk b q s

/-- The maximum with -∞ taken once more, laid out as a column and repeated along the keys: still the row maximum. -/
theorem rowMaxBcast_apply (b : Fin 128) (q s : Fin 1024) :
    Read.val_main_v14 (F := Ideal) x wq wk (ix3 b q s) = rowMax (seqOf x b) (matOf wq) (matOf wk) q := by
  rw [Read.val_main_v14_apply, Read.val_main_v13_apply, Read.val_main_v12_apply, Read.val_main_v11_apply,
    Read.val_main_cst_2_apply, Ideal.ofBits_def, ofBits_negInf, Ideal.maximumf_def, max_bot_left,
    show Read.idx_main_v13 (Read.idx_main_v14 (ix3 b q s)) = ix2 b q from
      funext fun a => Fin.ext (by match a with | ⟨0, _⟩ => rfl | ⟨1, _⟩ => rfl)]
  exact rowMax_apply x wq wk b q

/-- The shifted exponential at (b, q, s). -/
theorem rowExp_apply (b : Fin 128) (q s : Fin 1024) :
    Read.val_main_v16 (F := Ideal) x wq wk (ix3 b q s) = rowExp (seqOf x b) (matOf wq) (matOf wk) q s := by
  rw [Read.val_main_v16_apply, Read.val_main_v15_apply, Ideal.hostUnary_exp_def, Ideal.subf_def, masked_eq, rowMaxBcast_apply]
  rfl

/-- The row sum at (b, q): the zero word adds nothing. -/
theorem rowSum_apply (b : Fin 128) (q : Fin 1024) :
    Read.val_main_v17 (F := Ideal) x wq wk (ix2 b q) = rowSum (seqOf x b) (matOf wq) (matOf wk) q := by
  rw [Read.val_main_v17_apply, Read.val_main_cst_3_apply, Ideal.ofBits_def, Ideal.ofBits_zero_f32, zero_add]
  unfold rowSum
  refine Finset.sum_congr rfl fun s _ => ?_
  rw [show Read.idx_main_v17 (ix2 b q) s = ix3 b q s from
    funext fun a => Fin.ext (by match a with | ⟨0, _⟩ => rfl | ⟨1, _⟩ => rfl | ⟨2, _⟩ => rfl)]
  exact rowExp_apply x wq wk b q s

/-- The attention weight at (b, q, s). -/
theorem attn_apply (b : Fin 128) (q s : Fin 1024) :
    Read.val_main_v20 (F := Ideal) x wq wk (ix3 b q s) = attn (seqOf x b) (matOf wq) (matOf wk) q s := by
  rw [Read.val_main_v20_apply, Read.val_main_v19_apply, Read.val_main_v18_apply, Ideal.hostDivf_def, rowExp_apply,
    show Read.idx_main_v18 (Read.idx_main_v19 (ix3 b q s)) = ix2 b q from
      funext fun a => Fin.ext (by match a with | ⟨0, _⟩ => rfl | ⟨1, _⟩ => rfl),
    rowSum_apply]
  rfl

/-- The reference's attention result is the specification's attention of the whole batch. -/
theorem ref_attn : Read.val_main_v20 (F := Ideal) x wq wk = attnAll x wq wk := by
  funext i
  obtain ⟨b, q, s, rfl⟩ : ∃ (b : Fin 128) (q s : Fin 1024), i = ix3 b q s := ⟨i 0, i 1, i 2, eq_ix3 i⟩
  exact attn_apply x wq wk b q s

end Cert.CausalAttn.Ref

end
-- ==== Proof.RefLogits.lean ====
/-
  The reference's classifier head, read at an index: its second result is the specification's logits.

  The hidden state at (b, q, k) is the sum over the key positions of the attention weight times the value projection;
  the pooled vector sums the hidden states over the 1024 query positions, starting from the word of zero, and divides
  by 1024, which is the product with 1/1024; the logit at (b, n) is the sum over the 64 features of the pooled vector
  times the classifier matrix, plus the bias, which the reference first lays out as one row and repeats over the batch.
-/
import proofs.«156499_j88184268522037_2_alg».proof.Proof.RefAttn

noncomputable section

namespace Cert.CausalAttn.Ref

open Cert.ReferenceIdeal Cert.ReferenceIdeal.Gen Idealize.ShloMosaic Idealize.ShloMosaic.ValueIdx

variable (x : (⟨S128x1024x49, .f32⟩ : BufTy).Contents (Elt Ideal)) (wq wk wv : (⟨S49x64, .f32⟩ : BufTy).Contents (Elt Ideal))
  (wc : (⟨S64x1000, .f32⟩ : BufTy).Contents (Elt Ideal)) (bc : (⟨S1000, .f32⟩ : BufTy).Contents (Elt Ideal))

/-- The value projection at (b, s, k). -/
theorem projV_apply (b : Fin 128) (s : Fin 1024) (k : Fin 64) :
    Read.val_main_v2 (F := Ideal) x wv (ix3 b s k) = proj (seqOf x b) (matOf wv) s k := by
  rw [Read.val_main_v2_apply]
  unfold proj seqOf matOf
  refine Finset.sum_congr rfl fun d _ => congrArg₂ (· * ·) (congrArg x ?_) (congrArg wv ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-- The hidden state at (b, q, k). -/
theorem hidden_apply (b : Fin 128) (q : Fin 1024) (k : Fin 64) :
    Read.val_main_v21 (F := Ideal) x wq wk wv (ix3 b q k) = hidden (seqOf x b) (matOf wq) (matOf wk) (matOf wv) q k := by
  rw [Read.val_main_v21_apply]
  unfold hidden
  refine Finset.sum_congr rfl fun s _ => ?_
  rw [show Read.lidx_main_v21 (ix3 b q k) s = ix3 b q s from
      funext fun a => Fin.ext (by match a with | ⟨0, _⟩ => rfl | ⟨1, _⟩ => rfl | ⟨2, _⟩ => rfl),
    show Read.ridx_main_v21 (ix3 b q k) s = ix3 b s k from
      funext fun a => Fin.ext (by match a with | ⟨0, _⟩ => rfl | ⟨1, _⟩ => rfl | ⟨2, _⟩ => rfl),
    attn_apply, projV_apply]

/-- The pooled vector at (b, k): the zero word adds nothing, and dividing by 1024 is multiplying by 1/1024. -/
theorem pooled_apply (b : Fin 128) (k : Fin 64) :
    Read.val_main_v24 (F := Ideal) x wq wk wv (ix2 b k) = pooled (seqOf x b) (matOf wq) (matOf wk) (matOf wv) k := by
  rw [Read.val_main_v24_apply, Read.val_main_v23_apply, Read.val_main_cst_5_apply, Ideal.hostDivf_def, Ideal.ofBits_def, div_1024,
    Read.val_main_v22_apply, Read.val_main_cst_4_apply, Ideal.ofBits_def, Ideal.ofBits_zero_f32, zero_add]
  unfold pooled
  refine congrArg (· * inv1024) (Finset.sum_congr rfl fun q _ => ?_)
  rw [show Read.idx_main_v22 (ix2 b k) q = ix3 b q k from
    funext fun a => Fin.ext (by match a with | ⟨0, _⟩ => rfl | ⟨1, _⟩ => rfl | ⟨2, _⟩ => rfl)]
  exact hidden_apply x wq wk wv b q k

/-- The logit at (b, n). -/
theorem logit_apply (b : Fin 128) (n : Fin 1000) :
    Read.val_main_v28 (F := Ideal) x wq wk wv wc bc (ix2 b n)
      = logit (seqOf x b) (matOf wq) (matOf wk) (matOf wv) (matOf wc) (vecOf bc) n := by
  rw [Read.val_main_v28_apply, Ideal.addf_def, Read.val_main_v25_apply, Read.val_main_v27_apply, Read.val_main_v26_apply]
  unfold logit
  refine congrArg₂ (· + ·) (Finset.sum_congr rfl fun k _ => ?_) ?_
  · rw [show Read.lidx_main_v25 (ix2 b n) k = ix2 b k from
      funext fun a => Fin.ext (by match a with | ⟨0, _⟩ => rfl | ⟨1, _⟩ => rfl), pooled_apply]
    exact congrArg (_ * ·) (congrArg wc (funext fun a => Fin.ext (by match a with | ⟨0, _⟩ => rfl | ⟨1, _⟩ => rfl)))
  · exact congrArg bc (funext fun a => Fin.ext (by match a with | ⟨0, _⟩ => rfl))

/-- The reference's logits result is the specification's logits of the whole batch. -/
theorem ref_logits : Read.val_main_v28 (F := Ideal) x wq wk wv wc bc = logitsAll x wq wk wv wc bc := by
  funext i
  obtain ⟨b, n, rfl⟩ : ∃ (b : Fin 128) (n : Fin 1000), i = ix2 b n := ⟨i 0, i 1, eq_ix2 i⟩
  exact logit_apply x wq wk wv wc bc b n

end Cert.CausalAttn.Ref

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibRowForms.lean ====
/-
  Three reads at an index beside the library's layout lemmas, at any extents.

  A sum DOWN the columns of an `[a, b]` array (a reduction along its first axis) at column `c` runs over `k ↦ (k, c)`.
  A unit-stride slice of a matrix with an offset on BOTH axes (a diagonal block), or of a vector, reads its operand at
  the index moved by the offsets. A matrix `[a, b]` flattened to a row `[1, n]` reads, at position `k = p·b + q`, the
  matrix at `(p, q)`. The indices are written by coordinates, so each lemma applies to a printed operation by
  unification.
-/
import Idealize.ShloMosaic.Lib.ValueLayout
import Idealize.ShloMosaic.PureOps.Ideal.Laws

namespace Idealize.ShloMosaic.ValueIdx

open Idealize.ShloMosaic

variable {α : Type}

/-- Over a reduction of `[a, b]` along its FIRST axis, the source index above column `c` with `k` on the dropped axis is `(k, c)`. -/
theorem lift_col {a b : ℕ} (h : (⟨2, ![a, b]⟩ : Shape).Reduces [(0 : Fin 2)] ⟨1, ![b]⟩) (c : Fin b) (k : Fin a) :
    h.lift (ix1 c) k = ix2 k c :=
  funext fun d => Fin.ext (by match d with | ⟨0, _⟩ => rfl | ⟨1, _⟩ => rfl)

variable {φ : FTy}

/-- A sum down the columns of an `[a, b]` array at column `c`, at the exact values: the sum over the column. -/
theorem multiReduction_add_col {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (c : Fin b) :
    multiReduction .add [(0 : Fin 2)] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_col h c k)

/-- A unit-stride slice of a matrix reads the matrix at the index moved by the offsets. -/
theorem slice2_apply {A B a b : ℕ} (o0 o1 : ℕ) (x : (⟨2, ![A, B]⟩ : Shape).Idx → α)
    (h : (⟨2, ![A, B]⟩ : Shape).Slices ![o0, o1] ⟨2, ![a, b]⟩) (p : Fin a) (q : Fin b) (P : Fin A) (Q : Fin B)
    (hP : P.val = o0 + p.val) (hQ : Q.val = o1 + q.val) :
    extractStridedSlice ⟨2, ![a, b]⟩ ![o0, o1] x h (ix2 p q) = x (ix2 P Q) :=
  extractStridedSlice_apply ![o0, o1] x h (ix2 p q) (ix2 P Q) fun ax => by
    match ax with
    | ⟨0, _⟩ => exact hP
    | ⟨1, _⟩ => exact hQ

/-- A unit-stride slice of a vector reads the vector at the index moved by the offset. -/
theorem slice1_apply {A a : ℕ} (o : ℕ) (x : (⟨1, ![A]⟩ : Shape).Idx → α)
    (h : (⟨1, ![A]⟩ : Shape).Slices ![o] ⟨1, ![a]⟩) (p : Fin a) (P : Fin A) (hP : P.val = o + p.val) :
    extractStridedSlice ⟨1, ![a]⟩ ![o] x h (ix1 p) = x (ix1 P) :=
  extractStridedSlice_apply ![o] x h (ix1 p) (ix1 P) fun ax => by
    match ax with
    | ⟨0, _⟩ => exact hP

/-- A matrix `[a, b]` flattened to the row `[1, a·b]` reads, at `(u, k)`, the matrix at `(k / b, k % b)`. -/
theorem shapeCast_ab_1n_apply {a b n : ℕ} (v : (⟨2, ![a, b]⟩ : Shape).Idx → α) (h : (⟨2, ![a, b]⟩ : Shape).ShapeCasts ⟨2, ![1, n]⟩)
    (u : Fin 1) (k : Fin n) (p : Fin a) (q : Fin b) (hk : k.val = p.val * b + q.val) :
    shapeCast ⟨2, ![1, n]⟩ v h (ix2 u k) = v (ix2 p q) :=
  shapeCast_apply v h _ _ (by
    have hu : u.val = 0 := by omega
    rw [Shape.rowMajor_val_two, Shape.rowMajor_val_two]
    show p.val * b + q.val = u.val * n + k.val
    rw [hu, hk, Nat.zero_mul, Nat.zero_add])

end Idealize.ShloMosaic.ValueIdx
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.LibNtMatmul.lean ====
/-
  A product against a transposed right operand, read at an entry, at the extended reals.

  A kernel's `q · kᵀ` prints as a matrix product whose dimension numbers contract the LAST axis of both operands
  (rows of the left against rows of the right).  Accumulated into the zero block, its entry (a, b) is the sum over the
  shared axis of the products of the entries: the accumulator adds nothing and, on the extended reals, nothing is rounded
  and no order of the summands is left.  Generic in the three extents, the two operand formats and the precision key.
-/
import Idealize.ShloMosaic.Lib.ValueIdx
import Idealize.ShloMosaic.PureOps.Ideal.Laws

noncomputable section

open scoped BigOperators

namespace Cert.LibNtMatmul

open Idealize.ShloMosaic Idealize.ShloMosaic.ValueIdx

/-- `A · Bᵀ` of an m×k block by an n×k block into the zero block: entry `(a, b)` is `Σ_c A(a,c)·B(b,c)`. -/
theorem matmul_nt_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibNtMatmul

end
-- ==== Proof.TileOps.lean ====
import Idealize.ShloMosaic.Lib.ValueLayout
import Idealize.ShloMosaic.Lib.Pipeline.Value
import Idealize.ShloMosaic.Lib.ValueIdx
import Idealize.ShloMosaic.Lib.StackMember
import Idealize.ShloMosaic.Lib.KernelVsHost
import Idealize.ShloMosaic.Lib.Affine
import Idealize.ShloMosaic.PureOps.Ideal.Laws
import proofs.«156499_j88184268522037_2_alg».proof.Proof.LibKeepdims
import proofs.«156499_j88184268522037_2_alg».proof.Proof.LibRowForms
import proofs.«156499_j88184268522037_2_alg».proof.Proof.LibPlainMatmul
import proofs.«156499_j88184268522037_2_alg».proof.Proof.LibNtMatmul

noncomputable section

/-!
  One query tile of the attention kernel, stage by stage, at any tile offset.

  A tile handles 128 consecutive queries, the rows `o … o+127`, against the keys `0 … n-1` with `n = o + 128` (every
  key a query of the tile may see).  Its stages are: the scaled scores `q·kᵀ/8`; the causal mask, which only the
  last 128 columns (the diagonal block) need: row `r` keeps column `c` when `c ≤ o + r`; the row softmax (subtract
  the row maximum, exponentiate, divide by the row sum); and the padding of the row with zeros out to 1024 columns.
  Each stage is written once with the extents as parameters, and read at an index.
-/
namespace Cert.CausalAttn.Tile

open Idealize.ShloMosaic Idealize.ShloMosaic.ValueIdx

/-! ## The product against a transposed right operand -/

export Cert.LibNtMatmul (matmul_nt_zero_apply)

/-! ## The causal comparison -/

/-- A coordinate below 128, as a 32-bit word read signed, is itself. -/
theorem toInt_ofNat_small (x : ℕ) (h : x < 128) : (BitVec.ofNat 32 x).toInt = (x : ℤ) := by
  rw [BitVec.toInt_eq_toNat_cond, BitVec.toNat_ofNat]
  have : x % 2 ^ 32 = x := Nat.mod_eq_of_lt (by omega)
  rw [this, if_pos (by omega)]

/-- Row number ≥ column number, on a 128×128 block: the bit is one exactly when `c ≤ r`. -/
theorem causal_apply (h0 : (⟨2, ![128, 128]⟩ : Shape).Iotas .tc 32 [0]) (h1 : (⟨2, ![128, 128]⟩ : Shape).Iotas .tc 32 [1]) (r c : Fin 128) :
    cmpi .sge (iota .tc ⟨2, ![128, 128]⟩ 32 [0] h0) (iota .tc ⟨2, ![128, 128]⟩ 32 [1] h1) (ix2 r c)
      = if c.val ≤ r.val then 1#1 else 0#1 := by
  show IntOp.cmpi .sge (iota .tc ⟨2, ![128, 128]⟩ 32 [0] h0 (ix2 r c)) (iota .tc ⟨2, ![128, 128]⟩ 32 [1] h1 (ix2 r c)) = _
  rw [iota_single_apply, iota_single_apply]
  show IntOp.cmpi .sge (BitVec.ofNat 32 r.val) (BitVec.ofNat 32 c.val) = _
  split
  · next h => exact IntOp.cmpi_sge.mpr (by rw [toInt_ofNat_small _ c.isLt, toInt_ofNat_small _ r.isLt]; exact_mod_cast h)
  · next h =>
    refine eq_zero_of_ne_one fun h1 => h ?_
    have := IntOp.cmpi_sge.mp h1
    rw [toInt_ofNat_small _ c.isLt, toInt_ofNat_small _ r.isLt] at this
    exact_mod_cast this

/-- The diagonal block with the keys after the query replaced by `w`. -/
def maskDiag (h0 : (⟨2, ![128, 128]⟩ : Shape).Iotas .tc 32 [0]) (h1 : (⟨2, ![128, 128]⟩ : Shape).Iotas .tc 32 [1])
    (d : FVec Ideal ⟨2, ![128, 128]⟩ .f32) (w : Ideal .f32) : FVec Ideal ⟨2, ![128, 128]⟩ .f32 :=
  select (cmpi .sge (iota .tc ⟨2, ![128, 128]⟩ 32 [0] h0) (iota .tc ⟨2, ![128, 128]⟩ 32 [1] h1)) d (broadcast ⟨2, ![128, 128]⟩ w)

theorem maskDiag_apply (h0 : (⟨2, ![128, 128]⟩ : Shape).Iotas .tc 32 [0]) (h1 : (⟨2, ![128, 128]⟩ : Shape).Iotas .tc 32 [1])
    (d : FVec Ideal ⟨2, ![128, 128]⟩ .f32) (w : Ideal .f32) (r c : Fin 128) :
    maskDiag h0 h1 d w (ix2 r c) = if c.val ≤ r.val then d (ix2 r c) else w := by
  unfold maskDiag
  rw [select_apply, causal_apply]
  split
  · exact select_one _ _
  · exact select_zero _ _

/-- A tile's score rows with the diagonal block masked: the first `o` columns as they are, then the masked block. -/
def maskedRows {o n : ℕ} (sc : FVec Ideal ⟨2, ![128, n]⟩ .f32)
    (hs1 : (⟨2, ![128, n]⟩ : Shape).Slices ![0, 0] ⟨2, ![128, o]⟩) (hs2 : (⟨2, ![128, n]⟩ : Shape).Slices ![0, o] ⟨2, ![128, 128]⟩)
    (h0 : (⟨2, ![128, 128]⟩ : Shape).Iotas .tc 32 [0]) (h1 : (⟨2, ![128, 128]⟩ : Shape).Iotas .tc 32 [1])
    (hc : Shape.Concatenates [⟨2, ![128, o]⟩, ⟨2, ![128, 128]⟩] ⟨2, ![128, n]⟩ 1) (w : Ideal .f32) : FVec Ideal ⟨2, ![128, n]⟩ .f32 :=
  concatenate ⟨2, ![128, n]⟩ 1 [⟨⟨2, ![128, o]⟩, extractStridedSlice ⟨2, ![128, o]⟩ ![0, 0] sc hs1⟩,
    ⟨⟨2, ![128, 128]⟩, maskDiag h0 h1 (extractStridedSlice ⟨2, ![128, 128]⟩ ![0, o] sc hs2) w⟩] hc

theorem maskedRows_apply {o n : ℕ} (hn : n = o + 128) (sc : FVec Ideal ⟨2, ![128, n]⟩ .f32)
    (hs1 : (⟨2, ![128, n]⟩ : Shape).Slices ![0, 0] ⟨2, ![128, o]⟩) (hs2 : (⟨2, ![128, n]⟩ : Shape).Slices ![0, o] ⟨2, ![128, 128]⟩)
    (h0 : (⟨2, ![128, 128]⟩ : Shape).Iotas .tc 32 [0]) (h1 : (⟨2, ![128, 128]⟩ : Shape).Iotas .tc 32 [1])
    (hc : Shape.Concatenates [⟨2, ![128, o]⟩, ⟨2, ![128, 128]⟩] ⟨2, ![128, n]⟩ 1) (w : Ideal .f32) (r : Fin 128) (c : Fin n) :
    maskedRows sc hs1 hs2 h0 h1 hc w (ix2 r c) = if c.val ≤ o + r.val then sc (ix2 r c) else w := by
  unfold maskedRows
  by_cases hlt : c.val < o
  · rw [concatenate_pair_apply_left (s₁ := ⟨2, ![128, o]⟩) (s₂ := ⟨2, ![128, 128]⟩) (1 : Fin 2) _ _ hc (ix2 r c) rfl (ix2 r (⟨c.val, hlt⟩ : Fin o))
        (fun b => match b with | ⟨0, _⟩ => rfl | ⟨1, _⟩ => rfl),
      slice2_apply 0 0 sc hs1 r ⟨c.val, hlt⟩ r c (by simp) (by simp), if_pos (by omega)]
  · have hc' : c.val - o < 128 := by have := c.isLt; omega
    rw [concatenate_pair_apply_right (s₁ := ⟨2, ![128, o]⟩) (s₂ := ⟨2, ![128, 128]⟩) (1 : Fin 2) _ _ hc (ix2 r c) rfl rfl (ix2 r (⟨c.val - o, hc'⟩ : Fin 128))
        (fun b hb => match b, hb with | ⟨0, _⟩, _ => rfl | ⟨1, _⟩, hb => absurd rfl hb)
        (by show (c.val - o) + o = c.val; omega),
      maskDiag_apply, slice2_apply 0 o sc hs2 r ⟨c.val - o, hc'⟩ r c (by simp) (by show c.val = o + (c.val - o); omega)]
    by_cases hle : c.val ≤ o + r.val
    · rw [if_pos hle, if_pos (show c.val - o ≤ r.val by omega)]
    · rw [if_neg hle, if_neg (show ¬ c.val - o ≤ r.val by omega)]

/-! ## The row softmax, in the three cuts the program makes of it -/

/-- The row maxima as a column. -/
def rowMaxCol {n : ℕ} (ms : FVec Ideal ⟨2, ![128, n]⟩ .f32) (hred : (⟨2, ![128, n]⟩ : Shape).Reduces [(1 : Fin 2)] ⟨1, ![128]⟩)
    (hcast : (⟨1, ![128]⟩ : Shape).ShapeCasts ⟨2, ![128, 1]⟩) : FVec Ideal ⟨2, ![128, 1]⟩ .f32 :=
  shapeCast ⟨2, ![128, 1]⟩ (multiReduction .maximumf [(1 : Fin 2)] ⟨1, ![128]⟩ ms 0xFF800000#32 hred (.inl rfl) rfl) hcast

theorem rowMaxCol_apply {n : ℕ} (ms : FVec Ideal ⟨2, ![128, n]⟩ .f32) (hred : (⟨2, ![128, n]⟩ : Shape).Reduces [(1 : Fin 2)] ⟨1, ![128]⟩)
    (hcast : (⟨1, ![128]⟩ : Shape).ShapeCasts ⟨2, ![128, 1]⟩) (r : Fin 128) (u : Fin 1) :
    rowMaxCol ms hred hcast (ix2 r u)
      = (Finset.univ : Finset (Fin n)).fold max (Ideal.ofBits .f32 0xFF800000#32) (fun k => ms (ix2 r k)) := by
  unfold rowMaxCol
  rw [shapeCast_a_a1_apply]
  exact multiReduction_maximumf_row ms _ hred _ _ r

/-- A block minus a column repeated along its rows. -/
def shiftRows {n : ℕ} (ms : FVec Ideal ⟨2, ![128, n]⟩ .f32) (col : FVec Ideal ⟨2, ![128, 1]⟩ .f32)
    (hb : (⟨2, ![128, 1]⟩ : Shape).Broadcasts ⟨2, ![128, n]⟩) : FVec Ideal ⟨2, ![128, n]⟩ .f32 :=
  subf ms (broadcastTo ⟨2, ![128, n]⟩ col hb)

theorem shiftRows_apply {n : ℕ} (ms : FVec Ideal ⟨2, ![128, n]⟩ .f32) (col : FVec Ideal ⟨2, ![128, 1]⟩ .f32)
    (hb : (⟨2, ![128, 1]⟩ : Shape).Broadcasts ⟨2, ![128, n]⟩) (r : Fin 128) (c : Fin n) :
    shiftRows ms col hb (ix2 r c) = ms (ix2 r c) - col (ix2 r (0 : Fin 1)) := by
  unfold shiftRows
  rw [subf_apply, broadcastTo_a1_ab_apply]

/-- Exponentiate and divide each row by its sum. -/
def expNormalize {n : ℕ} (sh : FVec Ideal ⟨2, ![128, n]⟩ .f32) (hred : (⟨2, ![128, n]⟩ : Shape).Reduces [(1 : Fin 2)] ⟨1, ![128]⟩)
    (hcast : (⟨1, ![128]⟩ : Shape).ShapeCasts ⟨2, ![128, 1]⟩) (hb : (⟨2, ![128, 1]⟩ : Shape).Broadcasts ⟨2, ![128, n]⟩) :
    FVec Ideal ⟨2, ![128, n]⟩ .f32 :=
  divf (exp sh) (broadcastTo ⟨2, ![128, n]⟩
    (shapeCast ⟨2, ![128, 1]⟩ (multiReduction .add [(1 : Fin 2)] ⟨1, ![128]⟩ (exp sh) 0x00000000#32 hred (.inl rfl) rfl) hcast) hb)

theorem expNormalize_apply {n : ℕ} (sh : FVec Ideal ⟨2, ![128, n]⟩ .f32) (hred : (⟨2, ![128, n]⟩ : Shape).Reduces [(1 : Fin 2)] ⟨1, ![128]⟩)
    (hcast : (⟨1, ![128]⟩ : Shape).ShapeCasts ⟨2, ![128, 1]⟩) (hb : (⟨2, ![128, 1]⟩ : Shape).Broadcasts ⟨2, ![128, n]⟩)
    (r : Fin 128) (c : Fin n) :
    expNormalize sh hred hcast hb (ix2 r c)
      = Ideal.div (Ideal.exp (sh (ix2 r c))) (∑ k : Fin n, Ideal.exp (sh (ix2 r k))) := by
  unfold expNormalize
  rw [divf_apply, broadcastTo_a1_ab_apply, shapeCast_a_a1_apply]
  refine congrArg (Ideal.div _) ?_
  exact multiReduction_add_row (exp sh) _ hred _ _ r

/-! ## Padding a tile's rows with zeros to the full width -/

/-- The rows followed by `p` zero columns, as a block `[1, 128, 1024]`. -/
def padRows {n p : ℕ} (a : FVec Ideal ⟨2, ![128, n]⟩ .f32) (z : Ideal .f32)
    (hc : Shape.Concatenates [⟨2, ![128, n]⟩, ⟨2, ![128, p]⟩] ⟨2, ![128, 1024]⟩ 1)
    (hcast : (⟨2, ![128, 1024]⟩ : Shape).ShapeCasts ⟨3, ![1, 128, 1024]⟩) : FVec Ideal ⟨3, ![1, 128, 1024]⟩ .f32 :=
  shapeCast ⟨3, ![1, 128, 1024]⟩ (concatenate ⟨2, ![128, 1024]⟩ 1 [⟨⟨2, ![128, n]⟩, a⟩, ⟨⟨2, ![128, p]⟩, broadcast ⟨2, ![128, p]⟩ z⟩] hc) hcast

theorem padRows_apply {n p : ℕ} (hnp : n + p = 1024) (a : FVec Ideal ⟨2, ![128, n]⟩ .f32) (z : Ideal .f32)
    (hc : Shape.Concatenates [⟨2, ![128, n]⟩, ⟨2, ![128, p]⟩] ⟨2, ![128, 1024]⟩ 1)
    (hcast : (⟨2, ![128, 1024]⟩ : Shape).ShapeCasts ⟨3, ![1, 128, 1024]⟩) (u : Fin 1) (r : Fin 128) (s : Fin 1024) :
    padRows a z hc hcast (ix3 u r s) = if h : s.val < n then a (ix2 r ⟨s.val, h⟩) else z := by
  unfold padRows
  rw [shapeCast_ab_1ab_apply]
  by_cases hlt : s.val < n
  · rw [dif_pos hlt]
    exact concatenate_pair_apply_left (s₁ := ⟨2, ![128, n]⟩) (s₂ := ⟨2, ![128, p]⟩) (1 : Fin 2) _ _ hc (ix2 r s) rfl (ix2 r (⟨s.val, hlt⟩ : Fin n))
      (fun b => match b with | ⟨0, _⟩ => rfl | ⟨1, _⟩ => rfl)
  · rw [dif_neg hlt]
    have hs' : s.val - n < p := by have := s.isLt; omega
    exact concatenate_pair_apply_right (s₁ := ⟨2, ![128, n]⟩) (s₂ := ⟨2, ![128, p]⟩) (1 : Fin 2) _ _ hc (ix2 r s) rfl rfl (ix2 r (⟨s.val - n, hs'⟩ : Fin p))
      (fun b hb => match b, hb with | ⟨0, _⟩, _ => rfl | ⟨1, _⟩, hb => absurd rfl hb)
      (by show (s.val - n) + n = s.val; omega)

end Cert.CausalAttn.Tile

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.LibCutSums.lean ====
/-
  Cutting a finite sum and a finite maximum after a horizon.

  A sum over `Fin N` whose terms vanish from position `n` on is the sum of its first `n` terms, and a maximum taken
  from `-∞` over `Fin N` of extended reals that are `-∞` from position `n` on is the maximum of the first `n`:
  what a causally masked row needs when it is computed only up to its horizon.  Generic in `n ≤ N`; the sum in any
  commutative monoid.
-/
import Mathlib.Data.Finset.Fold
import Mathlib.Algebra.BigOperators.Fin
import Mathlib.Data.EReal.Basic

open scoped BigOperators

namespace Cert.LibCutSums

/-- A sum over `Fin N` whose terms vanish from `n` on is the sum of its first `n` terms. -/
theorem sum_castLE {M : Type*} [AddCommMonoid M] {n N : ℕ} (hn : n ≤ N) (h : Fin N → M)
    (h0 : ∀ s : Fin N, n ≤ s.val → h s = 0) : ∑ s : Fin N, h s = ∑ c : Fin n, h (Fin.castLE hn c) := by
  have e : ∑ c : Fin n, h (Fin.castLE hn c) = ∑ x ∈ (Finset.univ : Finset (Fin n)).map (Fin.castLEEmb hn), h x :=
    (Finset.sum_map Finset.univ (Fin.castLEEmb hn) h).symm
  rw [e]
  symm
  refine Finset.sum_subset (Finset.subset_univ _) fun s _ hs => h0 s ?_
  by_contra hlt
  exact hs (Finset.mem_map.mpr ⟨⟨s.val, Nat.lt_of_not_le hlt⟩, Finset.mem_univ _, Fin.ext rfl⟩)

/-- A maximum (from `-∞`) over `Fin N` of values that are `-∞` from `n` on is the maximum of the first `n`. -/
theorem fold_max_castLE {n N : ℕ} (hn : n ≤ N) (f : Fin N → EReal) (h0 : ∀ s : Fin N, n ≤ s.val → f s = ⊥) :
    (Finset.univ : Finset (Fin N)).fold max ⊥ f = (Finset.univ : Finset (Fin n)).fold max ⊥ (fun c => f (Fin.castLE hn c)) := by
  apply le_antisymm
  · refine (Finset.fold_max_le _).mpr ⟨bot_le, fun s _ => ?_⟩
    by_cases hs : s.val < n
    · exact (Finset.le_fold_max _).mpr (Or.inr ⟨⟨s.val, hs⟩, Finset.mem_univ _, le_of_eq (congrArg f (Fin.ext rfl))⟩)
    · rw [h0 s (Nat.le_of_not_lt hs)]; exact bot_le
  · exact (Finset.fold_max_le _).mpr ⟨bot_le, fun c _ => (Finset.le_fold_max _).mpr (Or.inr ⟨_, Finset.mem_univ _, le_rfl⟩)⟩

end Cert.LibCutSums
-- ==== Proof.SoftmaxMath.lean ====
/-
  The laws that join a tile's softmax to the whole row's.

  A row of causally masked scores is `-∞` past the query's own position, so cutting the row after any horizon
  `n` past the query changes neither its maximum nor the sum of its shifted exponentials (the cut-off terms are
  `exp(-∞) = 0`); hence the tile's quotient is the row's attention weight.  Past the horizon the weight is
  `0 / (row sum)`, which is `0` because the row sum is not zero: when every input is a real number the query's own
  term is the exponential of a real, positive, and every term is nonnegative.  A sum over 1024 positions is the sum
  of the eight tiles' sums.
-/
import proofs.«156499_j88184268522037_2_alg».proof.Proof.Spec
import proofs.«156499_j88184268522037_2_alg».proof.Proof.LibRealClosed
import proofs.«156499_j88184268522037_2_alg».proof.Proof.LibCutSums

noncomputable section

open scoped BigOperators

namespace Cert.CausalAttn

open Idealize.ShloMosaic Cert.LibRealClosed

/-! ## Cutting a sum and a maximum after a horizon -/

export Cert.LibCutSums (sum_castLE fold_max_castLE)

/-! ## The exponential on the extended reals -/

theorem exp_nonneg (x : EReal) : 0 ≤ Ideal.exp x := by
  induction x using EReal.rec with
  | bot => exact le_rfl
  | coe r =>
    show (0 : EReal) ≤ ((Real.exp r : ℝ) : EReal)
    exact_mod_cast (Real.exp_pos r).le
  | top => exact le_top

theorem exp_pos_of_isReal {x : EReal} (h : IsReal x) : 0 < Ideal.exp x := by
  obtain ⟨r, rfl⟩ := h
  show (0 : EReal) < ((Real.exp r : ℝ) : EReal)
  exact_mod_cast Real.exp_pos r

theorem bot_sub' (x : EReal) : (⊥ : EReal) - x = ⊥ := EReal.bot_sub x

/-! ## A row of one sequence -/

section Row

variable (X : Fin 1024 → Fin 49 → EReal) (Wq Wk Wv : Fin 49 → Fin 64 → EReal)

theorem masked_of_lt {q s : Fin 1024} (h : q.val < s.val) : masked X Wq Wk q s = ⊥ := by
  unfold masked; rw [if_neg (Nat.not_le.mpr h)]

theorem masked_of_le {q s : Fin 1024} (h : s.val ≤ q.val) : masked X Wq Wk q s = score X Wq Wk q s := by
  unfold masked; rw [if_pos h]

theorem rowExp_of_lt {q s : Fin 1024} (h : q.val < s.val) : rowExp X Wq Wk q s = 0 := by
  unfold rowExp; rw [masked_of_lt X Wq Wk h, bot_sub']; rfl

/-- The quotient a tile forms from the first `n` masked scores of a row (any horizon `n` past the query) is the
    row's attention weight. -/
theorem attn_of_cut {n : ℕ} (hN : n ≤ 1024) (q : Fin 1024) (hq : q.val < n) (ms : Fin n → EReal)
    (hms : ∀ c : Fin n, ms c = masked X Wq Wk q (Fin.castLE hN c)) (c : Fin n) :
    Ideal.div (Ideal.exp (ms c - (Finset.univ : Finset (Fin n)).fold max ⊥ ms))
        (∑ k : Fin n, Ideal.exp (ms k - (Finset.univ : Finset (Fin n)).fold max ⊥ ms))
      = attn X Wq Wk q (Fin.castLE hN c) := by
  have hfun : ms = fun c => masked X Wq Wk q (Fin.castLE hN c) := funext hms
  have hmax : (Finset.univ : Finset (Fin n)).fold max ⊥ ms = rowMax X Wq Wk q := by
    rw [hfun]; unfold rowMax
    exact (fold_max_castLE hN _ fun s hs => masked_of_lt X Wq Wk (Nat.lt_of_lt_of_le hq hs)).symm
  have hsum : ∑ k : Fin n, Ideal.exp (ms k - rowMax X Wq Wk q) = rowSum X Wq Wk q := by
    unfold rowSum
    rw [sum_castLE hN (fun s => rowExp X Wq Wk q s) fun s hs => rowExp_of_lt X Wq Wk (Nat.lt_of_lt_of_le hq hs)]
    exact Finset.sum_congr rfl fun k _ => by rw [hms k]; rfl
  rw [hmax, hsum, hms c]; rfl

variable (hX : ∀ s d, IsReal (X s d)) (hWq : ∀ d k, IsReal (Wq d k)) (hWk : ∀ d k, IsReal (Wk d k)) (hsc : IsReal scale8)

include hX in
theorem isReal_proj (W : Fin 49 → Fin 64 → EReal) (hW : ∀ d k, IsReal (W d k)) (s : Fin 1024) (k : Fin 64) :
    IsReal (proj X W s k) :=
  IsReal.sum _ _ fun d _ => (hX s d).mul (hW d k)

include hX hWq hWk hsc in
theorem isReal_score (q s : Fin 1024) : IsReal (score X Wq Wk q s) :=
  (IsReal.sum _ _ fun k _ => (isReal_proj X hX Wq hWq q k).mul (isReal_proj X hX Wk hWk s k)).mul hsc

include hX hWq hWk hsc in
theorem isReal_rowMax (q : Fin 1024) : IsReal (rowMax X Wq Wk q) := by
  have hlt : rowMax X Wq Wk q < ⊤ := by
    unfold rowMax
    refine (Finset.fold_max_lt _).mpr ⟨bot_lt_top, fun s _ => ?_⟩
    unfold masked
    split
    · obtain ⟨r, hr⟩ := isReal_score X Wq Wk hX hWq hWk hsc q s
      rw [hr]; exact EReal.coe_lt_top r
    · exact bot_lt_top
  have hgt : ⊥ < rowMax X Wq Wk q := by
    obtain ⟨r, hr⟩ := isReal_score X Wq Wk hX hWq hWk hsc q q
    refine lt_of_lt_of_le (EReal.bot_lt_coe r) ?_
    rw [← hr, ← masked_of_le X Wq Wk (le_refl q.val)]
    unfold rowMax
    exact (Finset.le_fold_max _).mpr (Or.inr ⟨q, Finset.mem_univ _, le_rfl⟩)
  induction h : rowMax X Wq Wk q using EReal.rec with
  | bot => rw [h] at hgt; exact absurd hgt (lt_irrefl _)
  | coe r => exact ⟨r, rfl⟩
  | top => rw [h] at hlt; exact absurd hlt (lt_irrefl _)

include hX hWq hWk hsc in
/-- The row sum is not zero: the query's own term is positive and no term is negative. -/
theorem rowSum_ne_zero (q : Fin 1024) : rowSum X Wq Wk q ≠ 0 := by
  have hpos : 0 < rowExp X Wq Wk q q := by
    unfold rowExp
    rw [masked_of_le X Wq Wk (le_refl q.val)]
    exact exp_pos_of_isReal ((isReal_score X Wq Wk hX hWq hWk hsc q q).sub (isReal_rowMax X Wq Wk hX hWq hWk hsc q))
  have hle : rowExp X Wq Wk q q ≤ rowSum X Wq Wk q :=
    Finset.single_le_sum (f := fun s => rowExp X Wq Wk q s) (fun s _ => exp_nonneg _) (Finset.mem_univ q)
  exact (lt_of_lt_of_le hpos hle).ne'

include hX hWq hWk hsc in
/-- Past the query the attention weight is zero. -/
theorem attn_of_lt {q s : Fin 1024} (h : q.val < s.val) : attn X Wq Wk q s = 0 := by
  unfold attn
  rw [rowExp_of_lt X Wq Wk h, Ideal.div, if_neg (rowSum_ne_zero X Wq Wk hX hWq hWk hsc q), zero_mul]

include hX hWq hWk hsc in
/-- The hidden state needs only the keys up to any horizon past the query. -/
theorem hidden_of_cut {n : ℕ} (hN : n ≤ 1024) (q : Fin 1024) (hq : q.val < n) (k : Fin 64) :
    hidden X Wq Wk Wv q k = ∑ c : Fin n, attn X Wq Wk q (Fin.castLE hN c) * proj X Wv (Fin.castLE hN c) k := by
  unfold hidden
  exact sum_castLE hN (fun s => attn X Wq Wk q s * proj X Wv s k) fun s hs => by
    show attn X Wq Wk q s * proj X Wv s k = 0
    rw [attn_of_lt X Wq Wk hX hWq hWk hsc (Nat.lt_of_lt_of_le hq hs), zero_mul]

end Row

/-! ## A sum over the sequence, tile by tile -/

/-- Position `128·j + r` of the sequence. -/
def pos (j : Fin 8) (r : Fin 128) : Fin 1024 := ⟨128 * j.val + r.val, by have := j.isLt; have := r.isLt; omega⟩

theorem sum_tiles {M : Type*} [AddCommMonoid M] (f : Fin 1024 → M) :
    ∑ q : Fin 1024, f q = ∑ j : Fin 8, ∑ r : Fin 128, f (pos j r) := by
  rw [← Equiv.sum_comp (finProdFinEquiv (m := 8) (n := 128)) f, Fintype.sum_prod_type]
  refine Finset.sum_congr rfl fun j _ => Finset.sum_congr rfl fun r _ => congrArg f (Fin.ext ?_)
  show r.val + 128 * j.val = 128 * j.val + r.val
  omega

end Cert.CausalAttn

end
-- ==== Proof.TileValue.lean ====
/-
  A query tile's attention weights and its share of the pooled sum, against the specification.

  For the tile of queries `128·j … 128·j+127` with horizon `n = 128·(j+1)`: the scaled scores of a row are the
  specification's scores, the masked rows its masked scores cut at the horizon, so the tile's softmax is the row's
  attention weight (the cut changes neither the maximum nor the sum); padded with zeros it is the whole row, because
  past the horizon the weight is zero when the inputs are real.  The tile's product with the value projections and the
  sum down its rows is the tile's share `Σ_r hidden(128·j + r, ·)` of the sequence sum.
-/
import proofs.«156499_j88184268522037_2_alg».proof.Proof.TileOps
import proofs.«156499_j88184268522037_2_alg».proof.Proof.SoftmaxMath
import proofs.«156499_j88184268522037_2_alg».proof.Proof.RefConsts

noncomputable section

open scoped BigOperators

namespace Cert.CausalAttn.Tile

open Idealize.ShloMosaic Idealize.ShloMosaic.ValueIdx Cert.LibRealClosed Cert.CausalAttn

/-! ## The stages that read the operands -/

/-- The query projections of a tile: rows `o … o+127` of the sequence times `Wq`. -/
def tileQ (o : ℕ) (x1 : FVec Ideal ⟨2, ![1024, 49]⟩ .f32) (wq : FVec Ideal ⟨2, ![49, 64]⟩ .f32)
    (hsq : (⟨2, ![1024, 49]⟩ : Shape).Slices ![o, 0] ⟨2, ![128, 49]⟩)
    (dq : DotDims ⟨2, ![128, 49]⟩ ⟨2, ![49, 64]⟩ ⟨2, ![128, 64]⟩) : FVec Ideal ⟨2, ![128, 64]⟩ .f32 :=
  matmul dq (some .fp32) (extractStridedSlice ⟨2, ![128, 49]⟩ ![o, 0] x1 hsq) wq (constant ⟨2, ![128, 64]⟩ .f32 0x00000000#32)

theorem tileQ_apply (o : ℕ) (x1 : FVec Ideal ⟨2, ![1024, 49]⟩ .f32) (wq : FVec Ideal ⟨2, ![49, 64]⟩ .f32)
    (hsq : (⟨2, ![1024, 49]⟩ : Shape).Slices ![o, 0] ⟨2, ![128, 49]⟩)
    (dq : DotDims ⟨2, ![128, 49]⟩ ⟨2, ![49, 64]⟩ ⟨2, ![128, 64]⟩) (hdq : dq = DotDims.plain 128 49 64)
    (r : Fin 128) (k : Fin 64) (q : Fin 1024) (hq : q.val = o + r.val) :
    tileQ o x1 wq hsq dq (ix2 r k) = ∑ d : Fin 49, x1 (ix2 q d) * wq (ix2 d k) := by
  subst hdq
  unfold tileQ
  rw [Cert.LibPlainMatmul.matmul_plain_zero_apply]
  exact Finset.sum_congr rfl fun d _ => by rw [slice2_apply o 0 x1 hsq r d q d hq (by simp)]

/-- A projection of the whole sequence. -/
def projAll (x1 : FVec Ideal ⟨2, ![1024, 49]⟩ .f32) (w : FVec Ideal ⟨2, ![49, 64]⟩ .f32)
    (d : DotDims ⟨2, ![1024, 49]⟩ ⟨2, ![49, 64]⟩ ⟨2, ![1024, 64]⟩) : FVec Ideal ⟨2, ![1024, 64]⟩ .f32 :=
  matmul d (some .fp32) x1 w (constant ⟨2, ![1024, 64]⟩ .f32 0x00000000#32)

theorem projAll_apply (x1 : FVec Ideal ⟨2, ![1024, 49]⟩ .f32) (w : FVec Ideal ⟨2, ![49, 64]⟩ .f32)
    (d : DotDims ⟨2, ![1024, 49]⟩ ⟨2, ![49, 64]⟩ ⟨2, ![1024, 64]⟩) (hd : d = DotDims.plain 1024 49 64) (s : Fin 1024) (k : Fin 64) :
    projAll x1 w d (ix2 s k) = ∑ e : Fin 49, x1 (ix2 s e) * w (ix2 e k) := by
  subst hd
  exact Cert.LibPlainMatmul.matmul_plain_zero_apply _ x1 w s k

/-- The first `n` rows of a projection. -/
theorem firstRows_apply {n : ℕ} (hN : n ≤ 1024) (y : FVec Ideal ⟨2, ![1024, 64]⟩ .f32)
    (hs : (⟨2, ![1024, 64]⟩ : Shape).Slices ![0, 0] ⟨2, ![n, 64]⟩) (c : Fin n) (k : Fin 64) :
    extractStridedSlice ⟨2, ![n, 64]⟩ ![0, 0] y hs (ix2 c k) = y (ix2 (Fin.castLE hN c) k) :=
  slice2_apply 0 0 y hs c k (Fin.castLE hN c) k (by simp) (by simp)

/-- The scaled scores `q·kᵀ/8` of a tile. -/
def scaledScores {n : ℕ} (dnt : DotDims ⟨2, ![128, 64]⟩ ⟨2, ![n, 64]⟩ ⟨2, ![128, n]⟩)
    (qT : FVec Ideal ⟨2, ![128, 64]⟩ .f32) (kV : FVec Ideal ⟨2, ![n, 64]⟩ .f32) : FVec Ideal ⟨2, ![128, n]⟩ .f32 :=
  mulf (matmul dnt (some .fp32) qT kV (constant ⟨2, ![128, n]⟩ .f32 0x00000000#32))
    (broadcast ⟨2, ![128, n]⟩ (Scalar.ofBits (F := Ideal) .f32 0x3E000000#32))

theorem scaledScores_apply {n : ℕ} (dnt : DotDims ⟨2, ![128, 64]⟩ ⟨2, ![n, 64]⟩ ⟨2, ![128, n]⟩)
    (hd : dnt = DotDims.transposedRhs 128 64 n) (qT : FVec Ideal ⟨2, ![128, 64]⟩ .f32) (kV : FVec Ideal ⟨2, ![n, 64]⟩ .f32)
    (r : Fin 128) (c : Fin n) :
    scaledScores dnt qT kV (ix2 r c) = (∑ k : Fin 64, qT (ix2 r k) * kV (ix2 c k)) * scale8 := by
  subst hd
  unfold scaledScores
  rw [mulf_apply, matmul_nt_zero_apply]
  rfl

/-! ## A tile's rows against the specification -/

section Spec

variable (X : Fin 1024 → Fin 49 → EReal) (Wq Wk Wv : Fin 49 → Fin 64 → EReal)

/-- Scores of projections are the specification's scores. -/
theorem score_of_proj {n : ℕ} (hN : n ≤ 1024) (dnt : DotDims ⟨2, ![128, 64]⟩ ⟨2, ![n, 64]⟩ ⟨2, ![128, n]⟩)
    (hd : dnt = DotDims.transposedRhs 128 64 n) (qT : FVec Ideal ⟨2, ![128, 64]⟩ .f32) (kV : FVec Ideal ⟨2, ![n, 64]⟩ .f32)
    (q : Fin 1024) (r : Fin 128) (hq : ∀ k, qT (ix2 r k) = proj X Wq q k)
    (hk : ∀ c k, kV (ix2 c k) = proj X Wk (Fin.castLE hN c) k) (c : Fin n) :
    scaledScores dnt qT kV (ix2 r c) = score X Wq Wk q (Fin.castLE hN c) := by
  rw [scaledScores_apply dnt hd]
  unfold score
  exact congrArg (· * scale8) (Finset.sum_congr rfl fun k _ => by rw [hq k, hk c k])

/-- The softmax of a tile's masked rows is the row's attention weight. -/
theorem softmax_of_masked {n : ℕ} (hN : n ≤ 1024) (q : Fin 1024) (hqn : q.val < n)
    (ms : FVec Ideal ⟨2, ![128, n]⟩ .f32) (r : Fin 128)
    (hms : ∀ c : Fin n, ms (ix2 r c) = masked X Wq Wk q (Fin.castLE hN c))
    (hred : (⟨2, ![128, n]⟩ : Shape).Reduces [(1 : Fin 2)] ⟨1, ![128]⟩)
    (hcast : (⟨1, ![128]⟩ : Shape).ShapeCasts ⟨2, ![128, 1]⟩) (hb : (⟨2, ![128, 1]⟩ : Shape).Broadcasts ⟨2, ![128, n]⟩) (c : Fin n) :
    expNormalize (shiftRows ms (rowMaxCol ms hred hcast) hb) hred hcast hb (ix2 r c) = attn X Wq Wk q (Fin.castLE hN c) := by
  rw [expNormalize_apply]
  simp only [shiftRows_apply, rowMaxCol_apply, Cert.CausalAttn.Ref.ofBits_negInf]
  exact attn_of_cut X Wq Wk hN q hqn (fun c => ms (ix2 r c)) hms c

/-- The masked rows of a tile at offset `o` are the specification's masked scores, cut at the horizon. -/
theorem masked_of_scores {o n : ℕ} (hn : n = o + 128) (hN : n ≤ 1024) (sc : FVec Ideal ⟨2, ![128, n]⟩ .f32)
    (q : Fin 1024) (r : Fin 128) (hq : q.val = o + r.val) (hsc : ∀ c : Fin n, sc (ix2 r c) = score X Wq Wk q (Fin.castLE hN c))
    (hs1 : (⟨2, ![128, n]⟩ : Shape).Slices ![0, 0] ⟨2, ![128, o]⟩) (hs2 : (⟨2, ![128, n]⟩ : Shape).Slices ![0, o] ⟨2, ![128, 128]⟩)
    (h0 : (⟨2, ![128, 128]⟩ : Shape).Iotas .tc 32 [0]) (h1 : (⟨2, ![128, 128]⟩ : Shape).Iotas .tc 32 [1])
    (hc : Shape.Concatenates [⟨2, ![128, o]⟩, ⟨2, ![128, 128]⟩] ⟨2, ![128, n]⟩ 1) (c : Fin n) :
    maskedRows sc hs1 hs2 h0 h1 hc (Scalar.ofBits (F := Ideal) .f32 0xFF800000#32) (ix2 r c)
      = masked X Wq Wk q (Fin.castLE hN c) := by
  rw [maskedRows_apply hn, hsc c]
  unfold masked
  show (if c.val ≤ o + r.val then _ else Ideal.ofBits .f32 0xFF800000#32) = if c.val ≤ q.val then _ else ⊥
  rw [hq, Cert.CausalAttn.Ref.ofBits_negInf]

/-- The same for the first tile, whose whole block is the diagonal block. -/
theorem masked_of_scores₀ (sc : FVec Ideal ⟨2, ![128, 128]⟩ .f32) (q : Fin 1024) (r : Fin 128) (hq : q.val = r.val)
    (hsc : ∀ c : Fin 128, sc (ix2 r c) = score X Wq Wk q (Fin.castLE (by norm_num : 128 ≤ 1024) c))
    (h0 : (⟨2, ![128, 128]⟩ : Shape).Iotas .tc 32 [0]) (h1 : (⟨2, ![128, 128]⟩ : Shape).Iotas .tc 32 [1]) (c : Fin 128) :
    maskDiag h0 h1 sc (Scalar.ofBits (F := Ideal) .f32 0xFF800000#32) (ix2 r c)
      = masked X Wq Wk q (Fin.castLE (by norm_num : 128 ≤ 1024) c) := by
  rw [maskDiag_apply, hsc c]
  unfold masked
  show (if c.val ≤ r.val then _ else Ideal.ofBits .f32 0xFF800000#32) = if c.val ≤ q.val then _ else ⊥
  rw [hq, Cert.CausalAttn.Ref.ofBits_negInf]

end Spec

/-! ## A whole tile -/

/-- A tile's attention rows, from the sequence block, `Wq` and the tile's keys (offset `o ≥ 128`). -/
def tileRows {o n : ℕ} (x1 : FVec Ideal ⟨2, ![1024, 49]⟩ .f32) (wq : FVec Ideal ⟨2, ![49, 64]⟩ .f32) (kV : FVec Ideal ⟨2, ![n, 64]⟩ .f32)
    (hsq : (⟨2, ![1024, 49]⟩ : Shape).Slices ![o, 0] ⟨2, ![128, 49]⟩) (dq : DotDims ⟨2, ![128, 49]⟩ ⟨2, ![49, 64]⟩ ⟨2, ![128, 64]⟩)
    (dnt : DotDims ⟨2, ![128, 64]⟩ ⟨2, ![n, 64]⟩ ⟨2, ![128, n]⟩)
    (hs1 : (⟨2, ![128, n]⟩ : Shape).Slices ![0, 0] ⟨2, ![128, o]⟩) (hs2 : (⟨2, ![128, n]⟩ : Shape).Slices ![0, o] ⟨2, ![128, 128]⟩)
    (h0 : (⟨2, ![128, 128]⟩ : Shape).Iotas .tc 32 [0]) (h1 : (⟨2, ![128, 128]⟩ : Shape).Iotas .tc 32 [1])
    (hc : Shape.Concatenates [⟨2, ![128, o]⟩, ⟨2, ![128, 128]⟩] ⟨2, ![128, n]⟩ 1)
    (hred : (⟨2, ![128, n]⟩ : Shape).Reduces [(1 : Fin 2)] ⟨1, ![128]⟩)
    (hcast : (⟨1, ![128]⟩ : Shape).ShapeCasts ⟨2, ![128, 1]⟩) (hb : (⟨2, ![128, 1]⟩ : Shape).Broadcasts ⟨2, ![128, n]⟩) :
    FVec Ideal ⟨2, ![128, n]⟩ .f32 :=
  expNormalize (shiftRows (maskedRows (scaledScores dnt (tileQ o x1 wq hsq dq) kV) hs1 hs2 h0 h1 hc (Scalar.ofBits (F := Ideal) .f32 0xFF800000#32))
    (rowMaxCol (maskedRows (scaledScores dnt (tileQ o x1 wq hsq dq) kV) hs1 hs2 h0 h1 hc (Scalar.ofBits (F := Ideal) .f32 0xFF800000#32)) hred hcast) hb)
    hred hcast hb

/-- The first tile's attention rows (offset 0: the whole block is the diagonal block). -/
def tileRows₀ (x1 : FVec Ideal ⟨2, ![1024, 49]⟩ .f32) (wq : FVec Ideal ⟨2, ![49, 64]⟩ .f32) (kV : FVec Ideal ⟨2, ![128, 64]⟩ .f32)
    (hsq : (⟨2, ![1024, 49]⟩ : Shape).Slices ![0, 0] ⟨2, ![128, 49]⟩) (dq : DotDims ⟨2, ![128, 49]⟩ ⟨2, ![49, 64]⟩ ⟨2, ![128, 64]⟩)
    (dnt : DotDims ⟨2, ![128, 64]⟩ ⟨2, ![128, 64]⟩ ⟨2, ![128, 128]⟩)
    (h0 : (⟨2, ![128, 128]⟩ : Shape).Iotas .tc 32 [0]) (h1 : (⟨2, ![128, 128]⟩ : Shape).Iotas .tc 32 [1])
    (hred : (⟨2, ![128, 128]⟩ : Shape).Reduces [(1 : Fin 2)] ⟨1, ![128]⟩)
    (hcast : (⟨1, ![128]⟩ : Shape).ShapeCasts ⟨2, ![128, 1]⟩) (hb : (⟨2, ![128, 1]⟩ : Shape).Broadcasts ⟨2, ![128, 128]⟩) :
    FVec Ideal ⟨2, ![128, 128]⟩ .f32 :=
  expNormalize (shiftRows (maskDiag h0 h1 (scaledScores dnt (tileQ 0 x1 wq hsq dq) kV) (Scalar.ofBits (F := Ideal) .f32 0xFF800000#32))
    (rowMaxCol (maskDiag h0 h1 (scaledScores dnt (tileQ 0 x1 wq hsq dq) kV) (Scalar.ofBits (F := Ideal) .f32 0xFF800000#32)) hred hcast) hb)
    hred hcast hb

section Whole

variable (X : Fin 1024 → Fin 49 → EReal) (Wq Wk Wv : Fin 49 → Fin 64 → EReal)

theorem tileRows_apply {o n : ℕ} (hn : n = o + 128) (hN : n ≤ 1024) (j : Fin 8) (ho : o = 128 * j.val)
    (x1 : FVec Ideal ⟨2, ![1024, 49]⟩ .f32) (wq : FVec Ideal ⟨2, ![49, 64]⟩ .f32) (kV : FVec Ideal ⟨2, ![n, 64]⟩ .f32)
    (hx1 : ∀ s d, x1 (ix2 s d) = X s d) (hwq : ∀ d k, wq (ix2 d k) = Wq d k)
    (hkV : ∀ c k, kV (ix2 c k) = proj X Wk (Fin.castLE hN c) k)
    (hsq : (⟨2, ![1024, 49]⟩ : Shape).Slices ![o, 0] ⟨2, ![128, 49]⟩) (dq : DotDims ⟨2, ![128, 49]⟩ ⟨2, ![49, 64]⟩ ⟨2, ![128, 64]⟩)
    (hdq : dq = DotDims.plain 128 49 64)
    (dnt : DotDims ⟨2, ![128, 64]⟩ ⟨2, ![n, 64]⟩ ⟨2, ![128, n]⟩) (hdnt : dnt = DotDims.transposedRhs 128 64 n)
    (hs1 : (⟨2, ![128, n]⟩ : Shape).Slices ![0, 0] ⟨2, ![128, o]⟩) (hs2 : (⟨2, ![128, n]⟩ : Shape).Slices ![0, o] ⟨2, ![128, 128]⟩)
    (h0 : (⟨2, ![128, 128]⟩ : Shape).Iotas .tc 32 [0]) (h1 : (⟨2, ![128, 128]⟩ : Shape).Iotas .tc 32 [1])
    (hc : Shape.Concatenates [⟨2, ![128, o]⟩, ⟨2, ![128, 128]⟩] ⟨2, ![128, n]⟩ 1)
    (hred : (⟨2, ![128, n]⟩ : Shape).Reduces [(1 : Fin 2)] ⟨1, ![128]⟩)
    (hcast : (⟨1, ![128]⟩ : Shape).ShapeCasts ⟨2, ![128, 1]⟩) (hb : (⟨2, ![128, 1]⟩ : Shape).Broadcasts ⟨2, ![128, n]⟩)
    (r : Fin 128) (c : Fin n) :
    tileRows x1 wq kV hsq dq dnt hs1 hs2 h0 h1 hc hred hcast hb (ix2 r c) = attn X Wq Wk (pos j r) (Fin.castLE hN c) := by
  have hq : (pos j r).val = o + r.val := by rw [ho]; rfl
  unfold tileRows
  refine softmax_of_masked X Wq Wk hN (pos j r) (by rw [hq, hn]; have := r.isLt; omega) _ r (fun c => ?_) hred hcast hb c
  refine masked_of_scores X Wq Wk hn hN _ (pos j r) r hq (fun c => ?_) hs1 hs2 h0 h1 hc c
  refine score_of_proj X Wq Wk hN dnt hdnt _ kV (pos j r) r (fun k => ?_) hkV c
  rw [tileQ_apply o x1 wq hsq dq hdq r k (pos j r) hq]
  unfold proj
  exact Finset.sum_congr rfl fun d _ => by rw [hx1, hwq]

theorem tileRows₀_apply
    (x1 : FVec Ideal ⟨2, ![1024, 49]⟩ .f32) (wq : FVec Ideal ⟨2, ![49, 64]⟩ .f32) (kV : FVec Ideal ⟨2, ![128, 64]⟩ .f32)
    (hx1 : ∀ s d, x1 (ix2 s d) = X s d) (hwq : ∀ d k, wq (ix2 d k) = Wq d k)
    (hkV : ∀ c k, kV (ix2 c k) = proj X Wk (Fin.castLE (by norm_num : 128 ≤ 1024) c) k)
    (hsq : (⟨2, ![1024, 49]⟩ : Shape).Slices ![0, 0] ⟨2, ![128, 49]⟩) (dq : DotDims ⟨2, ![128, 49]⟩ ⟨2, ![49, 64]⟩ ⟨2, ![128, 64]⟩)
    (hdq : dq = DotDims.plain 128 49 64)
    (dnt : DotDims ⟨2, ![128, 64]⟩ ⟨2, ![128, 64]⟩ ⟨2, ![128, 128]⟩) (hdnt : dnt = DotDims.transposedRhs 128 64 128)
    (h0 : (⟨2, ![128, 128]⟩ : Shape).Iotas .tc 32 [0]) (h1 : (⟨2, ![128, 128]⟩ : Shape).Iotas .tc 32 [1])
    (hred : (⟨2, ![128, 128]⟩ : Shape).Reduces [(1 : Fin 2)] ⟨1, ![128]⟩)
    (hcast : (⟨1, ![128]⟩ : Shape).ShapeCasts ⟨2, ![128, 1]⟩) (hb : (⟨2, ![128, 1]⟩ : Shape).Broadcasts ⟨2, ![128, 128]⟩)
    (r : Fin 128) (c : Fin 128) :
    tileRows₀ x1 wq kV hsq dq dnt h0 h1 hred hcast hb (ix2 r c)
      = attn X Wq Wk (pos 0 r) (Fin.castLE (by norm_num : 128 ≤ 1024) c) := by
  have hq : (pos 0 r).val = 0 + r.val := rfl
  unfold tileRows₀
  refine softmax_of_masked X Wq Wk (by norm_num) (pos 0 r) (by rw [hq]; have := r.isLt; omega) _ r (fun c => ?_) hred hcast hb c
  refine masked_of_scores₀ X Wq Wk _ (pos 0 r) r (by rw [hq, Nat.zero_add]) (fun c => ?_) h0 h1 c
  refine score_of_proj X Wq Wk (by norm_num) dnt hdnt _ kV (pos 0 r) r (fun k => ?_) hkV c
  rw [tileQ_apply 0 x1 wq hsq dq hdq r k (pos 0 r) hq]
  unfold proj
  exact Finset.sum_congr rfl fun d _ => by rw [hx1, hwq]

variable (hX : ∀ s d, IsReal (X s d)) (hWq : ∀ d k, IsReal (Wq d k)) (hWk : ∀ d k, IsReal (Wk d k))

include hX hWq hWk in
/-- A tile's rows padded with zeros are whole rows of attention weights. -/
theorem padded_eq_attn {n p : ℕ} (hnp : n + p = 1024) (hN : n ≤ 1024) (j : Fin 8) (hjn : 128 * j.val + 128 ≤ n)
    (a : FVec Ideal ⟨2, ![128, n]⟩ .f32) (ha : ∀ r c, a (ix2 r c) = attn X Wq Wk (pos j r) (Fin.castLE hN c))
    (hcc : Shape.Concatenates [⟨2, ![128, n]⟩, ⟨2, ![128, p]⟩] ⟨2, ![128, 1024]⟩ 1)
    (hc3 : (⟨2, ![128, 1024]⟩ : Shape).ShapeCasts ⟨3, ![1, 128, 1024]⟩) (u : Fin 1) (r : Fin 128) (s : Fin 1024) :
    padRows a (Scalar.ofBits (F := Ideal) .f32 0x00000000#32) hcc hc3 (ix3 u r s) = attn X Wq Wk (pos j r) s := by
  rw [padRows_apply hnp]
  split
  · next h => rw [ha]; exact congrArg (attn X Wq Wk (pos j r)) (Fin.ext rfl)
  · next h =>
    have hlt : (pos j r).val < s.val := by
      show 128 * j.val + r.val < s.val
      have := r.isLt; omega
    rw [attn_of_lt X Wq Wk hX hWq hWk ⟨_, Cert.CausalAttn.Ref.scale8_eq⟩ hlt]
    exact Ideal.ofBits_zero_f32

end Whole

/-! ## Pooling: one tile's share of the sequence sum -/

/-- The running sum plus the column sums of a tile's `a · v`. -/
def accTile {n : ℕ} (acc : FVec Ideal ⟨2, ![1, 64]⟩ .f32) (a : FVec Ideal ⟨2, ![128, n]⟩ .f32) (vV : FVec Ideal ⟨2, ![n, 64]⟩ .f32)
    (dpl : DotDims ⟨2, ![128, n]⟩ ⟨2, ![n, 64]⟩ ⟨2, ![128, 64]⟩)
    (hredc : (⟨2, ![128, 64]⟩ : Shape).Reduces [(0 : Fin 2)] ⟨1, ![64]⟩) (hcast1 : (⟨1, ![64]⟩ : Shape).ShapeCasts ⟨2, ![1, 64]⟩) :
    FVec Ideal ⟨2, ![1, 64]⟩ .f32 :=
  addf acc (shapeCast ⟨2, ![1, 64]⟩ (multiReduction .add [(0 : Fin 2)] ⟨1, ![64]⟩
    (matmul dpl (some .fp32) a vV (constant ⟨2, ![128, 64]⟩ .f32 0x00000000#32)) 0x00000000#32 hredc (.inl rfl) rfl) hcast1)

theorem accTile_apply {n : ℕ} (acc : FVec Ideal ⟨2, ![1, 64]⟩ .f32) (a : FVec Ideal ⟨2, ![128, n]⟩ .f32) (vV : FVec Ideal ⟨2, ![n, 64]⟩ .f32)
    (dpl : DotDims ⟨2, ![128, n]⟩ ⟨2, ![n, 64]⟩ ⟨2, ![128, 64]⟩) (hd : dpl = DotDims.plain 128 n 64)
    (hredc : (⟨2, ![128, 64]⟩ : Shape).Reduces [(0 : Fin 2)] ⟨1, ![64]⟩) (hcast1 : (⟨1, ![64]⟩ : Shape).ShapeCasts ⟨2, ![1, 64]⟩)
    (u : Fin 1) (k : Fin 64) :
    accTile acc a vV dpl hredc hcast1 (ix2 u k) = acc (ix2 u k) + ∑ r : Fin 128, ∑ c : Fin n, a (ix2 r c) * vV (ix2 c k) := by
  subst hd
  unfold accTile
  rw [addf_apply, shapeCast_a_1a_apply]
  refine congrArg (acc (ix2 u k) + ·) ((multiReduction_add_col _ _ hredc _ _ k).trans ?_)
  exact Finset.sum_congr rfl fun r _ => Cert.LibPlainMatmul.matmul_plain_zero_apply _ a vV r k

section Share

variable (X : Fin 1024 → Fin 49 → EReal) (Wq Wk Wv : Fin 49 → Fin 64 → EReal)
variable (hX : ∀ s d, IsReal (X s d)) (hWq : ∀ d k, IsReal (Wq d k)) (hWk : ∀ d k, IsReal (Wk d k))

include hX hWq hWk in
/-- A tile's `Σ_r Σ_c a(r,c)·v(c,k)` is its share `Σ_r hidden(128·j + r, k)` of the sequence sum. -/
theorem tile_share {n : ℕ} (hN : n ≤ 1024) (j : Fin 8) (hjn : 128 * j.val + 128 ≤ n)
    (a : FVec Ideal ⟨2, ![128, n]⟩ .f32) (vV : FVec Ideal ⟨2, ![n, 64]⟩ .f32)
    (ha : ∀ r c, a (ix2 r c) = attn X Wq Wk (pos j r) (Fin.castLE hN c))
    (hv : ∀ c k, vV (ix2 c k) = proj X Wv (Fin.castLE hN c) k) (k : Fin 64) :
    ∑ r : Fin 128, ∑ c : Fin n, a (ix2 r c) * vV (ix2 c k) = ∑ r : Fin 128, hidden X Wq Wk Wv (pos j r) k := by
  refine Finset.sum_congr rfl fun r _ => ?_
  have hlt : (pos j r).val < n := by
    show 128 * j.val + r.val < n
    have := r.isLt; omega
  rw [hidden_of_cut X Wq Wk Wv hX hWq hWk ⟨_, Cert.CausalAttn.Ref.scale8_eq⟩ hN (pos j r) hlt k]
  exact Finset.sum_congr rfl fun c _ => by rw [ha, hv]

/-- The eight shares, added in order from zero and scaled by 1/1024, are the pooled value. -/
theorem pooled_of_shares (k : Fin 64) (S : Fin 8 → EReal) (hS : ∀ j, S j = ∑ r : Fin 128, hidden X Wq Wk Wv (pos j r) k) :
    (0 + S 0 + S 1 + S 2 + S 3 + S 4 + S 5 + S 6 + S 7) * inv1024 = pooled X Wq Wk Wv k := by
  unfold pooled
  rw [sum_tiles, Fin.sum_univ_eight, zero_add]
  simp only [hS]

end Share

/-- The pooled row scaled by 1/1024 and stored as a block `[1, 1, 64]`. -/
def finishPool (acc : FVec Ideal ⟨2, ![1, 64]⟩ .f32) (hc1 : (⟨2, ![1, 64]⟩ : Shape).ShapeCasts ⟨1, ![64]⟩)
    (hc2 : (⟨1, ![64]⟩ : Shape).ShapeCasts ⟨3, ![1, 1, 64]⟩) : FVec Ideal ⟨3, ![1, 1, 64]⟩ .f32 :=
  shapeCast ⟨3, ![1, 1, 64]⟩ (shapeCast ⟨1, ![64]⟩
    (mulf acc (broadcast ⟨2, ![1, 64]⟩ (Scalar.ofBits (F := Ideal) .f32 0x3A800000#32))) hc1) hc2

theorem shapeCast_a_11a_apply {α : Type} {a : ℕ} (x : (⟨1, ![a]⟩ : Shape).Idx → α) (h : (⟨1, ![a]⟩ : Shape).ShapeCasts ⟨3, ![1, 1, a]⟩)
    (u u' : Fin 1) (i : Fin a) : shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    rw [hu, hu']
    simp)

theorem finishPool_apply (acc : FVec Ideal ⟨2, ![1, 64]⟩ .f32) (hc1 : (⟨2, ![1, 64]⟩ : Shape).ShapeCasts ⟨1, ![64]⟩)
    (hc2 : (⟨1, ![64]⟩ : Shape).ShapeCasts ⟨3, ![1, 1, 64]⟩) (u u' : Fin 1) (k : Fin 64) :
    finishPool acc hc1 hc2 (ix3 u u' k) = acc (ix2 (0 : Fin 1) k) * inv1024 := by
  unfold finishPool
  rw [shapeCast_a_11a_apply, shapeCast_1a_a_apply, mulf_apply]
  rfl

end Cert.CausalAttn.Tile

end
-- ==== Proof.TileBridge.lean ====
/-
  The attention kernel's body, tile by tile, against the specification.

  The body computes the key and value projections of the whole sequence once, then handles the queries 128 at a
  time: tile `j` (queries `128·j … 128·j+127`) scores its queries against the first `128·(j+1)` keys, masks its
  diagonal block, takes the row softmax, stores the rows padded with zeros, and adds the column sums of its
  attention-weighted values to the running pooled sum.  Each printed tile is, by unfolding, the generic tile at its
  offset; its rows are then the specification's attention weights and its share of the pooled sum the sum of its
  queries' hidden states.
-/
import proofs.«156499_j88184268522037_2_alg».proof.Proof.Gen.KernelIdeal.Skeleton
import proofs.«156499_j88184268522037_2_alg».proof.Proof.TileValue

set_option maxRecDepth 16384

noncomputable section

open scoped BigOperators

namespace Cert.CausalAttn

open Idealize.ShloMosaic Idealize.ShloMosaic.ValueIdx Cert.LibRealClosed Cert.CausalAttn.Tile
open Cert.KernelIdeal Cert.KernelIdeal.Gen

/-- The one sequence a grid point's input block holds, by coordinates. -/
def blockSeq (v0 : Vec Ideal S1x1024x49 .f32) : Fin 1024 → Fin 49 → EReal := fun s d => v0 (ix3 (0 : Fin 1) s d)

variable (v0 : Vec Ideal S1x1024x49 .f32) (wq wk wv : Vec Ideal S49x64 .f32)

/-- The block as a matrix `[1024, 49]`. -/
theorem seq_apply (s : Fin 1024) (d : Fin 49) : k0_pay4 (F := Ideal) v0 (ix2 s d) = blockSeq v0 s d := by
  unfold k0_pay4
  exact shapeCast_1ab_ab_apply v0 _ s d

/-- The key projections of the whole sequence. -/
theorem keys_apply (w : Vec Ideal S49x64 .f32) (s : Fin 1024) (k : Fin 64) :
    k0_pay5 (F := Ideal) v0 w (ix2 s k) = proj (blockSeq v0) (matOf w) s k := by
  show projAll (k0_pay4 v0) w dot_S1024x49_S49x64_S1024x64_1_0_0_1_n_n (ix2 s k) = _
  rw [projAll_apply _ _ dot_S1024x49_S49x64_S1024x64_1_0_0_1_n_n rfl]
  unfold proj
  exact Finset.sum_congr rfl fun d _ => by rw [seq_apply]; rfl

/-- The value projections of the whole sequence. -/
theorem values_apply (w : Vec Ideal S49x64 .f32) (s : Fin 1024) (k : Fin 64) :
    k0_pay6 (F := Ideal) v0 w (ix2 s k) = proj (blockSeq v0) (matOf w) s k := by
  show projAll (k0_pay4 v0) w dot_S1024x49_S49x64_S1024x64_1_0_0_1_n_n (ix2 s k) = _
  rw [projAll_apply _ _ dot_S1024x49_S49x64_S1024x64_1_0_0_1_n_n rfl]
  unfold proj
  exact Finset.sum_congr rfl fun d _ => by rw [seq_apply]; rfl

/-! ## Each tile's attention rows -/

theorem rows0_apply (r : Fin 128) (c : Fin 128) :
    k0_pay8 (F := Ideal) v0 wq wk (ix2 r c) = attn (blockSeq v0) (matOf wq) (matOf wk) (pos 0 r) (Fin.castLE (by norm_num : 128 ≤ 1024) c) := by
  show tileRows₀ (k0_pay4 v0) wq (extractStridedSlice S128x64 ![0, 0] (k0_pay5 v0 wk) slices_S1024x64_o0_0_S128x64)
    slices_S1024x49_o0_0_S128x49 dot_S128x49_S49x64_S128x64_1_0_0_1_n_n dot_S128x64_S128x64_S128x128_1_1_0_0_n_n
    iota_S128x128_d0_w32 iota_S128x128_d1_w32 reduces_S128x128_S128 shapeCasts_S128_S128x1 broadcasts_S128x1_S128x128 (ix2 r c) = _
  exact tileRows₀_apply (blockSeq v0) (matOf wq) (matOf wk) _ _ _ (seq_apply v0) (fun _ _ => rfl)
    (fun c k => (firstRows_apply (by norm_num : 128 ≤ 1024) _ _ c k).trans (keys_apply v0 wk _ k)) _ _ rfl _ rfl _ _ _ _ _ r c

theorem rows1_apply (r : Fin 128) (c : Fin 256) :
    k0_pay11 (F := Ideal) (k0_pay4 v0) wq (k0_pay5 v0 wk) (ix2 r c) = attn (blockSeq v0) (matOf wq) (matOf wk) (pos 1 r) (Fin.castLE (by norm_num : 256 ≤ 1024) c) := by
  show tileRows (o := 128) (n := 256) (k0_pay4 v0) wq (extractStridedSlice S256x64 ![0, 0] (k0_pay5 v0 wk) slices_S1024x64_o0_0_S256x64)
    slices_S1024x49_o128_0_S128x49 dot_S128x49_S49x64_S128x64_1_0_0_1_n_n dot_S128x64_S256x64_S128x256_1_1_0_0_n_n
    slices_S128x256_o0_0_S128x128 slices_S128x256_o0_128_S128x128 iota_S128x128_d0_w32 iota_S128x128_d1_w32
    concatenates_S128x128_S128x128_S128x256_d1 reduces_S128x256_S128 shapeCasts_S128_S128x1 broadcasts_S128x1_S128x256 (ix2 r c) = _
  exact tileRows_apply (blockSeq v0) (matOf wq) (matOf wk) rfl (by norm_num : 256 ≤ 1024) 1 rfl _ _ _ (seq_apply v0) (fun _ _ => rfl)
    (fun c k => (firstRows_apply (by norm_num : 256 ≤ 1024) _ _ c k).trans (keys_apply v0 wk _ k)) _ _ rfl _ rfl _ _ _ _ _ _ _ _ r c

theorem rows2_apply (r : Fin 128) (c : Fin 384) :
    k0_pay16 (F := Ideal) (k0_pay15 (k0_pay4 v0) wq (k0_pay5 v0 wk)) (ix2 r c) = attn (blockSeq v0) (matOf wq) (matOf wk) (pos 2 r) (Fin.castLE (by norm_num : 384 ≤ 1024) c) := by
  show tileRows (o := 256) (n := 384) (k0_pay4 v0) wq (extractStridedSlice S384x64 ![0, 0] (k0_pay5 v0 wk) slices_S1024x64_o0_0_S384x64)
    slices_S1024x49_o256_0_S128x49 dot_S128x49_S49x64_S128x64_1_0_0_1_n_n dot_S128x64_S384x64_S128x384_1_1_0_0_n_n
    slices_S128x384_o0_0_S128x256 slices_S128x384_o0_256_S128x128 iota_S128x128_d0_w32 iota_S128x128_d1_w32
    concatenates_S128x256_S128x128_S128x384_d1 reduces_S128x384_S128 shapeCasts_S128_S128x1 broadcasts_S128x1_S128x384 (ix2 r c) = _
  exact tileRows_apply (blockSeq v0) (matOf wq) (matOf wk) rfl (by norm_num : 384 ≤ 1024) 2 rfl _ _ _ (seq_apply v0) (fun _ _ => rfl)
    (fun c k => (firstRows_apply (by norm_num : 384 ≤ 1024) _ _ c k).trans (keys_apply v0 wk _ k)) _ _ rfl _ rfl _ _ _ _ _ _ _ _ r c

theorem rows3_apply (r : Fin 128) (c : Fin 512) :
    k0_pay21 (F := Ideal) (k0_pay20 (k0_pay4 v0) wq (k0_pay5 v0 wk)) (ix2 r c) = attn (blockSeq v0) (matOf wq) (matOf wk) (pos 3 r) (Fin.castLE (by norm_num : 512 ≤ 1024) c) := by
  show tileRows (o := 384) (n := 512) (k0_pay4 v0) wq (extractStridedSlice S512x64 ![0, 0] (k0_pay5 v0 wk) slices_S1024x64_o0_0_S512x64)
    slices_S1024x49_o384_0_S128x49 dot_S128x49_S49x64_S128x64_1_0_0_1_n_n dot_S128x64_S512x64_S128x512_1_1_0_0_n_n
    slices_S128x512_o0_0_S128x384 slices_S128x512_o0_384_S128x128 iota_S128x128_d0_w32 iota_S128x128_d1_w32
    concatenates_S128x384_S128x128_S128x512_d1 reduces_S128x512_S128 shapeCasts_S128_S128x1 broadcasts_S128x1_S128x512 (ix2 r c) = _
  exact tileRows_apply (blockSeq v0) (matOf wq) (matOf wk) rfl (by norm_num : 512 ≤ 1024) 3 rfl _ _ _ (seq_apply v0) (fun _ _ => rfl)
    (fun c k => (firstRows_apply (by norm_num : 512 ≤ 1024) _ _ c k).trans (keys_apply v0 wk _ k)) _ _ rfl _ rfl _ _ _ _ _ _ _ _ r c

theorem rows4_apply (r : Fin 128) (c : Fin 640) :
    k0_pay25 (F := Ideal) (k0_pay4 v0) wq (k0_pay5 v0 wk) (ix2 r c) = attn (blockSeq v0) (matOf wq) (matOf wk) (pos 4 r) (Fin.castLE (by norm_num : 640 ≤ 1024) c) := by
  show tileRows (o := 512) (n := 640) (k0_pay4 v0) wq (extractStridedSlice S640x64 ![0, 0] (k0_pay5 v0 wk) slices_S1024x64_o0_0_S640x64)
    slices_S1024x49_o512_0_S128x49 dot_S128x49_S49x64_S128x64_1_0_0_1_n_n dot_S128x64_S640x64_S128x640_1_1_0_0_n_n
    slices_S128x640_o0_0_S128x512 slices_S128x640_o0_512_S128x128 iota_S128x128_d0_w32 iota_S128x128_d1_w32
    concatenates_S128x512_S128x128_S128x640_d1 reduces_S128x640_S128 shapeCasts_S128_S128x1 broadcasts_S128x1_S128x640 (ix2 r c) = _
  exact tileRows_apply (blockSeq v0) (matOf wq) (matOf wk) rfl (by norm_num : 640 ≤ 1024) 4 rfl _ _ _ (seq_apply v0) (fun _ _ => rfl)
    (fun c k => (firstRows_apply (by norm_num : 640 ≤ 1024) _ _ c k).trans (keys_apply v0 wk _ k)) _ _ rfl _ rfl _ _ _ _ _ _ _ _ r c

theorem rows5_apply (r : Fin 128) (c : Fin 768) :
    k0_pay28 (F := Ideal) (k0_pay4 v0) wq (k0_pay5 v0 wk) (ix2 r c) = attn (blockSeq v0) (matOf wq) (matOf wk) (pos 5 r) (Fin.castLE (by norm_num : 768 ≤ 1024) c) := by
  show tileRows (o := 640) (n := 768) (k0_pay4 v0) wq (extractStridedSlice S768x64 ![0, 0] (k0_pay5 v0 wk) slices_S1024x64_o0_0_S768x64)
    slices_S1024x49_o640_0_S128x49 dot_S128x49_S49x64_S128x64_1_0_0_1_n_n dot_S128x64_S768x64_S128x768_1_1_0_0_n_n
    slices_S128x768_o0_0_S128x640 slices_S128x768_o0_640_S128x128 iota_S128x128_d0_w32 iota_S128x128_d1_w32
    concatenates_S128x640_S128x128_S128x768_d1 reduces_S128x768_S128 shapeCasts_S128_S128x1 broadcasts_S128x1_S128x768 (ix2 r c) = _
  exact tileRows_apply (blockSeq v0) (matOf wq) (matOf wk) rfl (by norm_num : 768 ≤ 1024) 5 rfl _ _ _ (seq_apply v0) (fun _ _ => rfl)
    (fun c k => (firstRows_apply (by norm_num : 768 ≤ 1024) _ _ c k).trans (keys_apply v0 wk _ k)) _ _ rfl _ rfl _ _ _ _ _ _ _ _ r c

theorem rows6_apply (r : Fin 128) (c : Fin 896) :
    k0_pay34 (F := Ideal) (k0_pay31 (k0_pay4 v0) wq) (k0_pay32 (k0_pay5 v0 wk)) (constant S128x896 .f32 0x00000000#32) (ix2 r c) = attn (blockSeq v0) (matOf wq) (matOf wk) (pos 6 r) (Fin.castLE (by norm_num : 896 ≤ 1024) c) := by
  show tileRows (o := 768) (n := 896) (k0_pay4 v0) wq (extractStridedSlice S896x64 ![0, 0] (k0_pay5 v0 wk) slices_S1024x64_o0_0_S896x64)
    slices_S1024x49_o768_0_S128x49 dot_S128x49_S49x64_S128x64_1_0_0_1_n_n dot_S128x64_S896x64_S128x896_1_1_0_0_n_n
    slices_S128x896_o0_0_S128x768 slices_S128x896_o0_768_S128x128 iota_S128x128_d0_w32 iota_S128x128_d1_w32
    concatenates_S128x768_S128x128_S128x896_d1 reduces_S128x896_S128 shapeCasts_S128_S128x1 broadcasts_S128x1_S128x896 (ix2 r c) = _
  exact tileRows_apply (blockSeq v0) (matOf wq) (matOf wk) rfl (by norm_num : 896 ≤ 1024) 6 rfl _ _ _ (seq_apply v0) (fun _ _ => rfl)
    (fun c k => (firstRows_apply (by norm_num : 896 ≤ 1024) _ _ c k).trans (keys_apply v0 wk _ k)) _ _ rfl _ rfl _ _ _ _ _ _ _ _ r c

theorem rows7_apply (r : Fin 128) (c : Fin 1024) :
    k0_pay1 (F := Ideal) (k0_pay37 (k0_pay4 v0) wq (k0_pay5 v0 wk)) (k0_pay38 (k0_pay4 v0) wq (k0_pay5 v0 wk)) (ix2 r c) = attn (blockSeq v0) (matOf wq) (matOf wk) (pos 7 r) (Fin.castLE (by norm_num : 1024 ≤ 1024) c) := by
  show tileRows (o := 896) (n := 1024) (k0_pay4 v0) wq (k0_pay5 v0 wk)
    slices_S1024x49_o896_0_S128x49 dot_S128x49_S49x64_S128x64_1_0_0_1_n_n dot_S128x64_S1024x64_S128x1024_1_1_0_0_n_n
    slices_S128x1024_o0_0_S128x896 slices_S128x1024_o0_896_S128x128 iota_S128x128_d0_w32 iota_S128x128_d1_w32
    concatenates_S128x896_S128x128_S128x1024_d1 reduces_S128x1024_S128 shapeCasts_S128_S128x1 broadcasts_S128x1_S128x1024 (ix2 r c) = _
  exact tileRows_apply (blockSeq v0) (matOf wq) (matOf wk) rfl (by norm_num : 1024 ≤ 1024) 7 rfl _ _ _ (seq_apply v0) (fun _ _ => rfl)
    (fun c k => (keys_apply v0 wk _ k).trans (congrArg (fun s => proj (blockSeq v0) (matOf wk) s k) (Fin.ext rfl))) _ _ rfl _ rfl _ _ _ _ _ _ _ _ r c

end Cert.CausalAttn

end
-- ==== Proof.BodyValue.lean ====
/-
  What one grid point of the attention kernel leaves in its two output blocks, read at an index: the block of
  attention weights of its batch element, and that element's pooled vector.

  The attention block is stored in eight bands of 128 rows, one per query tile; band `j` holds the tile's rows padded
  with zeros, which are rows `128·j … 128·j+127` of the causal softmax.  The pooled block is the running sum of the
  eight tiles' shares, scaled by 1/1024.
-/
import proofs.«156499_j88184268522037_2_alg».proof.Proof.Gen.KernelIdeal.Frame
import proofs.«156499_j88184268522037_2_alg».proof.Proof.TileBridge

set_option maxRecDepth 16384

noncomputable section

open scoped BigOperators

namespace Cert.CausalAttn

open Idealize.ShloMosaic Idealize.ShloMosaic.ValueIdx Cert.LibRealClosed Cert.CausalAttn.Tile
open Cert.KernelIdeal Cert.KernelIdeal.Gen

section Blocks

variable (v0 : Vec Ideal S1x1024x49 .f32) (wq wk wv : Vec Ideal S49x64 .f32)
variable (h0 : ∀ i, IsReal (v0 i)) (h1 : ∀ i, IsReal (wq i)) (h2 : ∀ i, IsReal (wk i))

/-! ## The eight bands of the attention block -/

include h0 h1 h2 in
theorem band0_apply (u : Fin 1) (r : Fin 128) (s : Fin 1024) :
    k0_pay9 (F := Ideal) v0 wq wk (ix3 u r s) = attn (blockSeq v0) (matOf wq) (matOf wk) (pos 0 r) s := by
  show padRows (n := 128) (p := 896) (k0_pay8 (F := Ideal) v0 wq wk) (Scalar.ofBits (F := Ideal) .f32 0x00000000#32)
    concatenates_S128x128_S128x896_S128x1024_d1 shapeCasts_S128x1024_S1x128x1024 (ix3 u r s) = _
  exact padded_eq_attn (blockSeq v0) (matOf wq) (matOf wk) (fun _ _ => h0 _) (fun _ _ => h1 _) (fun _ _ => h2 _)
    (by norm_num) (by norm_num) 0 (by norm_num) _ (rows0_apply v0 wq wk) _ _ u r s

include h0 h1 h2 in
theorem band1_apply (u : Fin 1) (r : Fin 128) (s : Fin 1024) :
    k0_pay12 (F := Ideal) (k0_pay4 v0) wq (k0_pay5 v0 wk) (ix3 u r s) = attn (blockSeq v0) (matOf wq) (matOf wk) (pos 1 r) s := by
  show padRows (n := 256) (p := 768) (k0_pay11 (F := Ideal) (k0_pay4 v0) wq (k0_pay5 v0 wk)) (Scalar.ofBits (F := Ideal) .f32 0x00000000#32)
    concatenates_S128x256_S128x768_S128x1024_d1 shapeCasts_S128x1024_S1x128x1024 (ix3 u r s) = _
  exact padded_eq_attn (blockSeq v0) (matOf wq) (matOf wk) (fun _ _ => h0 _) (fun _ _ => h1 _) (fun _ _ => h2 _)
    (by norm_num) (by norm_num) 1 (by norm_num) _ (rows1_apply v0 wq wk) _ _ u r s

include h0 h1 h2 in
theorem band2_apply (u : Fin 1) (r : Fin 128) (s : Fin 1024) :
    k0_pay17 (F := Ideal) (k0_pay15 (k0_pay4 v0) wq (k0_pay5 v0 wk)) (ix3 u r s) = attn (blockSeq v0) (matOf wq) (matOf wk) (pos 2 r) s := by
  show padRows (n := 384) (p := 640) (k0_pay16 (F := Ideal) (k0_pay15 (k0_pay4 v0) wq (k0_pay5 v0 wk))) (Scalar.ofBits (F := Ideal) .f32 0x00000000#32)
    concatenates_S128x384_S128x640_S128x1024_d1 shapeCasts_S128x1024_S1x128x1024 (ix3 u r s) = _
  exact padded_eq_attn (blockSeq v0) (matOf wq) (matOf wk) (fun _ _ => h0 _) (fun _ _ => h1 _) (fun _ _ => h2 _)
    (by norm_num) (by norm_num) 2 (by norm_num) _ (rows2_apply v0 wq wk) _ _ u r s

include h0 h1 h2 in
theorem band3_apply (u : Fin 1) (r : Fin 128) (s : Fin 1024) :
    k0_pay22 (F := Ideal) (k0_pay20 (k0_pay4 v0) wq (k0_pay5 v0 wk)) (ix3 u r s) = attn (blockSeq v0) (matOf wq) (matOf wk) (pos 3 r) s := by
  show padRows (n := 512) (p := 512) (k0_pay21 (F := Ideal) (k0_pay20 (k0_pay4 v0) wq (k0_pay5 v0 wk))) (Scalar.ofBits (F := Ideal) .f32 0x00000000#32)
    concatenates_S128x512_S128x512_S128x1024_d1 shapeCasts_S128x1024_S1x128x1024 (ix3 u r s) = _
  exact padded_eq_attn (blockSeq v0) (matOf wq) (matOf wk) (fun _ _ => h0 _) (fun _ _ => h1 _) (fun _ _ => h2 _)
    (by norm_num) (by norm_num) 3 (by norm_num) _ (rows3_apply v0 wq wk) _ _ u r s

include h0 h1 h2 in
theorem band4_apply (u : Fin 1) (r : Fin 128) (s : Fin 1024) :
    k0_pay27 (F := Ideal) (k0_pay26 (k0_pay4 v0) wq (k0_pay5 v0 wk)) (ix3 u r s) = attn (blockSeq v0) (matOf wq) (matOf wk) (pos 4 r) s := by
  show padRows (n := 640) (p := 384) (k0_pay25 (F := Ideal) (k0_pay4 v0) wq (k0_pay5 v0 wk)) (Scalar.ofBits (F := Ideal) .f32 0x00000000#32)
    concatenates_S128x640_S128x384_S128x1024_d1 shapeCasts_S128x1024_S1x128x1024 (ix3 u r s) = _
  exact padded_eq_attn (blockSeq v0) (matOf wq) (matOf wk) (fun _ _ => h0 _) (fun _ _ => h1 _) (fun _ _ => h2 _)
    (by norm_num) (by norm_num) 4 (by norm_num) _ (rows4_apply v0 wq wk) _ _ u r s

include h0 h1 h2 in
theorem band5_apply (u : Fin 1) (r : Fin 128) (s : Fin 1024) :
    k0_pay29 (F := Ideal) (k0_pay4 v0) wq (k0_pay5 v0 wk) (ix3 u r s) = attn (blockSeq v0) (matOf wq) (matOf wk) (pos 5 r) s := by
  show padRows (n := 768) (p := 256) (k0_pay28 (F := Ideal) (k0_pay4 v0) wq (k0_pay5 v0 wk)) (Scalar.ofBits (F := Ideal) .f32 0x00000000#32)
    concatenates_S128x768_S128x256_S128x1024_d1 shapeCasts_S128x1024_S1x128x1024 (ix3 u r s) = _
  exact padded_eq_attn (blockSeq v0) (matOf wq) (matOf wk) (fun _ _ => h0 _) (fun _ _ => h1 _) (fun _ _ => h2 _)
    (by norm_num) (by norm_num) 5 (by norm_num) _ (rows5_apply v0 wq wk) _ _ u r s

include h0 h1 h2 in
theorem band6_apply (u : Fin 1) (r : Fin 128) (s : Fin 1024) :
    k0_pay35 (F := Ideal) (k0_pay31 (k0_pay4 v0) wq) (k0_pay32 (k0_pay5 v0 wk)) (constant S128x896 .f32 0x00000000#32) (ix3 u r s) = attn (blockSeq v0) (matOf wq) (matOf wk) (pos 6 r) s := by
  show padRows (n := 896) (p := 128) (k0_pay34 (F := Ideal) (k0_pay31 (k0_pay4 v0) wq) (k0_pay32 (k0_pay5 v0 wk)) (constant S128x896 .f32 0x00000000#32)) (Scalar.ofBits (F := Ideal) .f32 0x00000000#32)
    concatenates_S128x896_S128x128_S128x1024_d1 shapeCasts_S128x1024_S1x128x1024 (ix3 u r s) = _
  exact padded_eq_attn (blockSeq v0) (matOf wq) (matOf wk) (fun _ _ => h0 _) (fun _ _ => h1 _) (fun _ _ => h2 _)
    (by norm_num) (by norm_num) 6 (by norm_num) _ (rows6_apply v0 wq wk) _ _ u r s

theorem band7_apply (u : Fin 1) (r : Fin 128) (s : Fin 1024) :
    k0_pay2 (F := Ideal) (k0_pay37 (k0_pay4 v0) wq (k0_pay5 v0 wk)) (k0_pay38 (k0_pay4 v0) wq (k0_pay5 v0 wk)) (ix3 u r s) = attn (blockSeq v0) (matOf wq) (matOf wk) (pos 7 r) s := by
  show shapeCast (⟨3, ![1, 128, 1024]⟩ : Shape) (k0_pay1 (F := Ideal) (k0_pay37 (k0_pay4 v0) wq (k0_pay5 v0 wk)) (k0_pay38 (k0_pay4 v0) wq (k0_pay5 v0 wk))) shapeCasts_S128x1024_S1x128x1024 (ix3 u r s) = _
  rw [shapeCast_ab_1ab_apply]
  exact (rows7_apply v0 wq wk r s).trans (congrArg (attn (blockSeq v0) (matOf wq) (matOf wk) (pos 7 r)) (Fin.ext rfl))

/-! ## The pooled block -/

include h0 h1 h2 in
theorem pool_apply (u u' : Fin 1) (k : Fin 64) :
    k0_pay3 (F := Ideal) (k0_pay6 v0 wv) (k0_pay36 (k0_pay30 (k0_pay4 v0) wq (k0_pay5 v0 wk) (k0_pay6 v0 wv) (k0_pay23 (k0_pay18 (k0_pay13 (k0_pay4 v0) wq (k0_pay5 v0 wk) (k0_pay6 v0 wv) (k0_pay7 (F := Ideal)) (k0_pay10 v0 wq wk wv)) (k0_pay14 (k0_pay6 v0 wv)) (k0_pay15 (k0_pay4 v0) wq (k0_pay5 v0 wk))) (k0_pay19 (k0_pay6 v0 wv)) (k0_pay20 (k0_pay4 v0) wq (k0_pay5 v0 wk))) (k0_pay24 (k0_pay6 v0 wv)) (k0_pay25 (k0_pay4 v0) wq (k0_pay5 v0 wk))) (k0_pay31 (k0_pay4 v0) wq) (k0_pay32 (k0_pay5 v0 wk)) (k0_pay33 (k0_pay6 v0 wv)) (constant S128x896 .f32 0x00000000#32)) (k0_pay37 (k0_pay4 v0) wq (k0_pay5 v0 wk)) (k0_pay38 (k0_pay4 v0) wq (k0_pay5 v0 wk)) (ix3 u u' k)
      = pooled (blockSeq v0) (matOf wq) (matOf wk) (matOf wv) k := by
  show finishPool (accTile (accTile (accTile (accTile (accTile (accTile (accTile (accTile (k0_pay7 (F := Ideal)) (k0_pay8 (F := Ideal) v0 wq wk) (extractStridedSlice S128x64 ![0, 0] (k0_pay6 v0 wv) slices_S1024x64_o0_0_S128x64) dot_S128x128_S128x64_S128x64_1_0_0_1_n_n reduces_S128x64_S64 shapeCasts_S64_S1x64) (k0_pay11 (F := Ideal) (k0_pay4 v0) wq (k0_pay5 v0 wk)) (extractStridedSlice S256x64 ![0, 0] (k0_pay6 v0 wv) slices_S1024x64_o0_0_S256x64) dot_S128x256_S256x64_S128x64_1_0_0_1_n_n reduces_S128x64_S64 shapeCasts_S64_S1x64) (k0_pay16 (F := Ideal) (k0_pay15 (k0_pay4 v0) wq (k0_pay5 v0 wk))) (extractStridedSlice S384x64 ![0, 0] (k0_pay6 v0 wv) slices_S1024x64_o0_0_S384x64) dot_S128x384_S384x64_S128x64_1_0_0_1_n_n reduces_S128x64_S64 shapeCasts_S64_S1x64) (k0_pay21 (F := Ideal) (k0_pay20 (k0_pay4 v0) wq (k0_pay5 v0 wk))) (extractStridedSlice S512x64 ![0, 0] (k0_pay6 v0 wv) slices_S1024x64_o0_0_S512x64) dot_S128x512_S512x64_S128x64_1_0_0_1_n_n reduces_S128x64_S64 shapeCasts_S64_S1x64) (k0_pay25 (F := Ideal) (k0_pay4 v0) wq (k0_pay5 v0 wk)) (extractStridedSlice S640x64 ![0, 0] (k0_pay6 v0 wv) slices_S1024x64_o0_0_S640x64) dot_S128x640_S640x64_S128x64_1_0_0_1_n_n reduces_S128x64_S64 shapeCasts_S64_S1x64) (k0_pay28 (F := Ideal) (k0_pay4 v0) wq (k0_pay5 v0 wk)) (extractStridedSlice S768x64 ![0, 0] (k0_pay6 v0 wv) slices_S1024x64_o0_0_S768x64) dot_S128x768_S768x64_S128x64_1_0_0_1_n_n reduces_S128x64_S64 shapeCasts_S64_S1x64) (k0_pay34 (F := Ideal) (k0_pay31 (k0_pay4 v0) wq) (k0_pay32 (k0_pay5 v0 wk)) (constant S128x896 .f32 0x00000000#32)) (extractStridedSlice S896x64 ![0, 0] (k0_pay6 v0 wv) slices_S1024x64_o0_0_S896x64) dot_S128x896_S896x64_S128x64_1_0_0_1_n_n reduces_S128x64_S64 shapeCasts_S64_S1x64) (k0_pay1 (F := Ideal) (k0_pay37 (k0_pay4 v0) wq (k0_pay5 v0 wk)) (k0_pay38 (k0_pay4 v0) wq (k0_pay5 v0 wk))) (k0_pay6 v0 wv) dot_S128x1024_S1024x64_S128x64_1_0_0_1_n_n reduces_S128x64_S64 shapeCasts_S64_S1x64)
    shapeCasts_S1x64_S64 shapeCasts_S64_S1x1x64 (ix3 u u' k) = _
  have hX : ∀ s d, IsReal (blockSeq v0 s d) := fun _ _ => h0 _
  have hWq : ∀ d k, IsReal (matOf wq d k) := fun _ _ => h1 _
  have hWk : ∀ d k, IsReal (matOf wk d k) := fun _ _ => h2 _
  have hz : k0_pay7 (F := Ideal) (ix2 (0 : Fin 1) k) = 0 := Ideal.ofBits_zero_f32
  rw [finishPool_apply,
    accTile_apply _ _ _ dot_S128x1024_S1024x64_S128x64_1_0_0_1_n_n rfl,
    accTile_apply _ _ _ dot_S128x896_S896x64_S128x64_1_0_0_1_n_n rfl,
    accTile_apply _ _ _ dot_S128x768_S768x64_S128x64_1_0_0_1_n_n rfl,
    accTile_apply _ _ _ dot_S128x640_S640x64_S128x64_1_0_0_1_n_n rfl,
    accTile_apply _ _ _ dot_S128x512_S512x64_S128x64_1_0_0_1_n_n rfl,
    accTile_apply _ _ _ dot_S128x384_S384x64_S128x64_1_0_0_1_n_n rfl,
    accTile_apply _ _ _ dot_S128x256_S256x64_S128x64_1_0_0_1_n_n rfl,
    accTile_apply _ _ _ dot_S128x128_S128x64_S128x64_1_0_0_1_n_n rfl, hz,
    tile_share (blockSeq v0) (matOf wq) (matOf wk) (matOf wv) hX hWq hWk (by norm_num : 128 ≤ 1024) 0 (by norm_num) _ _ (rows0_apply v0 wq wk)
      (fun c k => (firstRows_apply (by norm_num : 128 ≤ 1024) _ _ c k).trans (values_apply v0 wv _ k)) k,
    tile_share (blockSeq v0) (matOf wq) (matOf wk) (matOf wv) hX hWq hWk (by norm_num : 256 ≤ 1024) 1 (by norm_num) _ _ (rows1_apply v0 wq wk)
      (fun c k => (firstRows_apply (by norm_num : 256 ≤ 1024) _ _ c k).trans (values_apply v0 wv _ k)) k,
    tile_share (blockSeq v0) (matOf wq) (matOf wk) (matOf wv) hX hWq hWk (by norm_num : 384 ≤ 1024) 2 (by norm_num) _ _ (rows2_apply v0 wq wk)
      (fun c k => (firstRows_apply (by norm_num : 384 ≤ 1024) _ _ c k).trans (values_apply v0 wv _ k)) k,
    tile_share (blockSeq v0) (matOf wq) (matOf wk) (matOf wv) hX hWq hWk (by norm_num : 512 ≤ 1024) 3 (by norm_num) _ _ (rows3_apply v0 wq wk)
      (fun c k => (firstRows_apply (by norm_num : 512 ≤ 1024) _ _ c k).trans (values_apply v0 wv _ k)) k,
    tile_share (blockSeq v0) (matOf wq) (matOf wk) (matOf wv) hX hWq hWk (by norm_num : 640 ≤ 1024) 4 (by norm_num) _ _ (rows4_apply v0 wq wk)
      (fun c k => (firstRows_apply (by norm_num : 640 ≤ 1024) _ _ c k).trans (values_apply v0 wv _ k)) k,
    tile_share (blockSeq v0) (matOf wq) (matOf wk) (matOf wv) hX hWq hWk (by norm_num : 768 ≤ 1024) 5 (by norm_num) _ _ (rows5_apply v0 wq wk)
      (fun c k => (firstRows_apply (by norm_num : 768 ≤ 1024) _ _ c k).trans (values_apply v0 wv _ k)) k,
    tile_share (blockSeq v0) (matOf wq) (matOf wk) (matOf wv) hX hWq hWk (by norm_num : 896 ≤ 1024) 6 (by norm_num) _ _ (rows6_apply v0 wq wk)
      (fun c k => (firstRows_apply (by norm_num : 896 ≤ 1024) _ _ c k).trans (values_apply v0 wv _ k)) k,
    tile_share (blockSeq v0) (matOf wq) (matOf wk) (matOf wv) hX hWq hWk (by norm_num : 1024 ≤ 1024) 7 (by norm_num) _ _ (rows7_apply v0 wq wk)
      (fun c k => (values_apply v0 wv _ k).trans (congrArg (fun s => proj (blockSeq v0) (matOf wv) s k) (Fin.ext rfl))) k]
  exact pooled_of_shares (blockSeq v0) (matOf wq) (matOf wk) (matOf wv) k
    (fun j => ∑ r : Fin 128, hidden (blockSeq v0) (matOf wq) (matOf wk) (matOf wv) (pos j r) k) (fun _ => rfl)

end Blocks

/-! ## The two output blocks of a grid point -/

theorem zeros3 : (![0, 0, 0] : Fin 3 → ℕ) = fun _ => 0 := by funext a; fin_cases a <;> rfl
theorem zeros2 : (![0, 0] : Fin 2 → ℕ) = fun _ => 0 := by funext a; fin_cases a <;> rfl

theorem piece0 (v0 : Vec Ideal S1x1024x49 .f32) (wq wk : Vec Ideal S49x64 .f32)
    (h0 : ∀ i, IsReal (v0 i)) (h1 : ∀ i, IsReal (wq i)) (h2 : ∀ i, IsReal (wk i)) (x : S1x128x1024.Idx) :
    k0_pay9 (F := Ideal) v0 wq wk x
      = attn (blockSeq v0) (matOf wq) (matOf wk) ((r0_2.emb x) 1) ((r0_2.emb x) 2) := by
  obtain ⟨u, r, s, rfl⟩ : ∃ (u : Fin 1) (r : Fin 128) (s : Fin 1024), x = ix3 u r s := ⟨x 0, x 1, x 2, eq_ix3 x⟩
  refine (band0_apply v0 wq wk h0 h1 h2 u r s).trans ?_
  exact congrArg₂ (attn (blockSeq v0) (matOf wq) (matOf wk))
    (Fin.ext (by show 128 * 0 + r.val = 0 + 1 * r.val; omega)) (Fin.ext (by show s.val = 0 + 1 * s.val; omega))

theorem piece1 (v0 : Vec Ideal S1x1024x49 .f32) (wq wk : Vec Ideal S49x64 .f32)
    (h0 : ∀ i, IsReal (v0 i)) (h1 : ∀ i, IsReal (wq i)) (h2 : ∀ i, IsReal (wk i)) (x : S1x128x1024.Idx) :
    k0_pay12 (F := Ideal) (k0_pay4 v0) wq (k0_pay5 v0 wk) x
      = attn (blockSeq v0) (matOf wq) (matOf wk) ((r0_3.emb x) 1) ((r0_3.emb x) 2) := by
  obtain ⟨u, r, s, rfl⟩ : ∃ (u : Fin 1) (r : Fin 128) (s : Fin 1024), x = ix3 u r s := ⟨x 0, x 1, x 2, eq_ix3 x⟩
  refine (band1_apply v0 wq wk h0 h1 h2 u r s).trans ?_
  exact congrArg₂ (attn (blockSeq v0) (matOf wq) (matOf wk))
    (Fin.ext (by show 128 * 1 + r.val = 128 + 1 * r.val; omega)) (Fin.ext (by show s.val = 0 + 1 * s.val; omega))

theorem piece2 (v0 : Vec Ideal S1x1024x49 .f32) (wq wk : Vec Ideal S49x64 .f32)
    (h0 : ∀ i, IsReal (v0 i)) (h1 : ∀ i, IsReal (wq i)) (h2 : ∀ i, IsReal (wk i)) (x : S1x128x1024.Idx) :
    k0_pay17 (F := Ideal) (k0_pay15 (k0_pay4 v0) wq (k0_pay5 v0 wk)) x
      = attn (blockSeq v0) (matOf wq) (matOf wk) ((r0_4.emb x) 1) ((r0_4.emb x) 2) := by
  obtain ⟨u, r, s, rfl⟩ : ∃ (u : Fin 1) (r : Fin 128) (s : Fin 1024), x = ix3 u r s := ⟨x 0, x 1, x 2, eq_ix3 x⟩
  refine (band2_apply v0 wq wk h0 h1 h2 u r s).trans ?_
  exact congrArg₂ (attn (blockSeq v0) (matOf wq) (matOf wk))
    (Fin.ext (by show 128 * 2 + r.val = 256 + 1 * r.val; omega)) (Fin.ext (by show s.val = 0 + 1 * s.val; omega))

theorem piece3 (v0 : Vec Ideal S1x1024x49 .f32) (wq wk : Vec Ideal S49x64 .f32)
    (h0 : ∀ i, IsReal (v0 i)) (h1 : ∀ i, IsReal (wq i)) (h2 : ∀ i, IsReal (wk i)) (x : S1x128x1024.Idx) :
    k0_pay22 (F := Ideal) (k0_pay20 (k0_pay4 v0) wq (k0_pay5 v0 wk)) x
      = attn (blockSeq v0) (matOf wq) (matOf wk) ((r0_5.emb x) 1) ((r0_5.emb x) 2) := by
  obtain ⟨u, r, s, rfl⟩ : ∃ (u : Fin 1) (r : Fin 128) (s : Fin 1024), x = ix3 u r s := ⟨x 0, x 1, x 2, eq_ix3 x⟩
  refine (band3_apply v0 wq wk h0 h1 h2 u r s).trans ?_
  exact congrArg₂ (attn (blockSeq v0) (matOf wq) (matOf wk))
    (Fin.ext (by show 128 * 3 + r.val = 384 + 1 * r.val; omega)) (Fin.ext (by show s.val = 0 + 1 * s.val; omega))

theorem piece4 (v0 : Vec Ideal S1x1024x49 .f32) (wq wk : Vec Ideal S49x64 .f32)
    (h0 : ∀ i, IsReal (v0 i)) (h1 : ∀ i, IsReal (wq i)) (h2 : ∀ i, IsReal (wk i)) (x : S1x128x1024.Idx) :
    k0_pay27 (F := Ideal) (k0_pay26 (k0_pay4 v0) wq (k0_pay5 v0 wk)) x
      = attn (blockSeq v0) (matOf wq) (matOf wk) ((r0_6.emb x) 1) ((r0_6.emb x) 2) := by
  obtain ⟨u, r, s, rfl⟩ : ∃ (u : Fin 1) (r : Fin 128) (s : Fin 1024), x = ix3 u r s := ⟨x 0, x 1, x 2, eq_ix3 x⟩
  refine (band4_apply v0 wq wk h0 h1 h2 u r s).trans ?_
  exact congrArg₂ (attn (blockSeq v0) (matOf wq) (matOf wk))
    (Fin.ext (by show 128 * 4 + r.val = 512 + 1 * r.val; omega)) (Fin.ext (by show s.val = 0 + 1 * s.val; omega))

theorem piece5 (v0 : Vec Ideal S1x1024x49 .f32) (wq wk : Vec Ideal S49x64 .f32)
    (h0 : ∀ i, IsReal (v0 i)) (h1 : ∀ i, IsReal (wq i)) (h2 : ∀ i, IsReal (wk i)) (x : S1x128x1024.Idx) :
    k0_pay29 (F := Ideal) (k0_pay4 v0) wq (k0_pay5 v0 wk) x
      = attn (blockSeq v0) (matOf wq) (matOf wk) ((r0_7.emb x) 1) ((r0_7.emb x) 2) := by
  obtain ⟨u, r, s, rfl⟩ : ∃ (u : Fin 1) (r : Fin 128) (s : Fin 1024), x = ix3 u r s := ⟨x 0, x 1, x 2, eq_ix3 x⟩
  refine (band5_apply v0 wq wk h0 h1 h2 u r s).trans ?_
  exact congrArg₂ (attn (blockSeq v0) (matOf wq) (matOf wk))
    (Fin.ext (by show 128 * 5 + r.val = 640 + 1 * r.val; omega)) (Fin.ext (by show s.val = 0 + 1 * s.val; omega))

theorem piece6 (v0 : Vec Ideal S1x1024x49 .f32) (wq wk : Vec Ideal S49x64 .f32)
    (h0 : ∀ i, IsReal (v0 i)) (h1 : ∀ i, IsReal (wq i)) (h2 : ∀ i, IsReal (wk i)) (x : S1x128x1024.Idx) :
    k0_pay35 (F := Ideal) (k0_pay31 (k0_pay4 v0) wq) (k0_pay32 (k0_pay5 v0 wk)) (constant S128x896 .f32 0x00000000#32) x
      = attn (blockSeq v0) (matOf wq) (matOf wk) ((r0_8.emb x) 1) ((r0_8.emb x) 2) := by
  obtain ⟨u, r, s, rfl⟩ : ∃ (u : Fin 1) (r : Fin 128) (s : Fin 1024), x = ix3 u r s := ⟨x 0, x 1, x 2, eq_ix3 x⟩
  refine (band6_apply v0 wq wk h0 h1 h2 u r s).trans ?_
  exact congrArg₂ (attn (blockSeq v0) (matOf wq) (matOf wk))
    (Fin.ext (by show 128 * 6 + r.val = 768 + 1 * r.val; omega)) (Fin.ext (by show s.val = 0 + 1 * s.val; omega))

theorem piece7 (v0 : Vec Ideal S1x1024x49 .f32) (wq wk : Vec Ideal S49x64 .f32)
    (h0 : ∀ i, IsReal (v0 i)) (h1 : ∀ i, IsReal (wq i)) (h2 : ∀ i, IsReal (wk i)) (x : S1x128x1024.Idx) :
    k0_pay2 (F := Ideal) (k0_pay37 (k0_pay4 v0) wq (k0_pay5 v0 wk)) (k0_pay38 (k0_pay4 v0) wq (k0_pay5 v0 wk)) x
      = attn (blockSeq v0) (matOf wq) (matOf wk) ((r0_9.emb x) 1) ((r0_9.emb x) 2) := by
  obtain ⟨u, r, s, rfl⟩ : ∃ (u : Fin 1) (r : Fin 128) (s : Fin 1024), x = ix3 u r s := ⟨x 0, x 1, x 2, eq_ix3 x⟩
  refine (band7_apply v0 wq wk u r s).trans ?_
  exact congrArg₂ (attn (blockSeq v0) (matOf wq) (matOf wk))
    (Fin.ext (by show 128 * 7 + r.val = 896 + 1 * r.val; omega)) (Fin.ext (by show s.val = 0 + 1 * s.val; omega))

/-- The attention block a grid point writes is the causal softmax of its sequence's scaled scores. -/
theorem out0_4_apply (x0 : Vec Ideal S1x1024x49 .f32) (x1 x2 x3 : Vec Ideal S49x64 .f32)
    (h0 : ∀ i, IsReal (x0 i)) (h1 : ∀ i, IsReal (x1 i)) (h2 : ∀ i, IsReal (x2 i)) (q s : Fin 1024) :
    out0_4 (F := Ideal) x0 x1 x2 x3 (ix3 (0 : Fin 1) q s) = attn (blockSeq x0) (matOf x1) (matOf x2) q s := by
  unfold out0_4
  simp only [View.ld_unit_zero (S := S1x1024x49) zeros3, View.ld_unit_zero (S := S49x64) zeros2]
  refine View.canon_apply_of_pieces (Val := Elt Ideal) (fun y => attn (blockSeq x0) (matOf x1) (matOf x2) (y 1) (y 2)) _ ?_
    (ix3 (0 : Fin 1) q s) (cover0_4 _ _ _ _ _ _ _ _ _)
  intro p hp x
  simp only [List.mem_cons, List.not_mem_nil, or_false] at hp
  rcases hp with rfl | rfl | rfl | rfl | rfl | rfl | rfl | rfl
  · exact piece7 x0 x1 x2 h0 h1 h2 x
  · exact piece6 x0 x1 x2 h0 h1 h2 x
  · exact piece5 x0 x1 x2 h0 h1 h2 x
  · exact piece4 x0 x1 x2 h0 h1 h2 x
  · exact piece3 x0 x1 x2 h0 h1 h2 x
  · exact piece2 x0 x1 x2 h0 h1 h2 x
  · exact piece1 x0 x1 x2 h0 h1 h2 x
  · exact piece0 x0 x1 x2 h0 h1 h2 x

/-- The pooled block a grid point writes is the mean over the sequence of the attention-weighted values. -/
theorem out0_5_apply (x0 : Vec Ideal S1x1024x49 .f32) (x1 x2 x3 : Vec Ideal S49x64 .f32)
    (h0 : ∀ i, IsReal (x0 i)) (h1 : ∀ i, IsReal (x1 i)) (h2 : ∀ i, IsReal (x2 i)) (k : Fin 64) :
    out0_5 (F := Ideal) x0 x1 x2 x3 (ix3 (0 : Fin 1) (0 : Fin 1) k)
      = pooled (blockSeq x0) (matOf x1) (matOf x2) (matOf x3) k := by
  unfold out0_5
  rw [View.canon_unit_zero zeros3]
  simp only [View.ld_unit_zero (S := S1x1024x49) zeros3, View.ld_unit_zero (S := S49x64) zeros2]
  exact pool_apply x0 x1 x2 x3 h0 h1 h2 0 0 k

end Cert.CausalAttn

end
-- ==== Proof.KernelRunResults.lean ====
/-
  The idealized kernel program's run, with the contents of its two result arrays named.

  The program is two launched regions with one stretch of host operations between them.  Every weakly fair
  execution terminates without a fault; at the end every buffer that is not scoped holds the last boundary's
  contents, so the two results are read there, beside the six arguments, which end as they were launched.
-/
import proofs.«156499_j88184268522037_2_alg».proof.Proof.Gen.KernelIdeal.Frame

set_option maxRecDepth 16384

noncomputable section

namespace Cert.CausalAttn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its results: the logits array and the attention array end at the last boundary's contents,
    and the six arguments end as launched. -/
theorem run_results : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_v0_0) = W3 m ρ c (Proc.devRef .tc main_v0_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       h c _ (mem_uc main_v0_0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.CausalAttn.Run

end
-- ==== Proof.KernelRunReal.lean ====
/-
  The precondition read back: every entry of the input sequence array and of the three projection matrices is a
  real number.

  The precondition states, array by array, that the conjunction over all entries of "the absolute value is below +∞"
  is true.  A conjunction that is true had every conjunct true; an extended real whose absolute value is below +∞ is
  neither infinity.
-/
import proofs.«156499_j88184268522037_2_alg».proof.Defs
import proofs.«156499_j88184268522037_2_alg».proof.Proof.Gen.KernelIdeal
import proofs.«156499_j88184268522037_2_alg».proof.Proof.Gen.Pre_finite_inputs
import proofs.«156499_j88184268522037_2_alg».proof.Proof.LibRealClosed
import Idealize.ShloMosaic.Lib.ReduceAll
import Idealize.ShloMosaic.Lib.ValueIdx

noncomputable section

namespace Cert.CausalAttn.Run

open Idealize.ShloMosaic Idealize.SL.Sem Cert.LibRealClosed

/-- The shape with no axis has one index. -/
instance subsingleton_scalar_idx : Subsingleton Cert.Pre_finite_inputs.S_.Idx := ⟨fun a b => funext fun d => d.elim0⟩

/-- The word 0x7F800000 is +∞. -/
theorem ofBits_pos_inf : Ideal.ofBits .f32 0x7F800000#32 = (⊤ : EReal) := by simp [Ideal.ofBits, Ideal.ieee]

/-- A strict comparison that answers 1 holds. -/
theorem lt_of_cmp_olt {a b : EReal} (h : Ideal.cmp .olt a b = 1#1) : a < b := by
  unfold Ideal.cmp at h
  by_contra hn
  simp [hn] at h

/-- One array's conjunct of the precondition: if the conjunction over all entries of "|x| < +∞" is 1, every entry is real. -/
theorem allReal_of_all {S : Shape} {axes : List (Fin S.rank)} (x : FVec Ideal S .f32)
    (hb : Cert.Pre_finite_inputs.S_.BroadcastsInDim S (![] : Fin 0 → Fin S.rank))
    (h : S.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi (cmpf .olt (Host.absf x)
        (broadcastInDim S ![] hb (constant (F := Ideal) Cert.Pre_finite_inputs.S_ .f32 0x7F800000#32))) init h hu j = 1#1) :
    ∀ i, IsReal (x i) := by
  intro i
  have hi := Host.reduce_andi_all _ _ h hu j e i
  have hlt : max (x i) (-(x i)) < (⊤ : EReal) := by
    rw [← ofBits_pos_inf]
    exact lt_of_cmp_olt hi
  exact isReal_of_abs_lt_top hlt

open Cert.KernelIdeal in
/-- Under the precondition the sequence array and the three projection matrices hold real numbers only. -/
theorem args_real (m : (ℓ : Loc nD τ sig) → Buf (Elt Ideal) ℓ) (hpre : Cert.Pre_KernelIdeal m) (c : Dev nD) :
    (∀ i, IsReal (m ((c.tc : Thread nD τ).loc main_arg0) i))
    ∧ (∀ i, IsReal (m ((c.tc : Thread nD τ).loc main_arg1) i))
    ∧ (∀ i, IsReal (m ((c.tc : Thread nD τ).loc main_arg2) i))
    ∧ (∀ i, IsReal (m ((c.tc : Thread nD τ).loc main_arg3) i)) := by
  have h := congrFun (hpre c) ValueIdx.ix0
  dsimp only [Cert.Pre_finite_inputs.fn, Cert.Pre_finite_inputs.fn_part1] at h
  obtain ⟨h, -⟩ := IntOp.andi_eq_one.1 h
  obtain ⟨h, -⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨allReal_of_all _ _ _ _ _ _ h0, allReal_of_all _ _ _ _ _ _ h1, allReal_of_all _ _ _ _ _ _ h2,
    allReal_of_all _ _ _ _ _ _ h3⟩

end Cert.CausalAttn.Run

end
-- ==== Proof.KernelRunBlocks.lean ====
/-
  The blocks the attention region's grid points read, as parts of the argument arrays.

  The region's grid has 128 points, one per batch element.  At point `t` the sequence window holds batch element `t`
  of the input array, and each of the three projection windows holds its whole matrix: the index maps send the point
  to block `t` along the batch axis and to block 0 everywhere else, and an element of a block sits in its array at
  block index × block extent + its own coordinate.
-/
import proofs.«156499_j88184268522037_2_alg».proof.Proof.Gen.KernelIdeal.Frame
import proofs.«156499_j88184268522037_2_alg».proof.Proof.Spec
import proofs.«156499_j88184268522037_2_alg».proof.Proof.BodyValue
import proofs.«156499_j88184268522037_2_alg».proof.Proof.LibRealClosed
import Idealize.ShloMosaic.Lib.Pipeline.Value

set_option maxRecDepth 16384

noncomputable section

namespace Cert.CausalAttn.Run

open Idealize.ShloMosaic Idealize.ShloMosaic.TcCoe Idealize.ShloMosaic.ValueIdx Idealize.SL.Sem
open Idealize.ShloMosaic.Pipeline (Dat)
open Cert.KernelIdeal Cert.KernelIdeal.Gen Cert.LibRealClosed

variable (m : (ℓ : Loc nD τ sig) → Buf (Elt Ideal) ℓ) (ρ : Dev nD → PrngReg)

/-- The batch element a grid point works on: point `t` of the 128 works on element `t`. -/
def batchOf (t : Fin cfg0.N) : Fin 128 := ⟨t.val, by have h := t.isLt; have hN : cfg0.N = 128 := N_0; omega⟩

/-- The block indices of the six windows at every grid point: the sequence array and the two output arrays move
    with the point along the batch axis; the three projection matrices stay. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The sequence block at point `t` is batch element `t` of the sequence array. -/
theorem iblk0_0_apply (c : Dev nD) (t : Fin cfg0.N) (s : Fin 1024) (d : Fin 49) :
    (iblk0 (V0 m ρ) c 0 t : Vec Ideal S1x1024x49 .f32) (ix3 (0 : Fin 1) s d)
      = (m ((c : Thread nD τ).loc main_arg0) : S128x1024x49.Idx → EReal) (ix3 (batchOf t) s d) := by
  obtain ⟨e0, e1, e2, -⟩ := idx_facts0 t
  unfold iblk0
  rw [View.read_apply]
  show m (c.tc.loc main_arg0) _ = m (c.tc.loc main_arg0) _
  refine congrArg (m (c.tc.loc main_arg0)) (funext fun a => Fin.ext ?_)
  match a with
  | ⟨0, _⟩ => show win0_0.index t (0 : Fin 3) * 1 + 1 * (0 : Nat) = t.val; omega
  | ⟨1, _⟩ => show win0_0.index t (1 : Fin 3) * 1024 + 1 * s.val = s.val; omega
  | ⟨2, _⟩ => show win0_0.index t (2 : Fin 3) * 49 + 1 * d.val = d.val; omega

/-- A projection matrix's block at any point is the whole matrix. -/
theorem iblk0_1_eq (c : Dev nD) (t : Fin cfg0.N) :
    (iblk0 (V0 m ρ) c 1 t : Vec Ideal S49x64 .f32) = (m ((c : Thread nD τ).loc main_arg1) : S49x64.Idx → EReal) := by
  obtain ⟨-, -, -, e0, e1, -⟩ := idx_facts0 t
  funext y
  unfold iblk0
  rw [View.read_apply]
  show m (c.tc.loc main_arg1) _ = m (c.tc.loc main_arg1) _
  refine congrArg (m (c.tc.loc main_arg1)) (funext fun a => Fin.ext ?_)
  match a with
  | ⟨0, _⟩ => show win0_1.index t (0 : Fin 2) * 49 + 1 * (y 0).val = (y 0).val; omega
  | ⟨1, _⟩ => show win0_1.index t (1 : Fin 2) * 64 + 1 * (y 1).val = (y 1).val; omega

theorem iblk0_2_eq (c : Dev nD) (t : Fin cfg0.N) :
    (iblk0 (V0 m ρ) c 2 t : Vec Ideal S49x64 .f32) = (m ((c : Thread nD τ).loc main_arg2) : S49x64.Idx → EReal) := by
  obtain ⟨-, -, -, -, -, e0, e1, -⟩ := idx_facts0 t
  funext y
  unfold iblk0
  rw [View.read_apply]
  show m (c.tc.loc main_arg2) _ = m (c.tc.loc main_arg2) _
  refine congrArg (m (c.tc.loc main_arg2)) (funext fun a => Fin.ext ?_)
  match a with
  | ⟨0, _⟩ => show win0_2.index t (0 : Fin 2) * 49 + 1 * (y 0).val = (y 0).val; omega
  | ⟨1, _⟩ => show win0_2.index t (1 : Fin 2) * 64 + 1 * (y 1).val = (y 1).val; omega

theorem iblk0_3_eq (c : Dev nD) (t : Fin cfg0.N) :
    (iblk0 (V0 m ρ) c 3 t : Vec Ideal S49x64 .f32) = (m ((c : Thread nD τ).loc main_arg3) : S49x64.Idx → EReal) := by
  obtain ⟨-, -, -, -, -, -, -, e0, e1, -⟩ := idx_facts0 t
  funext y
  unfold iblk0
  rw [View.read_apply]
  show m (c.tc.loc main_arg3) _ = m (c.tc.loc main_arg3) _
  refine congrArg (m (c.tc.loc main_arg3)) (funext fun a => Fin.ext ?_)
  match a with
  | ⟨0, _⟩ => show win0_3.index t (0 : Fin 2) * 49 + 1 * (y 0).val = (y 0).val; omega
  | ⟨1, _⟩ => show win0_3.index t (1 : Fin 2) * 64 + 1 * (y 1).val = (y 1).val; omega

/-- The sequence a grid point's block holds is its batch element's. -/
theorem blockSeq_iblk (c : Dev nD) (t : Fin cfg0.N) :
    blockSeq (iblk0 (V0 m ρ) c 0 t) = seqOf (m ((c : Thread nD τ).loc main_arg0)) (batchOf t) := by
  funext s d
  exact iblk0_0_apply m ρ c t s d

/-- Every entry of a sequence block of an array of real numbers is a real number. -/
theorem iblk0_0_real (c : Dev nD) (t : Fin cfg0.N)
    (h : ∀ i, IsReal ((m ((c : Thread nD τ).loc main_arg0) : S128x1024x49.Idx → EReal) i)) (y : S1x1024x49.Idx) :
    IsReal ((iblk0 (V0 m ρ) c 0 t : Vec Ideal S1x1024x49 .f32) y) := by
  unfold iblk0
  rw [View.read_apply]
  exact h _

end Cert.CausalAttn.Run

end
-- ==== Proof.KernelRunRegion0.lean ====
/-
  What the attention region leaves in its two output arrays.

  Point `t` of the grid computes, from batch element `t` of the sequence array and the three projection matrices,
  the 1024×1024 block of attention weights of that element and its pooled vector, and writes them back as block `t`
  (along the batch axis) of the two output arrays.  Point `b` covers batch row `b`, so the 128 blocks tile each
  array, and after the region the arrays hold the attention weights and the pooled vectors of the whole batch.
-/
import proofs.«156499_j88184268522037_2_alg».proof.Proof.KernelRunBlocks
import Idealize.ShloMosaic.Lib.Pipeline.Value

set_option maxRecDepth 16384

noncomputable section

namespace Cert.CausalAttn.Run

open Idealize.ShloMosaic Idealize.ShloMosaic.TcCoe Idealize.ShloMosaic.ValueIdx Idealize.SL.Sem
open Idealize.ShloMosaic.Pipeline (Dat)
open Cert.KernelIdeal Cert.KernelIdeal.Gen Cert.LibRealClosed

variable (m : (ℓ : Loc nD τ sig) → Buf (Elt Ideal) ℓ) (ρ : Dev nD → PrngReg)

/-- The pooled vectors of the whole batch, laid out as the region's second output array. -/
def pooledAll (x : SX.Idx → EReal) (wq wk wv : SW.Idx → EReal) : S128x1x64.Idx → EReal :=
  fun i => pooled (seqOf x (i 0)) (matOf wq) (matOf wk) (matOf wv) (i 2)

/-- The three arrays the attention weights depend on hold real numbers only. -/
structure ArgsReal (c : Dev nD) : Prop where
  x : ∀ i, IsReal ((m ((c : Thread nD τ).loc main_arg0) : S128x1024x49.Idx → EReal) i)
  wq : ∀ i, IsReal ((m ((c : Thread nD τ).loc main_arg1) : S49x64.Idx → EReal) i)
  wk : ∀ i, IsReal ((m ((c : Thread nD τ).loc main_arg2) : S49x64.Idx → EReal) i)

/-- An element of point `t`'s attention block sits in the array at batch row `t`. -/
theorem emb4 (t : Fin cfg0.N) (q s : Fin 1024) :
    ((cfg0.win 4).blk t).view.emb (ix3 (0 : Fin 1) q s) = (ix3 (batchOf t) q s : S128x1024x1024.Idx) := by
  obtain ⟨-, -, -, -, -, -, -, -, -, e0, e1, e2, -⟩ := idx_facts0 t
  refine funext fun a => Fin.ext ?_
  match a with
  | ⟨0, _⟩ => show win0_4.index t (0 : Fin 3) * 1 + 1 * (0 : Nat) = t.val; omega
  | ⟨1, _⟩ => show win0_4.index t (1 : Fin 3) * 1024 + 1 * q.val = q.val; omega
  | ⟨2, _⟩ => show win0_4.index t (2 : Fin 3) * 1024 + 1 * s.val = s.val; omega

/-- An element of point `t`'s pooled block sits in the array at batch row `t`. -/
theorem emb5 (t : Fin cfg0.N) (k : Fin 64) :
    ((cfg0.win 5).blk t).view.emb (ix3 (0 : Fin 1) (0 : Fin 1) k) = (ix3 (batchOf t) (0 : Fin 1) k : S128x1x64.Idx) := by
  obtain ⟨-, -, -, -, -, -, -, -, -, -, -, -, e0, e1, e2⟩ := idx_facts0 t
  refine funext fun a => Fin.ext ?_
  match a with
  | ⟨0, _⟩ => show win0_5.index t (0 : Fin 3) * 1 + 1 * (0 : Nat) = t.val; omega
  | ⟨1, _⟩ => show win0_5.index t (1 : Fin 3) * 1 + 1 * (0 : Nat) = 0; omega
  | ⟨2, _⟩ => show win0_5.index t (2 : Fin 3) * 64 + 1 * k.val = k.val; omega

/-- What point `t` writes back to the attention array is block `t` of the batch's attention weights. -/
theorem flushed4_eq (c : Dev nD) (hr : ArgsReal m c) (t : Fin cfg0.N) :
    (dat0 (V0 m ρ) c).flushed 4 t = ((cfg0.win 4).blk t).view.read (Elt Ideal)
      (attnAll (m ((c : Thread nD τ).loc main_arg0)) (m ((c : Thread nD τ).loc main_arg1)) (m ((c : Thread nD τ).loc main_arg2))) := by
  show (cfg0.win 4).cut (grid0.coords t) ((dat0 (V0 m ρ) c).after 4 t) = _
  rw [after0_4]
  refine funext fun (j : S1x1024x1024.Idx) => ?_
  obtain ⟨z, q, s, rfl⟩ : ∃ (z : Fin 1) (q s : Fin 1024), j = ix3 z q s := ⟨j 0, j 1, j 2, eq_ix3 j⟩
  obtain rfl : z = 0 := Subsingleton.elim _ _
  rw [View.read_apply, emb4]
  have h1 : ∀ i, IsReal ((iblk0 (V0 m ρ) c 1 t : Vec Ideal S49x64 .f32) i) := by rw [iblk0_1_eq]; exact hr.wq
  have h2 : ∀ i, IsReal ((iblk0 (V0 m ρ) c 2 t : Vec Ideal S49x64 .f32) i) := by rw [iblk0_2_eq]; exact hr.wk
  refine (out0_4_apply (iblk0 (V0 m ρ) c 0 t) (iblk0 (V0 m ρ) c 1 t) (iblk0 (V0 m ρ) c 2 t) (iblk0 (V0 m ρ) c 3 t)
    (iblk0_0_real m ρ c t hr.x) h1 h2 q s).trans ?_
  rw [blockSeq_iblk, iblk0_1_eq, iblk0_2_eq]
  rfl

/-- What point `t` writes back to the pooled array is row `t` of the batch's pooled vectors. -/
theorem flushed5_eq (c : Dev nD) (hr : ArgsReal m c) (t : Fin cfg0.N) :
    (dat0 (V0 m ρ) c).flushed 5 t = ((cfg0.win 5).blk t).view.read (Elt Ideal)
      (pooledAll (m ((c : Thread nD τ).loc main_arg0)) (m ((c : Thread nD τ).loc main_arg1)) (m ((c : Thread nD τ).loc main_arg2)) (m ((c : Thread nD τ).loc main_arg3))) := by
  show (cfg0.win 5).cut (grid0.coords t) ((dat0 (V0 m ρ) c).after 5 t) = _
  rw [after0_5]
  refine funext fun (j : S1x1x64.Idx) => ?_
  obtain ⟨z, z', k, rfl⟩ : ∃ (z z' : Fin 1) (k : Fin 64), j = ix3 z z' k := ⟨j 0, j 1, j 2, eq_ix3 j⟩
  obtain rfl : z = 0 := Subsingleton.elim _ _
  obtain rfl : z' = 0 := Subsingleton.elim _ _
  rw [View.read_apply, emb5]
  have h1 : ∀ i, IsReal ((iblk0 (V0 m ρ) c 1 t : Vec Ideal S49x64 .f32) i) := by rw [iblk0_1_eq]; exact hr.wq
  have h2 : ∀ i, IsReal ((iblk0 (V0 m ρ) c 2 t : Vec Ideal S49x64 .f32) i) := by rw [iblk0_2_eq]; exact hr.wk
  refine (out0_5_apply (iblk0 (V0 m ρ) c 0 t) (iblk0 (V0 m ρ) c 1 t) (iblk0 (V0 m ρ) c 2 t) (iblk0 (V0 m ρ) c 3 t)
    (iblk0_0_real m ρ c t hr.x) h1 h2 k).trans ?_
  rw [blockSeq_iblk, iblk0_1_eq, iblk0_2_eq, iblk0_3_eq]
  rfl

/-- An index of the attention array is in point `t`'s block iff each coordinate is in the block's range on its axis. -/
theorem mem_blk4 (t : Fin cfg0.N) (i : S128x1024x1024.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v0_0).slice (win0_4.rect t)).set ↔ _
  rw [View.set_slice_whole, Rect.mem_set_unit]
  exact Iff.rfl

theorem mem_blk5 (t : Fin cfg0.N) (i : S128x1x64.Idx) :
    i ∈ ((cfg0.win 5).blk t).view.set ↔ ∀ a : Fin 3, win0_5.index t a * S1x1x64.size a ≤ (i a).val ∧ (i a).val < win0_5.index t a * S1x1x64.size a + S1x1x64.size a := by
  show i ∈ ((View.whole main_v0_1).slice (win0_5.rect t)).set ↔ _
  rw [View.set_slice_whole, Rect.mem_set_unit]
  exact Iff.rfl

/-- The point that covers batch row `b`. -/
def pointOf (b : Fin 128) : Fin cfg0.N := ⟨b.val, by have hN : cfg0.N = 128 := N_0; have := b.isLt; omega⟩

/-- The attention array after the first region: the batch's attention weights (point `b` covers batch row `b`). -/
theorem final4 (c : Dev nD) (hr : ArgsReal m c) :
    (dat0 (V0 m ρ) c).arrAt 4 cfg0.N
      = attnAll (m ((c : Thread nD τ).loc main_arg0)) (m ((c : Thread nD τ).loc main_arg1)) (m ((c : Thread nD τ).loc main_arg2)) :=
  (dat0 (V0 m ρ) c).arrAt_eq_of_cover 4 _ (fun t _ => flushed4_eq m ρ c hr t) fun (i : S128x1024x1024.Idx) => by
    refine ⟨pointOf (i 0), flush0_4 _, ?_⟩
    rw [mem_blk4]
    obtain ⟨-, -, -, -, -, -, -, -, -, e0, e1, e2, -⟩ := idx_facts0 (pointOf (i 0))
    have ht : (pointOf (i 0)).val = (i 0).val := rfl
    have h1 : (i 1).val < 1024 := (i 1).isLt
    have h2 : (i 2).val < 1024 := (i 2).isLt
    intro a
    match a with
    | ⟨0, _⟩ => show win0_4.index (pointOf (i 0)) (0 : Fin 3) * 1 ≤ (i 0).val ∧ (i 0).val < win0_4.index (pointOf (i 0)) (0 : Fin 3) * 1 + 1; omega
    | ⟨1, _⟩ => show win0_4.index (pointOf (i 0)) (1 : Fin 3) * 1024 ≤ (i 1).val ∧ (i 1).val < win0_4.index (pointOf (i 0)) (1 : Fin 3) * 1024 + 1024; omega
    | ⟨2, _⟩ => show win0_4.index (pointOf (i 0)) (2 : Fin 3) * 1024 ≤ (i 2).val ∧ (i 2).val < win0_4.index (pointOf (i 0)) (2 : Fin 3) * 1024 + 1024; omega

/-- The pooled array after the first region: the batch's pooled vectors. -/
theorem final5 (c : Dev nD) (hr : ArgsReal m c) :
    (dat0 (V0 m ρ) c).arrAt 5 cfg0.N
      = pooledAll (m ((c : Thread nD τ).loc main_arg0)) (m ((c : Thread nD τ).loc main_arg1)) (m ((c : Thread nD τ).loc main_arg2)) (m ((c : Thread nD τ).loc main_arg3)) :=
  (dat0 (V0 m ρ) c).arrAt_eq_of_cover 5 _ (fun t _ => flushed5_eq m ρ c hr t) fun (i : S128x1x64.Idx) => by
    refine ⟨pointOf (i 0), flush0_5 _, ?_⟩
    rw [mem_blk5]
    obtain ⟨-, -, -, -, -, -, -, -, -, -, -, -, e0, e1, e2⟩ := idx_facts0 (pointOf (i 0))
    have ht : (pointOf (i 0)).val = (i 0).val := rfl
    have h1 : (i 1).val < 1 := (i 1).isLt
    have h2 : (i 2).val < 64 := (i 2).isLt
    intro a
    match a with
    | ⟨0, _⟩ => show win0_5.index (pointOf (i 0)) (0 : Fin 3) * 1 ≤ (i 0).val ∧ (i 0).val < win0_5.index (pointOf (i 0)) (0 : Fin 3) * 1 + 1; omega
    | ⟨1, _⟩ => show win0_5.index (pointOf (i 0)) (1 : Fin 3) * 1 ≤ (i 1).val ∧ (i 1).val < win0_5.index (pointOf (i 0)) (1 : Fin 3) * 1 + 1; omega
    | ⟨2, _⟩ => show win0_5.index (pointOf (i 0)) (2 : Fin 3) * 64 ≤ (i 2).val ∧ (i 2).val < win0_5.index (pointOf (i 0)) (2 : Fin 3) * 64 + 64; omega

end Cert.CausalAttn.Run

end
-- ==== Proof.KernelRunHost.lean ====
/-
  The buffers between the two regions, read back.

  Between the attention region and the classifier region the program reshapes the pooled array [128,1,64] to the
  matrix [128,64] and the bias vector [1000] to the row [1,1000]; nothing else is written.  So the classifier region
  finds the pooled matrix at (r, k) holding the pooled array at (r, 0, k), the bias row at (0, n) holding the bias
  at n, and the classifier matrix as launched; and the attention array, which neither the reshapes nor the
  classifier region writes, ends holding what the attention region left.
-/
import proofs.«156499_j88184268522037_2_alg».proof.Proof.Gen.KernelIdeal.Frame
import proofs.«156499_j88184268522037_2_alg».proof.Proof.Spec
import proofs.«156499_j88184268522037_2_alg».proof.Proof.LibRealClosed
import Idealize.ShloMosaic.Lib.Pipeline.Value
import Idealize.ShloMosaic.Lib.ValueIdx

set_option maxRecDepth 16384

noncomputable section

namespace Cert.CausalAttn.Run

open Idealize.ShloMosaic Idealize.ShloMosaic.TcCoe Idealize.ShloMosaic.ValueIdx Idealize.SL.Sem
open Idealize.ShloMosaic.Pipeline (Dat)
open Cert.KernelIdeal Cert.KernelIdeal.Gen Cert.LibRealClosed

variable (m : (ℓ : Loc nD τ sig) → Buf (Elt Ideal) ℓ) (ρ : Dev nD → PrngReg)

/-- Neither the host stretch nor the classifier region writes the attention array: at the end it holds what the
    attention region left. -/
theorem W3_main_v0_0 (c : Dev nD) : W3 m ρ c (Proc.devRef .tc main_v0_0) = (dat0 (V0 m ρ) c).arrAt 4 cfg0.N :=
  calc W3 m ρ c (Proc.devRef .tc main_v0_0)
    _ = W2 m ρ c (Proc.devRef .tc main_v0_0) := W3_of_ne m ρ c main_v0_0 (by decide)
    _ = W1 m ρ c (Proc.devRef .tc main_v0_0) := StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V0 m ρ) c).arrAt 4 cfg0.N := W1_arr m ρ c 4

/-- The classifier matrix as the classifier region finds it is the argument. -/
theorem V2_main_arg4 (c : Dev nD) : V2 m ρ c main_arg4 = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl

/-- The pooled matrix the classifier region reads is the pooled array with its unit axis dropped. -/
theorem V2_main_v1_apply (c : Dev nD) (r : Fin 128) (k : Fin 64) :
    (V2 m ρ c main_v1 : S128x64.Idx → EReal) (ix2 r k)
      = ((dat0 (V0 m ρ) c).arrAt 5 cfg0.N : S128x1x64.Idx → EReal) (ix3 r (0 : Fin 1) k) := by
  have e : (V2 m ρ c main_v1 : S128x64.Idx → EReal)
      = shapeCast S128x64 (W1 m ρ c (Proc.devRef .tc main_v0_1) : S128x1x64.Idx → EReal) Facts₀.shapeCasts_S128x1x64_S128x64 := by
    show StableHlo.after hostOps1 (W1 m ρ c) (Proc.devRef .tc main_v1) = _
    after_results
    rfl
  rw [e]
  refine (shapeCast_apply _ _ (ix2 r k) (ix3 r (0 : Fin 1) k) ?_).trans (congrFun (W1_arr m ρ c 5) _)
  rw [Shape.rowMajor_val_three, Shape.rowMajor_val_two]
  show (r.val * 1 + 0) * 64 + k.val = r.val * 64 + k.val
  omega

/-- The bias row the classifier region reads is the bias vector. -/
theorem V2_main_v2_apply (c : Dev nD) (n : Fin 1000) :
    (V2 m ρ c main_v2 : S1x1000.Idx → EReal) (ix2 (0 : Fin 1) n)
      = (m ((c : Thread nD τ).loc main_arg5) : S1000.Idx → EReal) (ix1 n) := by
  have e : (V2 m ρ c main_v2 : S1x1000.Idx → EReal)
      = shapeCast S1x1000 (W1 m ρ c (Proc.devRef .tc main_arg5) : S1000.Idx → EReal) Facts₀.shapeCasts_S1000_S1x1000 := by
    show StableHlo.after hostOps1 (W1 m ρ c) (Proc.devRef .tc main_v2) = _
    after_results
    rfl
  rw [e]
  refine (shapeCast_apply _ _ (ix2 (0 : Fin 1) n) (ix1 n) ?_).trans (congrFun (W1_of_ne m ρ c main_arg5 (by decide)) _)
  rw [Shape.rowMajor_val_one, Shape.rowMajor_val_two]
  show n.val = 0 * 1000 + n.val
  omega

end Cert.CausalAttn.Run

end
-- ==== Proof.ClassifierValue.lean ====
/-
  What the classifier kernel leaves in its output block, entry by entry.

  The kernel has one grid point and whole-array blocks: it loads the pooled vectors (128 × 64), the classifier matrix
  (64 × 1000) and the bias as one row (1 × 1000), and stores one block (128 × 1000).  The store covers the whole block
  from the origin, so the block after the body is the stored value, and each load through the whole block is the block
  itself.  The stored value is the matrix product accumulated into the zero block, plus the bias row repeated down the
  128 rows; the two shape casts are to the same shape and change nothing.  At entry (r, n) that is the sum over the 64
  features of pooled(r, k) · matrix(k, n), plus bias(0, n).
-/
import proofs.«156499_j88184268522037_2_alg».proof.Proof.Gen.KernelIdeal.Frame
import proofs.«156499_j88184268522037_2_alg».proof.Proof.LibPlainMatmul
import Idealize.ShloMosaic.Lib.ValueLayout
import Idealize.ShloMosaic.Lib.Pipeline.Value
import Idealize.ShloMosaic.Lib.ValueIdx

noncomputable section

namespace Cert.CausalAttn.Run

open Cert.KernelIdeal Cert.KernelIdeal.Gen Idealize.ShloMosaic Idealize.ShloMosaic.ValueIdx

/-- The origin of a rank-2 block, as the constant zero offset. -/
theorem origin2 : (![0, 0] : Fin 2 → Nat) = fun _ => 0 := funext fun a => by fin_cases a <;> rfl

/-- The stored value at entry (r, n): the product's entry plus the bias of column n. -/
theorem classifierPayload_apply (p : Vec Ideal S128x64 .f32) (w : Vec Ideal S64x1000 .f32) (b : Vec Ideal S1x1000 .f32)
    (r : Fin 128) (n : Fin 1000) :
    k1_pay1 (F := Ideal) p w b (ix2 r n) = (∑ k : Fin 64, p (ix2 r k) * w (ix2 k n)) + b (ix2 (0 : Fin 1) n) := by
  unfold k1_pay1
  refine (addf_apply _ _ _).trans (congrArg₂ (· + ·) ?_ ?_)
  · rw [shapeCast_self p]
    exact Cert.LibPlainMatmul.matmul_plain_zero_apply (m := 128) (k := 64) (n := 1000) (φ₁ := .f32) (φ₂ := .f32) (some .fp32) p w r n
  · refine (broadcastTo_1b_ab_apply _ _ r n).trans ?_
    exact congrFun (shapeCast_self b _) _

/-- The output block after the body at entry (r, n), from the three input blocks. -/
theorem out1_3_apply (p : Vec Ideal S128x64 .f32) (w : Vec Ideal S64x1000 .f32) (b : Vec Ideal S1x1000 .f32)
    (r : Fin 128) (n : Fin 1000) :
    out1_3 (F := Ideal) p w b (ix2 r n) = (∑ k : Fin 64, p (ix2 r k) * w (ix2 k n)) + b (ix2 (0 : Fin 1) n) := by
  unfold out1_3
  rw [View.canon_unit_zero origin2]
  simp only [View.ld_unit_zero (S := S128x64) origin2, View.ld_unit_zero (S := S64x1000) origin2,
    View.ld_unit_zero (S := S1x1000) origin2]
  exact classifierPayload_apply p w b r n

end Cert.CausalAttn.Run

end
-- ==== Proof.KernelRunRegion1.lean ====
/-
  What the classifier region leaves in the logits array.

  The region has one grid point and every window's block is its whole array.  It finds the pooled matrix (the pooled
  array of the attention region with its unit axis dropped), the classifier matrix as launched and the bias as one row,
  and writes the product of the first two plus the bias row repeated down the rows: at (r, n) the sum over the 64
  features of pooled(r, k) · Wc(k, n), plus bc(n) — the logit n of batch element r.
-/
import proofs.«156499_j88184268522037_2_alg».proof.Proof.KernelRunRegion0
import proofs.«156499_j88184268522037_2_alg».proof.Proof.KernelRunHost
import proofs.«156499_j88184268522037_2_alg».proof.Proof.ClassifierValue
import Idealize.ShloMosaic.Lib.Pipeline.Value
import Idealize.ShloMosaic.Lib.ValueIdx

set_option maxRecDepth 16384

noncomputable section

namespace Cert.CausalAttn.Run

open Idealize.ShloMosaic Idealize.ShloMosaic.TcCoe Idealize.ShloMosaic.ValueIdx Idealize.SL.Sem
open Idealize.ShloMosaic.Pipeline (Dat)
open Cert.KernelIdeal Cert.KernelIdeal.Gen Cert.LibRealClosed

variable (m : (ℓ : Loc nD τ sig) → Buf (Elt Ideal) ℓ) (ρ : Dev nD → PrngReg)

/-- A logit from its three ingredients: the pooled row, the classifier matrix and the bias. -/
theorem logit_of_parts (P : S128x64.Idx → EReal) (W : S64x1000.Idx → EReal) (B : S1x1000.Idx → EReal)
    (x : SX.Idx → EReal) (wq wk wv : SW.Idx → EReal) (wc : SC.Idx → EReal) (bc : SB.Idx → EReal) (r : Fin 128) (n : Fin 1000)
    (hP : ∀ k : Fin 64, P (ix2 r k) = pooled (seqOf x r) (matOf wq) (matOf wk) (matOf wv) k)
    (hW : W = wc) (hB : B (ix2 (0 : Fin 1) n) = bc (ix1 n)) :
    (∑ k : Fin 64, P (ix2 r k) * W (ix2 k n)) + B (ix2 (0 : Fin 1) n) = logitsAll x wq wk wv wc bc (ix2 r n) := by
  subst hW
  rw [hB]
  simp only [hP]
  rfl

section AnyEntry
variable {F : FTy → Type} [FloatOps F]
variable (V : (c : Dev nD) → (b : Ref sig .tc) → Buf (Elt F) ((c : Thread nD τ).loc b))

/-- Every block index of the classifier region's four windows is zero at its one grid point: each block is its whole array. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The pooled window's block is the whole pooled matrix as the region finds it. -/
theorem iblk1_0_eq (c : Dev nD) (t : Fin cfg1.N) :
    (iblk1 V c 0 t : Vec F S128x64 .f32) = (V c main_v1 : S128x64.Idx → Elt F .f32) := by
  obtain ⟨e0, e1, -⟩ := idx_facts1 t
  funext y
  unfold iblk1
  rw [View.read_apply]
  show V c main_v1 _ = V c main_v1 _
  refine congrArg (V c main_v1) (funext fun a => Fin.ext ?_)
  match a with
  | ⟨0, _⟩ => show win1_0.index t (0 : Fin 2) * 128 + 1 * (y 0).val = (y 0).val; omega
  | ⟨1, _⟩ => show win1_0.index t (1 : Fin 2) * 64 + 1 * (y 1).val = (y 1).val; omega

/-- The classifier matrix's block is the whole matrix. -/
theorem iblk1_1_eq (c : Dev nD) (t : Fin cfg1.N) :
    (iblk1 V c 1 t : Vec F S64x1000 .f32) = (V c main_arg4 : S64x1000.Idx → Elt F .f32) := by
  obtain ⟨-, -, e0, e1, -⟩ := idx_facts1 t
  funext y
  unfold iblk1
  rw [View.read_apply]
  show V c main_arg4 _ = V c main_arg4 _
  refine congrArg (V c main_arg4) (funext fun a => Fin.ext ?_)
  match a with
  | ⟨0, _⟩ => show win1_1.index t (0 : Fin 2) * 64 + 1 * (y 0).val = (y 0).val; omega
  | ⟨1, _⟩ => show win1_1.index t (1 : Fin 2) * 1000 + 1 * (y 1).val = (y 1).val; omega

/-- The bias window's block is the whole bias row. -/
theorem iblk1_2_eq (c : Dev nD) (t : Fin cfg1.N) :
    (iblk1 V c 2 t : Vec F S1x1000 .f32) = (V c main_v2 : S1x1000.Idx → Elt F .f32) := by
  obtain ⟨-, -, -, -, e0, e1, -⟩ := idx_facts1 t
  funext y
  unfold iblk1
  rw [View.read_apply]
  show V c main_v2 _ = V c main_v2 _
  refine congrArg (V c main_v2) (funext fun a => Fin.ext ?_)
  match a with
  | ⟨0, _⟩ => show win1_2.index t (0 : Fin 2) * 1 + 1 * (y 0).val = (y 0).val; omega
  | ⟨1, _⟩ => show win1_2.index t (1 : Fin 2) * 1000 + 1 * (y 1).val = (y 1).val; omega

end AnyEntry

/-- An element of the logits block sits in the logits array at its own coordinates. -/
theorem emb1_3 (t : Fin cfg1.N) (r : Fin 128) (n : Fin 1000) :
    ((cfg1.win 3).blk t).view.emb (ix2 r n) = (ix2 r n : S128x1000.Idx) := by
  obtain ⟨-, -, -, -, -, -, e0, e1⟩ := idx_facts1 t
  refine funext fun a => Fin.ext ?_
  match a with
  | ⟨0, _⟩ => show win1_3.index t (0 : Fin 2) * 128 + 1 * r.val = r.val; omega
  | ⟨1, _⟩ => show win1_3.index t (1 : Fin 2) * 1000 + 1 * n.val = n.val; omega

/-- What the classifier region's one point writes back is the whole array of logits. -/
theorem flushed1_eq (c : Dev nD) (hr : ArgsReal m c) (t : Fin cfg1.N) :
    (dat1 (V2 m ρ) c).flushed 3 t = ((cfg1.win 3).blk t).view.read (Elt Ideal)
      (logitsAll (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  show (cfg1.win 3).cut (grid1.coords t) ((dat1 (V2 m ρ) c).after 3 t) = _
  rw [after1_3]
  refine funext fun (j : S128x1000.Idx) => ?_
  obtain ⟨r, n, rfl⟩ : ∃ (r : Fin 128) (n : Fin 1000), j = ix2 r n := ⟨j 0, j 1, eq_ix2 j⟩
  rw [View.read_apply, emb1_3]
  refine (out1_3_apply (iblk1 (V2 m ρ) c 0 t) (iblk1 (V2 m ρ) c 1 t) (iblk1 (V2 m ρ) c 2 t) r n).trans ?_
  rw [iblk1_0_eq, iblk1_1_eq, iblk1_2_eq]
  exact logit_of_parts (V2 m ρ c main_v1) (V2 m ρ c main_arg4) (V2 m ρ c main_v2) _ _ _ _ _ _ r n
    (fun k => by rw [V2_main_v1_apply, final5 m ρ c hr]; rfl) (V2_main_arg4 m ρ c) (V2_main_v2_apply m ρ c n)

theorem mem_blk1_3 (t : Fin cfg1.N) (i : S128x1000.Idx) :
    i ∈ ((cfg1.win 3).blk t).view.set ↔ ∀ a : Fin 2, win1_3.index t a * S128x1000.size a ≤ (i a).val ∧ (i a).val < win1_3.index t a * S128x1000.size a + S128x1000.size a := by
  show i ∈ ((View.whole main_v3).slice (win1_3.rect t)).set ↔ _
  rw [View.set_slice_whole, Rect.mem_set_unit]
  exact Iff.rfl

/-- The logits array after the classifier region (its one block is the whole array). -/
theorem final1_3 (c : Dev nD) (hr : ArgsReal m c) :
    (dat1 (V2 m ρ) c).arrAt 3 cfg1.N
      = logitsAll (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dat1 (V2 m ρ) c).arrAt_eq_of_cover 3 _ (fun t _ => flushed1_eq m ρ c hr t) fun (i : S128x1000.Idx) => by
    refine ⟨t1_0, flush1_3 _, ?_⟩
    rw [mem_blk1_3]
    obtain ⟨-, -, -, -, -, -, e0, e1⟩ := idx_facts1 t1_0
    have h0 : (i 0).val < 128 := (i 0).isLt
    have h1 : (i 1).val < 1000 := (i 1).isLt
    intro a
    match a with
    | ⟨0, _⟩ => show win1_3.index t1_0 (0 : Fin 2) * 128 ≤ (i 0).val ∧ (i 0).val < win1_3.index t1_0 (0 : Fin 2) * 128 + 128; omega
    | ⟨1, _⟩ => show win1_3.index t1_0 (1 : Fin 2) * 1000 ≤ (i 1).val ∧ (i 1).val < win1_3.index t1_0 (1 : Fin 2) * 1000 + 1000; omega

/-- At the end the logits array holds what the classifier region left. -/
theorem W3_main_v3 (c : Dev nD) : W3 m ρ c (Proc.devRef .tc main_v3) = (dat1 (V2 m ρ) c).arrAt 3 cfg1.N :=
  W3_arr m ρ c 3

end Cert.CausalAttn.Run

end
-- ==== Proof.KernelRun.lean ====
/-
  The idealized kernel program's run with its two results as functions of the arguments.

  Under the precondition every entry of the sequence array and of the three projection matrices is a real number, so
  each grid point's blocks hold reals and the attention region leaves the batch's attention weights and pooled
  vectors; the classifier region then leaves the logits.  The run's named results are rewritten by these equations.
-/
import proofs.«156499_j88184268522037_2_alg».proof.Defs
import proofs.«156499_j88184268522037_2_alg».proof.Proof.Gen.KernelIdeal
import proofs.«156499_j88184268522037_2_alg».proof.Proof.Gen.Pre_finite_inputs
import proofs.«156499_j88184268522037_2_alg».proof.Proof.Gen.KernelIdeal.Frame
import proofs.«156499_j88184268522037_2_alg».proof.Proof.Spec
import proofs.«156499_j88184268522037_2_alg».proof.Proof.BodyValue
import proofs.«156499_j88184268522037_2_alg».proof.Proof.LibRealClosed
import proofs.«156499_j88184268522037_2_alg».proof.Proof.KernelRunResults
import proofs.«156499_j88184268522037_2_alg».proof.Proof.KernelRunReal
import proofs.«156499_j88184268522037_2_alg».proof.Proof.KernelRunRegion0
import proofs.«156499_j88184268522037_2_alg».proof.Proof.KernelRunHost
import proofs.«156499_j88184268522037_2_alg».proof.Proof.KernelRunRegion1

set_option maxRecDepth 16384

noncomputable section

namespace Cert.CausalAttn.Run

open Idealize.ShloMosaic Idealize.ShloMosaic.TcCoe Idealize.ShloMosaic.ValueIdx Idealize.SL.Sem
open Idealize.ShloMosaic.Pipeline (Dat)
open Cert.KernelIdeal Cert.KernelIdeal.Gen Cert.LibRealClosed

variable (m : (ℓ : Loc nD τ sig) → Buf (Elt Ideal) ℓ) (ρ : Dev nD → PrngReg)

/-- THE RUN: every weakly fair execution of the idealized kernel program terminates without a fault; the logits array
    ends at the classifier's logits of the batch, the attention array at the batch's causal attention weights, and the
    six arguments end unchanged. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v3)
          = Cert.CausalAttn.logitsAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_v0_0)
          = Cert.CausalAttn.attnAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono (fun r h c => by
      obtain ⟨h0, h1, h2, -⟩ := args_real m hpre c
      have hr : ArgsReal m c := ⟨h0, h1, h2⟩
      obtain ⟨e3, e0, rest⟩ := h c
      exact ⟨e3.trans ((W3_main_v3 m ρ c).trans (final1_3 m ρ c hr)),
        e0.trans ((W3_main_v0_0 m ρ c).trans (final4 m ρ c hr)), rest⟩)
    (run_results (F := Ideal) m ρ)

end Cert.CausalAttn.Run

end
-- ==== Proof.lean ====
/-
  The proof of `Cert.Claim` for a single-head causal attention with a mean-pooled linear classifier.

  The kernel handles one sequence of the batch per grid point and its 1024 queries 128 at a time: a tile scores its
  queries against the keys up to its own last query only, masks the diagonal block, takes the row softmax and pads the
  rows with zeros; the reference masks the whole 1024×1024 score matrix with `-∞` above the diagonal and takes the row
  softmax.  On the extended reals the two agree: a masked entry contributes `exp(-∞) = 0` to a row's sum and nothing to
  its maximum, the kernel's factor 1/8 is the reference's division by √64 and its factor 1/1024 the reference's mean,
  and the zero padding equals the reference's `0 / (row sum)` because the row sum is not zero when the inputs are
  finite (the query's own term is positive) — the one place the precondition is used.  The pooled vector and the logits
  are then the same sums on both sides, a sum over the sequence being the sum of the eight tiles' sums.

  Both results are stated by one specification (Proof/Spec.lean); the kernel's run reaches it through the value of one
  grid point's blocks (Proof/BodyValue.lean, over the tiles of Proof/TileBridge.lean) and the run of the two regions
  (Proof/KernelRun.lean), the reference's through its operations read one at a time (Proof/RefAttn.lean,
  Proof/RefLogits.lean).  Nothing is rewritten between the kernel and its idealization, so that claim is trivial.
-/
import proofs.«156499_j88184268522037_2_alg».proof.Defs
import proofs.«156499_j88184268522037_2_alg».proof.Proof.Gen.Kernel
import proofs.«156499_j88184268522037_2_alg».proof.Proof.Gen.Kernel.Skeleton
import proofs.«156499_j88184268522037_2_alg».proof.Proof.Gen.Kernel.Launch
import proofs.«156499_j88184268522037_2_alg».proof.Proof.Gen.Kernel.Points
import proofs.«156499_j88184268522037_2_alg».proof.Proof.Gen.Kernel.Frame
import proofs.«156499_j88184268522037_2_alg».proof.Proof.Gen.KernelIdeal
import proofs.«156499_j88184268522037_2_alg».proof.Proof.Gen.KernelIdeal.Skeleton
import proofs.«156499_j88184268522037_2_alg».proof.Proof.Gen.KernelIdeal.Launch
import proofs.«156499_j88184268522037_2_alg».proof.Proof.Gen.KernelIdeal.Points
import proofs.«156499_j88184268522037_2_alg».proof.Proof.Gen.KernelIdeal.Frame
import proofs.«156499_j88184268522037_2_alg».proof.Proof.Gen.ReferenceIdeal
import proofs.«156499_j88184268522037_2_alg».proof.Proof.Gen.Pre_finite_inputs
import proofs.«156499_j88184268522037_2_alg».proof.Proof.Gen.ReferenceIdeal.Run
import proofs.«156499_j88184268522037_2_alg».proof.Proof.Gen.ReferenceIdeal.Read
import proofs.«156499_j88184268522037_2_alg».proof.Proof.RefLogits
import proofs.«156499_j88184268522037_2_alg».proof.Proof.KernelRun
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- On the extended reals the kernel and the reference end with the same logits and the same attention weights:
    both are the specification's functions of the (agreeing) arguments. -/
theorem algebraic : Cert.algebraic_KernelIdeal_ReferenceIdeal := by
  intro m ρ m' ρ' hpre hagree
  refine ⟨_, _, Cert.CausalAttn.Run.kernel_run m ρ hpre, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v28_eq, Cert.CausalAttn.Ref.ref_logits, (hagree c).1, (hagree c).2.1,
      (hagree c).2.2.1, (hagree c).2.2.2.1, (hagree c).2.2.2.2.1, (hagree c).2.2.2.2.2]
  · rw [(h c).2.1, Cert.ReferenceIdeal.Read.val_main_v20_eq, Cert.CausalAttn.Ref.ref_attn, (hagree c).1, (hagree c).2.1,
      (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
